-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2000000 : Shape := ⟨2, ![2, 2000000]⟩
abbrev S100000 : Shape := ⟨1, ![100000]⟩
abbrev S200000x64 : Shape := ⟨2, ![200000, 64]⟩
abbrev S64x64 : Shape := ⟨2, ![64, 64]⟩
abbrev S64 : Shape := ⟨1, ![64]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_v33

def fn {F : FTy → Type} [FloatOps F] (main_arg0 : IVec S2x2000000 32) (main_arg1 : FVec F S100000 .f32) (main_arg2 : FVec F S200000x64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S100000 .f32 := Host.absf main_arg1
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S200000x64 .f32 := Host.absf main_arg2
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S2x2000000 : Shape := ⟨2, ![2, 2000000]⟩
abbrev S100000 : Shape := ⟨1, ![100000]⟩
abbrev S200000x64 : Shape := ⟨2, ![200000, 64]⟩
abbrev S64x64 : Shape := ⟨2, ![64, 64]⟩
abbrev S64 : Shape := ⟨1, ![64]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S200000 : Shape := ⟨1, ![200000]⟩
abbrev S200000x1 : Shape := ⟨2, ![200000, 1]⟩
abbrev S100000x1 : Shape := ⟨2, ![100000, 1]⟩
abbrev S1x64 : Shape := ⟨2, ![1, 64]⟩
abbrev S8000x64 : Shape := ⟨2, ![8000, 64]⟩
abbrev S2000000x64 : Shape := ⟨2, ![2000000, 64]⟩
abbrev S100000x64 : Shape := ⟨2, ![100000, 64]⟩
abbrev S10000x64 : Shape := ⟨2, ![10000, 64]⟩
abbrev S10000x1 : Shape := ⟨2, ![10000, 1]⟩
abbrev S8000x1 : Shape := ⟨2, ![8000, 1]⟩

abbrev nBuf : Space → Nat
  | .hbm => 148
  | .vmem => 72
  | .smem => 0
  | _ => 0

abbrev hbmTy0_0 (i : Nat) : BufTy := match i % 128 with
  | 0 => ⟨S2x2000000, .i32⟩
  | 1 => ⟨S100000, .f32⟩
  | 2 => ⟨S200000x64, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S1x2000000, .i32⟩
  | 10 => ⟨S2000000, .i32⟩
  | 11 => ⟨S1x2000000, .i32⟩
  | 12 => ⟨S2000000, .i32⟩
  | 13 => ⟨S_, .i32⟩
  | 14 => ⟨S2000000, .i32⟩
  | 15 => ⟨S2000000, .i1⟩
  | 16 => ⟨S_, .i32⟩
  | 17 => ⟨S2000000, .i32⟩
  | 18 => ⟨S2000000, .i32⟩
  | 19 => ⟨S2000000, .i32⟩
  | 20 => ⟨S2000000x1, .i32⟩
  | 21 => ⟨S2000000, .f32⟩
  | 22 => ⟨S_, .f32⟩
  | 23 => ⟨S200000, .f32⟩
  | 24 => ⟨S2000000x1, .i32⟩
  | 25 => ⟨S200000, .f32⟩
  | 26 => ⟨S_, .f32⟩
  | 27 => ⟨S200000, .f32⟩
  | 28 => ⟨S200000, .i1⟩
  | 29 => ⟨S_, .f32⟩
  | 30 => ⟨S200000, .f32⟩
  | 31 => ⟨S200000, .f32⟩
  | 32 => ⟨S_, .f32⟩
  | 33 => ⟨S_, .f32⟩
  | 34 => ⟨S200000, .f32⟩
  | 35 => ⟨S200000, .f32⟩
  | 36 => ⟨S200000x1, .f32⟩
  | 37 => ⟨S_, .f32⟩
  | 38 => ⟨S2000000, .f32⟩
  | 39 => ⟨S_, .f32⟩
  | 40 => ⟨S100000, .f32⟩
  | 41 => ⟨S2000000x1, .i32⟩
  | 42 => ⟨S100000, .f32⟩
  | 43 => ⟨S_, .f32⟩
  | 44 => ⟨S100000, .f32⟩
  | 45 => ⟨S100000, .i1⟩
  | 46 => ⟨S_, .f32⟩
  | 47 => ⟨S100000, .f32⟩
  | 48 => ⟨S100000, .f32⟩
  | 49 => ⟨S_, .f32⟩
  | 50 => ⟨S_, .f32⟩
  | 51 => ⟨S100000, .f32⟩
  | 52 => ⟨S100000, .f32⟩
  | 53 => ⟨S100000x1, .f32⟩
  | 54 => ⟨S2000000x1, .f32⟩
  | 55 => ⟨S1x64, .f32⟩
  | 56 => ⟨S200000x64, .f32⟩
  | 57 => ⟨S_, .i32⟩
  | 58 => ⟨S2000000, .i32⟩
  | 59 => ⟨S2000000, .i1⟩
  | 60 => ⟨S_, .i32⟩
  | 61 => ⟨S2000000, .i32⟩
  | 62 => ⟨S2000000, .i32⟩
  | 63 => ⟨S2000000, .i32⟩
  | 64 => ⟨S2000000x1, .i32⟩
  | 65 => ⟨S2000000x64, .f32⟩
  | 66 => ⟨S_, .f32⟩
  | 67 => ⟨S100000x64, .f32⟩
  | 68 => ⟨S2000000x1, .i32⟩
  | 69 => ⟨S100000x64, .f32⟩
  | 70 => ⟨S100000x64, .f32⟩
  | 71 => ⟨S_, .i32⟩
  | 72 => ⟨S2000000, .i32⟩
  | 73 => ⟨S2000000, .i1⟩
  | 74 => ⟨S_, .i32⟩
  | 75 => ⟨S2000000, .i32⟩
  | 76 => ⟨S2000000, .i32⟩
  | 77 => ⟨S2000000, .i32⟩
  | 78 => ⟨S2000000x1, .i32⟩
  | 79 => ⟨S2000000x64, .f32⟩
  | 80 => ⟨S2000000x64, .f32⟩
  | 81 => ⟨S_, .f32⟩
  | 82 => ⟨S200000x64, .f32⟩
  | 83 => ⟨S2000000x1, .i32⟩
  | 84 => ⟨S200000x64, .f32⟩
  | 85 => ⟨S200000x64, .f32⟩
  | 86 => ⟨S1x64, .f32⟩
  | 87 => ⟨S200000x64, .f32⟩
  | 88 => ⟨S_, .i32⟩
  | 89 => ⟨S2000000, .i32⟩
  | 90 => ⟨S2000000, .i1⟩
  | 91 => ⟨S_, .i32⟩
  | 92 => ⟨S2000000, .i32⟩
  | 93 => ⟨S2000000, .i32⟩
  | 94 => ⟨S2000000, .i32⟩
  | 95 => ⟨S2000000x1, .i32⟩
  | 96 => ⟨S2000000x64, .f32⟩
  | 97 => ⟨S_, .f32⟩
  | 98 => ⟨S100000x64, .f32⟩
  | 99 => ⟨S2000000x1, .i32⟩
  | 100 => ⟨S100000x64, .f32⟩
  | 101 => ⟨S100000x64, .f32⟩
  | 102 => ⟨S_, .i32⟩
  | 103 => ⟨S2000000, .i32⟩
  | 104 => ⟨S2000000, .i1⟩
  | 105 => ⟨S_, .i32⟩
  | 106 => ⟨S2000000, .i32⟩
  | 107 => ⟨S2000000, .i32⟩
  | 108 => ⟨S2000000, .i32⟩
  | 109 => ⟨S2000000x1, .i32⟩
  | 110 => ⟨S2000000x64, .f32⟩
  | 111 => ⟨S2000000x64, .f32⟩
  | 112 => ⟨S_, .f32⟩
  | 113 => ⟨S200000x64, .f32⟩
  | 114 => ⟨S2000000x1, .i32⟩
  | 115 => ⟨S200000x64, .f32⟩
  | 116 => ⟨S200000x64, .f32⟩
  | 117 => ⟨S1x64, .f32⟩
  | 118 => ⟨S200000x64, .f32⟩
  | 119 => ⟨S_, .i32⟩
  | 120 => ⟨S2000000, .i32⟩
  | 121 => ⟨S2000000, .i1⟩
  | 122 => ⟨S_, .i32⟩
  | 123 => ⟨S2000000, .i32⟩
  | 124 => ⟨S2000000, .i32⟩
  | 125 => ⟨S2000000, .i32⟩
  | 126 => ⟨S2000000x1, .i32⟩
  | 127 => ⟨S2000000x64, .f32⟩
  | _ => ⟨S2x2000000, .i32⟩

abbrev hbmTy0_1 (i : Nat) : BufTy := match i % 128 with
  | 0 => ⟨S_, .f32⟩
  | 1 => ⟨S100000x64, .f32⟩
  | 2 => ⟨S2000000x1, .i32⟩
  | 3 => ⟨S100000x64, .f32⟩
  | 4 => ⟨S100000x64, .f32⟩
  | 5 => ⟨S_, .i32⟩
  | 6 => ⟨S2000000, .i32⟩
  | 7 => ⟨S2000000, .i1⟩
  | 8 => ⟨S_, .i32⟩
  | 9 => ⟨S2000000, .i32⟩
  | 10 => ⟨S2000000, .i32⟩
  | 11 => ⟨S2000000, .i32⟩
  | 12 => ⟨S2000000x1, .i32⟩
  | 13 => ⟨S2000000x64, .f32⟩
  | 14 => ⟨S2000000x64, .f32⟩
  | 15 => ⟨S_, .f32⟩
  | 16 => ⟨S200000x64, .f32⟩
  | 17 => ⟨S2000000x1, .i32⟩
  | 18 => ⟨S200000x64, .f32⟩
  | 19 => ⟨S200000x64, .f32⟩
  | _ => ⟨S2x2000000, .i32⟩

abbrev hbmTy (i : Nat) : BufTy := match i / 128 with
  | 0 => hbmTy0_0 i
  | 1 => hbmTy0_1 i
  | _ => ⟨S2x2000000, .i32⟩

abbrev bufTy : (tb : Table) → Fin (tcTables nBuf tb) → BufTy
  | .hbm, ⟨i, _⟩ => hbmTy i
  | .local _ .vmem, ⟨0, _⟩ => ⟨S8000x64, .f32⟩
  | .local _ .vmem, ⟨1, _⟩ => ⟨S8000x64, .f32⟩
  | .local _ .vmem, ⟨2, _⟩ => ⟨S64x64, .f32⟩
  | .local _ .vmem, ⟨3, _⟩ => ⟨S1x64, .f32⟩
  | .local _ .vmem, ⟨4, _⟩ => ⟨S8000x64, .f32⟩
  | .local _ .vmem, ⟨5, _⟩ => ⟨S8000x64, .f32⟩
  | .local _ .vmem, ⟨6, _⟩ => ⟨S10000x64, .f32⟩
  | .local _ .vmem, ⟨7, _⟩ => ⟨S10000x64, .f32⟩
  | .local _ .vmem, ⟨8, _⟩ => ⟨S10000x1, .f32⟩
  | .local _ .vmem, ⟨9, _⟩ => ⟨S10000x1, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x1, .f32⟩
  | .local _ .vmem, ⟨15, _⟩ => ⟨S10000x1, .f32⟩
  | .local _ .vmem, ⟨16, _⟩ => ⟨S10000x64, .f32⟩
  | .local _ .vmem, ⟨17, _⟩ => ⟨S10000x64, .f32⟩
  | .local _ .vmem, ⟨18, _⟩ => ⟨S8000x64, .f32⟩
  | .local _ .vmem, ⟨19, _⟩ => ⟨S8000x64, .f32⟩
  | .local _ .vmem, ⟨20, _⟩ => ⟨S8000x1, .f32⟩
  | .local _ .vmem, ⟨21, _⟩ => ⟨S8000x1, .f32⟩
  | .local _ .vmem, ⟨22, _⟩ => ⟨S8000x64, .f32⟩
  | .local _ .vmem, ⟨23, _⟩ => ⟨S8000x64, .f32⟩
  | .local _ .vmem, ⟨24, _⟩ => ⟨S8000x64, .f32⟩
  | .local _ .vmem, ⟨25, _⟩ => ⟨S8000x64, .f32⟩
  | .local _ .vmem, ⟨26, _⟩ => ⟨S64x64, .f32⟩
  | .local _ .vmem, ⟨27, _⟩ => ⟨S1x64, .f32⟩
  | .local _ .vmem, ⟨28, _⟩ => ⟨S8000x64, .f32⟩
  | .local _ .vmem, ⟨29, _⟩ => ⟨S8000x64, .f32⟩
  | .local _ .vmem, ⟨30, _⟩ => ⟨S10000x64, .f32⟩
  | .local _ .vmem, ⟨31, _⟩ => ⟨S10000x64, .f32⟩
  | .local _ .vmem, ⟨32, _⟩ => ⟨S10000x1, .f32⟩
  | .local _ .vmem, ⟨33, _⟩ => ⟨S10000x1, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x1, .f32⟩
  | .local _ .vmem, ⟨39, _⟩ => ⟨S10000x1, .f32⟩
  | .local _ .vmem, ⟨40, _⟩ => ⟨S10000x64, .f32⟩
  | .local _ .vmem, ⟨41, _⟩ => ⟨S10000x64, .f32⟩
  | .local _ .vmem, ⟨42, _⟩ => ⟨S8000x64, .f32⟩
  | .local _ .vmem, ⟨43, _⟩ => ⟨S8000x64, .f32⟩
  | .local _ .vmem, ⟨44, _⟩ => ⟨S8000x1, .f32⟩
  | .local _ .vmem, ⟨45, _⟩ => ⟨S8000x1, .f32⟩
  | .local _ .vmem, ⟨46, _⟩ => ⟨S8000x64, .f32⟩
  | .local _ .vmem, ⟨47, _⟩ => ⟨S8000x64, .f32⟩
  | .local _ .vmem, ⟨48, _⟩ => ⟨S8000x64, .f32⟩
  | .local _ .vmem, ⟨49, _⟩ => ⟨S8000x64, .f32⟩
  | .local _ .vmem, ⟨50, _⟩ => ⟨S64x64, .f32⟩
  | .local _ .vmem, ⟨51, _⟩ => ⟨S1x64, .f32⟩
  | .local _ .vmem, ⟨52, _⟩ => ⟨S8000x64, .f32⟩
  | .local _ .vmem, ⟨53, _⟩ => ⟨S8000x64, .f32⟩
  | .local _ .vmem, ⟨54, _⟩ => ⟨S10000x64, .f32⟩
  | .local _ .vmem, ⟨55, _⟩ => ⟨S10000x64, .f32⟩
  | .local _ .vmem, ⟨56, _⟩ => ⟨S10000x1, .f32⟩
  | .local _ .vmem, ⟨57, _⟩ => ⟨S10000x1, .f32⟩
  | .local _ .vmem, ⟨58, _⟩ => ⟨S10000x64, .f32⟩
  | .local _ .vmem, ⟨59, _⟩ => ⟨S10000x64, .f32⟩
  | .local _ .vmem, ⟨60, _⟩ => ⟨S10000x64, .f32⟩
  | .local _ .vmem, ⟨61, _⟩ => ⟨S10000x64, .f32⟩
  | .local _ .vmem, ⟨62, _⟩ => ⟨S10000x1, .f32⟩
  | .local _ .vmem, ⟨63, _⟩ => ⟨S10000x1, .f32⟩
  | .local _ .vmem, ⟨64, _⟩ => ⟨S10000x64, .f32⟩
  | .local _ .vmem, ⟨65, _⟩ => ⟨S10000x64, .f32⟩
  | .local _ .vmem, ⟨66, _⟩ => ⟨S8000x64, .f32⟩
  | .local _ .vmem, ⟨67, _⟩ => ⟨S8000x64, .f32⟩
  | .local _ .vmem, ⟨68, _⟩ => ⟨S8000x1, .f32⟩
  | .local _ .vmem, ⟨69, _⟩ => ⟨S8000x1, .f32⟩
  | .local _ .vmem, ⟨70, _⟩ => ⟨S8000x64, .f32⟩
  | .local _ .vmem, ⟨71, _⟩ => ⟨S8000x64, .f32⟩
  | _, _ => ⟨S2x2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_6 : Ref sig .tc := ⟨.hbm, 43, rfl⟩
abbrev main_v24 : Ref sig .tc := ⟨.hbm, 44, rfl⟩
abbrev main_v25 : Ref sig .tc := ⟨.hbm, 45, rfl⟩
abbrev main_cst_7 : Ref sig .tc := ⟨.hbm, 46, rfl⟩
abbrev main_v26 : Ref sig .tc := ⟨.hbm, 47, rfl⟩
abbrev main_v27 : Ref sig .tc := ⟨.hbm, 48, rfl⟩
abbrev main_cst_8 : Ref sig .tc := ⟨.hbm, 49, rfl⟩
abbrev main_call1_v0 : Ref sig .tc := ⟨.hbm, 50, rfl⟩
abbrev main_call1_v1 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_9 : Ref sig .tc := ⟨.hbm, 57, rfl⟩
abbrev main_v33 : Ref sig .tc := ⟨.hbm, 58, rfl⟩
abbrev main_v34 : Ref sig .tc := ⟨.hbm, 59, rfl⟩
abbrev main_c_10 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_11 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_12 : Ref sig .tc := ⟨.hbm, 71, rfl⟩
abbrev main_v44 : Ref sig .tc := ⟨.hbm, 72, rfl⟩
abbrev main_v45 : Ref sig .tc := ⟨.hbm, 73, rfl⟩
abbrev main_c_13 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_14 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_15 : Ref sig .tc := ⟨.hbm, 88, rfl⟩
abbrev main_v58 : Ref sig .tc := ⟨.hbm, 89, rfl⟩
abbrev main_v59 : Ref sig .tc := ⟨.hbm, 90, rfl⟩
abbrev main_c_16 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_17 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_18 : Ref sig .tc := ⟨.hbm, 102, rfl⟩
abbrev main_v69 : Ref sig .tc := ⟨.hbm, 103, rfl⟩
abbrev main_v70 : Ref sig .tc := ⟨.hbm, 104, rfl⟩
abbrev main_c_19 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_20 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_c_21 : Ref sig .tc := ⟨.hbm, 119, rfl⟩
abbrev main_v83 : Ref sig .tc := ⟨.hbm, 120, rfl⟩
abbrev main_v84 : Ref sig .tc := ⟨.hbm, 121, rfl⟩
abbrev main_c_22 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_23 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_c_24 : Ref sig .tc := ⟨.hbm, 133, rfl⟩
abbrev main_v94 : Ref sig .tc := ⟨.hbm, 134, rfl⟩
abbrev main_v95 : Ref sig .tc := ⟨.hbm, 135, rfl⟩
abbrev main_c_25 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_26 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg3_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg1_1 : Ref sig .tc := ⟨.vmem, 57, rfl⟩
abbrev cc9_stg2_0 : Ref sig .tc := ⟨.vmem, 58, rfl⟩
abbrev cc9_stg2_1 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg1_1 : Ref sig .tc := ⟨.vmem, 63, rfl⟩
abbrev cc10_stg2_0 : Ref sig .tc := ⟨.vmem, 64, rfl⟩
abbrev cc10_stg2_1 : Ref sig .tc := ⟨.vmem, 65, rfl⟩
abbrev cc11_stg0_0 : Ref sig .tc := ⟨.vmem, 66, rfl⟩
abbrev cc11_stg0_1 : Ref sig .tc := ⟨.vmem, 67, rfl⟩
abbrev cc11_stg1_0 : Ref sig .tc := ⟨.vmem, 68, rfl⟩
abbrev cc11_stg1_1 : Ref sig .tc := ⟨.vmem, 69, rfl⟩
abbrev cc11_stg2_0 : Ref sig .tc := ⟨.vmem, 70, rfl⟩
abbrev cc11_stg2_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem3_1 : DmaSem sig := 53
abbrev cc9_sem0_0 : DmaSem sig := 54
abbrev cc9_sem0_1 : DmaSem sig := 55
abbrev cc9_sem1_0 : DmaSem sig := 56
abbrev cc9_sem1_1 : DmaSem sig := 57
abbrev cc9_sem2_0 : DmaSem sig := 58
abbrev cc9_sem2_1 : DmaSem sig := 59
abbrev cc10_sem0_0 : DmaSem sig := 60
abbrev cc10_sem0_1 : DmaSem sig := 61
abbrev cc10_sem1_0 : DmaSem sig := 62
abbrev cc10_sem1_1 : DmaSem sig := 63
abbrev cc10_sem2_0 : DmaSem sig := 64
abbrev cc10_sem2_1 : DmaSem sig := 65
abbrev cc11_sem0_0 : DmaSem sig := 66
abbrev cc11_sem0_1 : DmaSem sig := 67
abbrev cc11_sem1_0 : DmaSem sig := 68
abbrev cc11_sem1_1 : DmaSem sig := 69
abbrev cc11_sem2_0 : DmaSem sig := 70
abbrev cc11_sem2_1 : DmaSem sig := 71

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![200], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S8000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S8000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S10000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![200], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S10000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S10000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S8000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S8000x1 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S8000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S200000 : S_.BroadcastsInDim S200000 (![] : Fin 0 → Fin S200000.rank)
  shapeCasts_S200000_S200000x1 : S200000.ShapeCasts S200000x1
  bcast_S_S100000 : S_.BroadcastsInDim S100000 (![] : Fin 0 → Fin S100000.rank)
  shapeCasts_S100000_S100000x1 : S100000.ShapeCasts S100000x1
  shapeCasts_S2000000_S2000000x1 : S2000000.ShapeCasts S2000000x1
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S200000x64 : S_.BroadcastsInDim S200000x64 (![] : Fin 0 → Fin S200000x64.rank)
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  gather_S100000_S2000000x1_S2000000_n_0_n_n_0_1_1_wf : GatherDims.WF S100000 S2000000x1 S2000000 [] [0] [] [0] [] 1 ![1]
  scatter_S200000_S2000000x1_S2000000_n_0_0_1_wf : ScatterDims.WF S200000 S2000000x1 S2000000 [] [0] [0] 1
  scatter_S100000_S2000000x1_S2000000_n_0_0_1_wf : ScatterDims.WF S100000 S2000000x1 S2000000 [] [0] [0] 1
  dot_S8000x64_S64x64_S8000x64_1_1_0_0_n_n_wf : DotDims.WF S8000x64 S64x64 S8000x64 [1] [1] [0] [0] [] []
  gather_S200000x64_S2000000x1_S2000000x64_1_0_n_n_0_1_164_wf : GatherDims.WF S200000x64 S2000000x1 S2000000x64 [1] [0] [] [0] [] 1 ![1, 64]
  scatter_S100000x64_S2000000x1_S2000000x64_1_0_0_1_wf : ScatterDims.WF S100000x64 S2000000x1 S2000000x64 [1] [0] [0] 1
  gather_S100000x64_S2000000x1_S2000000x64_1_0_n_n_0_1_164_wf : GatherDims.WF S100000x64 S2000000x1 S2000000x64 [1] [0] [] [0] [] 1 ![1, 64]
  scatter_S200000x64_S2000000x1_S2000000x64_1_0_0_1_wf : ScatterDims.WF S200000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S200000x64.size a
  hwx0_0 : ∀ i : grid0.Coords, EltTy.bits .f32 = 32 ∨ (Rect.block (s := S200000x64) S8000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x64.size a ≤ S200000x64.size a
  hwx0_3 : ∀ i : grid0.Coords, EltTy.bits .f32 = 32 ∨ (Rect.block (s := S200000x64) S8000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S2000000x64.size a
  hwx2_0 : ∀ i : grid2.Coords, EltTy.bits .f32 = 32 ∨ (Rect.block (s := S2000000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S2000000x1.size a
  hwx2_1 : ∀ i : grid2.Coords, EltTy.bits .f32 = 32 ∨ (Rect.block (s := S2000000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S2000000x64.size a
  hwx2_2 : ∀ i : grid2.Coords, EltTy.bits .f32 = 32 ∨ (Rect.block (s := S2000000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S200000x64.size a
  hwx3_0 : ∀ i : grid3.Coords, EltTy.bits .f32 = 32 ∨ (Rect.block (s := S200000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x1.size a ≤ S200000x1.size a
  hwx3_1 : ∀ i : grid3.Coords, EltTy.bits .f32 = 32 ∨ (Rect.block (s := S200000x1) S8000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x64.size a ≤ S200000x64.size a
  hwx3_2 : ∀ i : grid3.Coords, EltTy.bits .f32 = 32 ∨ (Rect.block (s := S200000x64) S8000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S200000x64.size a
  hwx4_0 : ∀ i : grid4.Coords, EltTy.bits .f32 = 32 ∨ (Rect.block (s := S200000x64) S8000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8000x64.size a ≤ S200000x64.size a
  hwx4_3 : ∀ i : grid4.Coords, EltTy.bits .f32 = 32 ∨ (Rect.block (s := S200000x64) S8000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S100000x1.size a
  hwx5_1 : ∀ i : grid5.Coords, EltTy.bits .f32 = 32 ∨ (Rect.block (s := S100000x1) S10000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S2000000x64.size a
  hwx6_0 : ∀ i : grid6.Coords, EltTy.bits .f32 = 32 ∨ (Rect.block (s := S2000000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x1.size a ≤ S2000000x1.size a
  hwx6_1 : ∀ i : grid6.Coords, EltTy.bits .f32 = 32 ∨ (Rect.block (s := S2000000x1) S10000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S2000000x64.size a
  hwx6_2 : ∀ i : grid6.Coords, EltTy.bits .f32 = 32 ∨ (Rect.block (s := S2000000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x64.size a ≤ S200000x64.size a
  hwx7_0 : ∀ i : grid7.Coords, EltTy.bits .f32 = 32 ∨ (Rect.block (s := S200000x64) S8000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8000x1.size a ≤ S200000x1.size a
  hwx7_1 : ∀ i : grid7.Coords, EltTy.bits .f32 = 32 ∨ (Rect.block (s := S200000x1) S8000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S8000x64.size a ≤ S200000x64.size a
  hwx7_2 : ∀ i : grid7.Coords, EltTy.bits .f32 = 32 ∨ (Rect.block (s := S200000x64) S8000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8000x64.size a ≤ S200000x64.size a
  hwx8_0 : ∀ i : grid8.Coords, EltTy.bits .f32 = 32 ∨ (Rect.block (s := S200000x64) S8000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S8000x64.size a ≤ S200000x64.size a
  hwx8_3 : ∀ i : grid8.Coords, EltTy.bits .f32 = 32 ∨ (Rect.block (s := S200000x64) S8000x64.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x1.size a ≤ S100000x1.size a
  hwx9_1 : ∀ i : grid9.Coords, EltTy.bits .f32 = 32 ∨ (Rect.block (s := S100000x1) S10000x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x64.size a ≤ S100000x64.size a
  hwx9_2 : ∀ i : grid9.Coords, EltTy.bits .f32 = 32 ∨ (Rect.block (s := S100000x64) S10000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S2000000x64.size a
  hwx10_0 : ∀ i : grid10.Coords, EltTy.bits .f32 = 32 ∨ (Rect.block (s := S2000000x64) S10000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S10000x1.size a ≤ S2000000x1.size a
  hwx10_1 : ∀ i : grid10.Coords, EltTy.bits .f32 = 32 ∨ (Rect.block (s := S2000000x1) S10000x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S10000x64.size a ≤ S2000000x64.size a
  hwx10_2 : ∀ i : grid10.Coords, EltTy.bits .f32 = 32 ∨ (Rect.block (s := S2000000x64) S10000x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S8000x64.size a ≤ S200000x64.size a
  hwx11_0 : ∀ i : grid11.Coords, EltTy.bits .f32 = 32 ∨ (Rect.block (s := S200000x64) S8000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S8000x1.size a ≤ S200000x1.size a
  hwx11_1 : ∀ i : grid11.Coords, EltTy.bits .f32 = 32 ∨ (Rect.block (s := S200000x1) S8000x1.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S8000x64.size a ≤ S200000x64.size a
  hwx11_2 : ∀ i : grid11.Coords, EltTy.bits .f32 = 32 ∨ (Rect.block (s := S200000x64) S8000x64.size (cc11_transform_2 i) (hinb11_2 i)).WholeWords (EltTy.packing .f32)

variable [Facts₀]

def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S8000x64_S64x64_S8000x64_1_1_0_0_n_n : DotDims S8000x64 S64x64 S8000x64 where
  lhsContracting := [1]
  rhsContracting := [1]
  lhsNonContracting := [0]
  rhsNonContracting := [0]
  lhsBatch := []
  rhsBatch := []
  wf := dot_S8000x64_S64x64_S8000x64_1_1_0_0_n_n_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf

abbrev win0_0 : Pipeline.Window sig grid0 :=
  Pipeline.Window.ofSpec (Memref.whole main_arg2) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S8000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v54) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S8000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v55) S8000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v55) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v56) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v57) S8000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v67) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v29) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v68) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v75) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v30) S10000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v76) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v79) S8000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v19) S8000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v80) S8000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v80) S8000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg7) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v81) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v82) S8000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v92) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v29) S10000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v93) S10000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v100) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v30) S10000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v101) S10000x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v104) S8000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v19) S8000x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v105) S8000x64.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

class Facts : Prop extends Facts₀ where

variable [Facts]
-- ==== ReferenceIdeal.lean ====
abbrev S2x2000000 : Shape := ⟨2, ![2, 2000000]⟩
abbrev S100000 : Shape := ⟨1, ![100000]⟩
abbrev S200000x64 : Shape := ⟨2, ![200000, 64]⟩
abbrev S64x64 : Shape := ⟨2, ![64, 64]⟩
abbrev S64 : Shape := ⟨1, ![64]⟩
abbrev S1x2000000 : Shape := ⟨2, ![1, 2000000]⟩
abbrev S2000000 : Shape := ⟨1, ![2000000]⟩
abbrev S1x64 : Shape := ⟨2, ![1, 64]⟩
abbrev S_ : Shape := ⟨0, ![]⟩
abbrev S2000000x1 : Shape := ⟨2, ![2000000, 1]⟩
abbrev S200000 : Shape := ⟨1, ![200000]⟩
abbrev S100000x1 : Shape := ⟨2, ![100000, 1]⟩
abbrev S2000000x64 : Shape := ⟨2, ![2000000, 64]⟩
abbrev S100000x64 : Shape := ⟨2, ![100000, 64]⟩
abbrev S200000x1 : Shape := ⟨2, ![200000, 1]⟩

abbrev nBuf : Space → Nat
  | .hbm => 283
  | .vmem => 0
  | .smem => 0
  | _ => 0

abbrev hbmTy0_0 (i : Nat) : BufTy := match i % 128 with
  | 0 => ⟨S2x2000000, .i32⟩
  | 1 => ⟨S100000, .f32⟩
  | 2 => ⟨S200000x64, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S1x2000000, .i32⟩
  | 10 => ⟨S2000000, .i32⟩
  | 11 => ⟨S1x2000000, .i32⟩
  | 12 => ⟨S2000000, .i32⟩
  | 13 => ⟨S64x64, .f32⟩
  | 14 => ⟨S200000x64, .f32⟩
  | 15 => ⟨S1x64, .f32⟩
  | 16 => ⟨S200000x64, .f32⟩
  | 17 => ⟨S200000x64, .f32⟩
  | 18 => ⟨S_, .i32⟩
  | 19 => ⟨S2000000, .i32⟩
  | 20 => ⟨S2000000, .i1⟩
  | 21 => ⟨S_, .i32⟩
  | 22 => ⟨S2000000, .i32⟩
  | 23 => ⟨S2000000, .i32⟩
  | 24 => ⟨S2000000, .i32⟩
  | 25 => ⟨S2000000x1, .i32⟩
  | 26 => ⟨S2000000, .f32⟩
  | 27 => ⟨S_, .f32⟩
  | 28 => ⟨S200000, .f32⟩
  | 29 => ⟨S2000000x1, .i32⟩
  | 30 => ⟨S200000, .f32⟩
  | 31 => ⟨S_, .f32⟩
  | 32 => ⟨S200000, .f32⟩
  | 33 => ⟨S200000, .i1⟩
  | 34 => ⟨S_, .f32⟩
  | 35 => ⟨S200000, .f32⟩
  | 36 => ⟨S200000, .f32⟩
  | 37 => ⟨S_, .f32⟩
  | 38 => ⟨S_, .f32⟩
  | 39 => ⟨S200000, .f32⟩
  | 40 => ⟨S200000, .f32⟩
  | 41 => ⟨S_, .f32⟩
  | 42 => ⟨S2000000, .f32⟩
  | 43 => ⟨S_, .f32⟩
  | 44 => ⟨S100000, .f32⟩
  | 45 => ⟨S2000000x1, .i32⟩
  | 46 => ⟨S100000, .f32⟩
  | 47 => ⟨S_, .f32⟩
  | 48 => ⟨S100000, .f32⟩
  | 49 => ⟨S100000, .i1⟩
  | 50 => ⟨S_, .f32⟩
  | 51 => ⟨S100000, .f32⟩
  | 52 => ⟨S100000, .f32⟩
  | 53 => ⟨S_, .f32⟩
  | 54 => ⟨S_, .f32⟩
  | 55 => ⟨S100000, .f32⟩
  | 56 => ⟨S100000, .f32⟩
  | 57 => ⟨S100000x1, .f32⟩
  | 58 => ⟨S_, .i32⟩
  | 59 => ⟨S2000000, .i32⟩
  | 60 => ⟨S2000000, .i1⟩
  | 61 => ⟨S_, .i32⟩
  | 62 => ⟨S2000000, .i32⟩
  | 63 => ⟨S2000000, .i32⟩
  | 64 => ⟨S2000000, .i32⟩
  | 65 => ⟨S2000000x1, .i32⟩
  | 66 => ⟨S2000000x64, .f32⟩
  | 67 => ⟨S_, .f32⟩
  | 68 => ⟨S100000x64, .f32⟩
  | 69 => ⟨S2000000x1, .i32⟩
  | 70 => ⟨S100000x64, .f32⟩
  | 71 => ⟨S100000x64, .f32⟩
  | 72 => ⟨S100000x64, .f32⟩
  | 73 => ⟨S200000x1, .f32⟩
  | 74 => ⟨S_, .i32⟩
  | 75 => ⟨S2000000, .i32⟩
  | 76 => ⟨S2000000, .i1⟩
  | 77 => ⟨S_, .i32⟩
  | 78 => ⟨S2000000, .i32⟩
  | 79 => ⟨S2000000, .i32⟩
  | 80 => ⟨S2000000, .i32⟩
  | 81 => ⟨S2000000x1, .i32⟩
  | 82 => ⟨S2000000, .f32⟩
  | 83 => ⟨S2000000x1, .f32⟩
  | 84 => ⟨S_, .i32⟩
  | 85 => ⟨S2000000, .i32⟩
  | 86 => ⟨S2000000, .i1⟩
  | 87 => ⟨S_, .i32⟩
  | 88 => ⟨S2000000, .i32⟩
  | 89 => ⟨S2000000, .i32⟩
  | 90 => ⟨S2000000, .i32⟩
  | 91 => ⟨S2000000x1, .i32⟩
  | 92 => ⟨S2000000x64, .f32⟩
  | 93 => ⟨S2000000x64, .f32⟩
  | 94 => ⟨S2000000x64, .f32⟩
  | 95 => ⟨S_, .f32⟩
  | 96 => ⟨S200000x64, .f32⟩
  | 97 => ⟨S2000000x1, .i32⟩
  | 98 => ⟨S200000x64, .f32⟩
  | 99 => ⟨S200000x64, .f32⟩
  | 100 => ⟨S200000x64, .f32⟩
  | 101 => ⟨S_, .f32⟩
  | 102 => ⟨S200000x64, .f32⟩
  | 103 => ⟨S200000x64, .f32⟩
  | 104 => ⟨S64x64, .f32⟩
  | 105 => ⟨S200000x64, .f32⟩
  | 106 => ⟨S1x64, .f32⟩
  | 107 => ⟨S200000x64, .f32⟩
  | 108 => ⟨S200000x64, .f32⟩
  | 109 => ⟨S_, .i32⟩
  | 110 => ⟨S2000000, .i32⟩
  | 111 => ⟨S2000000, .i1⟩
  | 112 => ⟨S_, .i32⟩
  | 113 => ⟨S2000000, .i32⟩
  | 114 => ⟨S2000000, .i32⟩
  | 115 => ⟨S2000000, .i32⟩
  | 116 => ⟨S2000000x1, .i32⟩
  | 117 => ⟨S2000000, .f32⟩
  | 118 => ⟨S_, .f32⟩
  | 119 => ⟨S200000, .f32⟩
  | 120 => ⟨S2000000x1, .i32⟩
  | 121 => ⟨S200000, .f32⟩
  | 122 => ⟨S_, .f32⟩
  | 123 => ⟨S200000, .f32⟩
  | 124 => ⟨S200000, .i1⟩
  | 125 => ⟨S_, .f32⟩
  | 126 => ⟨S200000, .f32⟩
  | 127 => ⟨S200000, .f32⟩
  | _ => ⟨S2x2000000, .i32⟩

abbrev hbmTy0_1 (i : Nat) : BufTy := match i % 128 with
  | 0 => ⟨S_, .f32⟩
  | 1 => ⟨S_, .f32⟩
  | 2 => ⟨S200000, .f32⟩
  | 3 => ⟨S200000, .f32⟩
  | 4 => ⟨S_, .f32⟩
  | 5 => ⟨S2000000, .f32⟩
  | 6 => ⟨S_, .f32⟩
  | 7 => ⟨S100000, .f32⟩
  | 8 => ⟨S2000000x1, .i32⟩
  | 9 => ⟨S100000, .f32⟩
  | 10 => ⟨S_, .f32⟩
  | 11 => ⟨S100000, .f32⟩
  | 12 => ⟨S100000, .i1⟩
  | 13 => ⟨S_, .f32⟩
  | 14 => ⟨S100000, .f32⟩
  | 15 => ⟨S100000, .f32⟩
  | 16 => ⟨S_, .f32⟩
  | 17 => ⟨S_, .f32⟩
  | 18 => ⟨S100000, .f32⟩
  | 19 => ⟨S100000, .f32⟩
  | 20 => ⟨S100000x1, .f32⟩
  | 21 => ⟨S_, .i32⟩
  | 22 => ⟨S2000000, .i32⟩
  | 23 => ⟨S2000000, .i1⟩
  | 24 => ⟨S_, .i32⟩
  | 25 => ⟨S2000000, .i32⟩
  | 26 => ⟨S2000000, .i32⟩
  | 27 => ⟨S2000000, .i32⟩
  | 28 => ⟨S2000000x1, .i32⟩
  | 29 => ⟨S2000000x64, .f32⟩
  | 30 => ⟨S_, .f32⟩
  | 31 => ⟨S100000x64, .f32⟩
  | 32 => ⟨S2000000x1, .i32⟩
  | 33 => ⟨S100000x64, .f32⟩
  | 34 => ⟨S100000x64, .f32⟩
  | 35 => ⟨S100000x64, .f32⟩
  | 36 => ⟨S200000x1, .f32⟩
  | 37 => ⟨S_, .i32⟩
  | 38 => ⟨S2000000, .i32⟩
  | 39 => ⟨S2000000, .i1⟩
  | 40 => ⟨S_, .i32⟩
  | 41 => ⟨S2000000, .i32⟩
  | 42 => ⟨S2000000, .i32⟩
  | 43 => ⟨S2000000, .i32⟩
  | 44 => ⟨S2000000x1, .i32⟩
  | 45 => ⟨S2000000, .f32⟩
  | 46 => ⟨S2000000x1, .f32⟩
  | 47 => ⟨S_, .i32⟩
  | 48 => ⟨S2000000, .i32⟩
  | 49 => ⟨S2000000, .i1⟩
  | 50 => ⟨S_, .i32⟩
  | 51 => ⟨S2000000, .i32⟩
  | 52 => ⟨S2000000, .i32⟩
  | 53 => ⟨S2000000, .i32⟩
  | 54 => ⟨S2000000x1, .i32⟩
  | 55 => ⟨S2000000x64, .f32⟩
  | 56 => ⟨S2000000x64, .f32⟩
  | 57 => ⟨S2000000x64, .f32⟩
  | 58 => ⟨S_, .f32⟩
  | 59 => ⟨S200000x64, .f32⟩
  | 60 => ⟨S2000000x1, .i32⟩
  | 61 => ⟨S200000x64, .f32⟩
  | 62 => ⟨S200000x64, .f32⟩
  | 63 => ⟨S200000x64, .f32⟩
  | 64 => ⟨S_, .f32⟩
  | 65 => ⟨S200000x64, .f32⟩
  | 66 => ⟨S200000x64, .f32⟩
  | 67 => ⟨S64x64, .f32⟩
  | 68 => ⟨S200000x64, .f32⟩
  | 69 => ⟨S1x64, .f32⟩
  | 70 => ⟨S200000x64, .f32⟩
  | 71 => ⟨S200000x64, .f32⟩
  | 72 => ⟨S_, .i32⟩
  | 73 => ⟨S2000000, .i32⟩
  | 74 => ⟨S2000000, .i1⟩
  | 75 => ⟨S_, .i32⟩
  | 76 => ⟨S2000000, .i32⟩
  | 77 => ⟨S2000000, .i32⟩
  | 78 => ⟨S2000000, .i32⟩
  | 79 => ⟨S2000000x1, .i32⟩
  | 80 => ⟨S2000000, .f32⟩
  | 81 => ⟨S_, .f32⟩
  | 82 => ⟨S200000, .f32⟩
  | 83 => ⟨S2000000x1, .i32⟩
  | 84 => ⟨S200000, .f32⟩
  | 85 => ⟨S_, .f32⟩
  | 86 => ⟨S200000, .f32⟩
  | 87 => ⟨S200000, .i1⟩
  | 88 => ⟨S_, .f32⟩
  | 89 => ⟨S200000, .f32⟩
  | 90 => ⟨S200000, .f32⟩
  | 91 => ⟨S_, .f32⟩
  | 92 => ⟨S_, .f32⟩
  | 93 => ⟨S200000, .f32⟩
  | 94 => ⟨S200000, .f32⟩
  | 95 => ⟨S_, .f32⟩
  | 96 => ⟨S2000000, .f32⟩
  | 97 => ⟨S_, .f32⟩
  | 98 => ⟨S100000, .f32⟩
  | 99 => ⟨S2000000x1, .i32⟩
  | 100 => ⟨S100000, .f32⟩
  | 101 => ⟨S_, .f32⟩
  | 102 => ⟨S100000, .f32⟩
  | 103 => ⟨S100000, .i1⟩
  | 104 => ⟨S_, .f32⟩
  | 105 => ⟨S100000, .f32⟩
  | 106 => ⟨S100000, .f32⟩
  | 107 => ⟨S_, .f32⟩
  | 108 => ⟨S_, .f32⟩
  | 109 => ⟨S100000, .f32⟩
  | 110 => ⟨S100000, .f32⟩
  | 111 => ⟨S100000x1, .f32⟩
  | 112 => ⟨S_, .i32⟩
  | 113 => ⟨S2000000, .i32⟩
  | 114 => ⟨S2000000, .i1⟩
  | 115 => ⟨S_, .i32⟩
  | 116 => ⟨S2000000, .i32⟩
  | 117 => ⟨S2000000, .i32⟩
  | 118 => ⟨S2000000, .i32⟩
  | 119 => ⟨S2000000x1, .i32⟩
  | 120 => ⟨S2000000x64, .f32⟩
  | 121 => ⟨S_, .f32⟩
  | 122 => ⟨S100000x64, .f32⟩
  | 123 => ⟨S2000000x1, .i32⟩
  | 124 => ⟨S100000x64, .f32⟩
  | 125 => ⟨S100000x64, .f32⟩
  | 126 => ⟨S100000x64, .f32⟩
  | 127 => ⟨S200000x1, .f32⟩
  | _ => ⟨S2x2000000, .i32⟩

abbrev hbmTy0_2 (i : Nat) : BufTy := match i % 128 with
  | 0 => ⟨S_, .i32⟩
  | 1 => ⟨S2000000, .i32⟩
  | 2 => ⟨S2000000, .i1⟩
  | 3 => ⟨S_, .i32⟩
  | 4 => ⟨S2000000, .i32⟩
  | 5 => ⟨S2000000, .i32⟩
  | 6 => ⟨S2000000, .i32⟩
  | 7 => ⟨S2000000x1, .i32⟩
  | 8 => ⟨S2000000, .f32⟩
  | 9 => ⟨S2000000x1, .f32⟩
  | 10 => ⟨S_, .i32⟩
  | 11 => ⟨S2000000, .i32⟩
  | 12 => ⟨S2000000, .i1⟩
  | 13 => ⟨S_, .i32⟩
  | 14 => ⟨S2000000, .i32⟩
  | 15 => ⟨S2000000, .i32⟩
  | 16 => ⟨S2000000, .i32⟩
  | 17 => ⟨S2000000x1, .i32⟩
  | 18 => ⟨S2000000x64, .f32⟩
  | 19 => ⟨S2000000x64, .f32⟩
  | 20 => ⟨S2000000x64, .f32⟩
  | 21 => ⟨S_, .f32⟩
  | 22 => ⟨S200000x64, .f32⟩
  | 23 => ⟨S2000000x1, .i32⟩
  | 24 => ⟨S200000x64, .f32⟩
  | 25 => ⟨S200000x64, .f32⟩
  | 26 => ⟨S200000x64, .f32⟩
  | _ => ⟨S2x2000000, .i32⟩

abbrev hbmTy (i : Nat) : BufTy := match i / 128 with
  | 0 => hbmTy0_0 i
  | 1 => hbmTy0_1 i
  | 2 => hbmTy0_2 i
  | _ => ⟨S2x2000000, .i32⟩

abbrev bufTy : (tb : Table) → Fin (tcTables nBuf tb) → BufTy
  | .hbm, ⟨i, _⟩ => hbmTy i
  | _, _ => ⟨S2x2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_call1_v0 : Ref sig .tc := ⟨.hbm, 54, rfl⟩
abbrev main_call1_v1 : Ref sig .tc := ⟨.hbm, 55, rfl⟩
abbrev main_v32 : Ref sig .tc := ⟨.hbm, 56, rfl⟩
abbrev main_v33 : Ref sig .tc := ⟨.hbm, 57, rfl⟩
abbrev main_c_9 : Ref sig .tc := ⟨.hbm, 58, rfl⟩
abbrev main_v34 : Ref sig .tc := ⟨.hbm, 59, rfl⟩
abbrev main_v35 : Ref sig .tc := ⟨.hbm, 60, rfl⟩
abbrev main_c_10 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_11 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_12 : Ref sig .tc := ⟨.hbm, 74, rfl⟩
abbrev main_v47 : Ref sig .tc := ⟨.hbm, 75, rfl⟩
abbrev main_v48 : Ref sig .tc := ⟨.hbm, 76, rfl⟩
abbrev main_c_13 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_14 : Ref sig .tc := ⟨.hbm, 84, rfl⟩
abbrev main_v55 : Ref sig .tc := ⟨.hbm, 85, rfl⟩
abbrev main_v56 : Ref sig .tc := ⟨.hbm, 86, rfl⟩
abbrev main_c_15 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_16 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_call2_cst : Ref sig .tc := ⟨.hbm, 101, rfl⟩
abbrev main_call2_v0 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_19 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_20 : Ref sig .tc := ⟨.hbm, 122, rfl⟩
abbrev main_v85 : Ref sig .tc := ⟨.hbm, 123, rfl⟩
abbrev main_v86 : Ref sig .tc := ⟨.hbm, 124, rfl⟩
abbrev main_cst_21 : Ref sig .tc := ⟨.hbm, 125, rfl⟩
abbrev main_v87 : Ref sig .tc := ⟨.hbm, 126, rfl⟩
abbrev main_v88 : Ref sig .tc := ⟨.hbm, 127, rfl⟩
abbrev main_cst_22 : Ref sig .tc := ⟨.hbm, 128, rfl⟩
abbrev main_call3_v0 : Ref sig .tc := ⟨.hbm, 129, rfl⟩
abbrev main_call3_v1 : Ref sig .tc := ⟨.hbm, 130, rfl⟩
abbrev main_v89 : Ref sig .tc := ⟨.hbm, 131, rfl⟩
abbrev main_cst_23 : Ref sig .tc := ⟨.hbm, 132, rfl⟩
abbrev main_v90 : Ref sig .tc := ⟨.hbm, 133, rfl⟩
abbrev main_cst_24 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_25 : Ref sig .tc := ⟨.hbm, 138, rfl⟩
abbrev main_v94 : Ref sig .tc := ⟨.hbm, 139, rfl⟩
abbrev main_v95 : Ref sig .tc := ⟨.hbm, 140, rfl⟩
abbrev main_cst_26 : Ref sig .tc := ⟨.hbm, 141, rfl⟩
abbrev main_v96 : Ref sig .tc := ⟨.hbm, 142, rfl⟩
abbrev main_v97 : Ref sig .tc := ⟨.hbm, 143, rfl⟩
abbrev main_cst_27 : Ref sig .tc := ⟨.hbm, 144, rfl⟩
abbrev main_call4_v0 : Ref sig .tc := ⟨.hbm, 145, rfl⟩
abbrev main_call4_v1 : Ref sig .tc := ⟨.hbm, 146, rfl⟩
abbrev main_v98 : Ref sig .tc := ⟨.hbm, 147, rfl⟩
abbrev main_v99 : Ref sig .tc := ⟨.hbm, 148, rfl⟩
abbrev main_c_28 : Ref sig .tc := ⟨.hbm, 149, rfl⟩
abbrev main_v100 : Ref sig .tc := ⟨.hbm, 150, rfl⟩
abbrev main_v101 : Ref sig .tc := ⟨.hbm, 151, rfl⟩
abbrev main_c_29 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_cst_30 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_c_31 : Ref sig .tc := ⟨.hbm, 165, rfl⟩
abbrev main_v113 : Ref sig .tc := ⟨.hbm, 166, rfl⟩
abbrev main_v114 : Ref sig .tc := ⟨.hbm, 167, rfl⟩
abbrev main_c_32 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_c_33 : Ref sig .tc := ⟨.hbm, 175, rfl⟩
abbrev main_v121 : Ref sig .tc := ⟨.hbm, 176, rfl⟩
abbrev main_v122 : Ref sig .tc := ⟨.hbm, 177, rfl⟩
abbrev main_c_34 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_35 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_call5_cst : Ref sig .tc := ⟨.hbm, 192, rfl⟩
abbrev main_call5_v0 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_c_36 : Ref sig .tc := ⟨.hbm, 200, rfl⟩
abbrev main_v141 : Ref sig .tc := ⟨.hbm, 201, rfl⟩
abbrev main_v142 : Ref sig .tc := ⟨.hbm, 202, rfl⟩
abbrev main_c_37 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_cst_38 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_cst_39 : Ref sig .tc := ⟨.hbm, 213, rfl⟩
abbrev main_v151 : Ref sig .tc := ⟨.hbm, 214, rfl⟩
abbrev main_v152 : Ref sig .tc := ⟨.hbm, 215, rfl⟩
abbrev main_cst_40 : Ref sig .tc := ⟨.hbm, 216, rfl⟩
abbrev main_v153 : Ref sig .tc := ⟨.hbm, 217, rfl⟩
abbrev main_v154 : Ref sig .tc := ⟨.hbm, 218, rfl⟩
abbrev main_cst_41 : Ref sig .tc := ⟨.hbm, 219, rfl⟩
abbrev main_call6_v0 : Ref sig .tc := ⟨.hbm, 220, rfl⟩
abbrev main_call6_v1 : Ref sig .tc := ⟨.hbm, 221, rfl⟩
abbrev main_v155 : Ref sig .tc := ⟨.hbm, 222, rfl⟩
abbrev main_cst_42 : Ref sig .tc := ⟨.hbm, 223, rfl⟩
abbrev main_v156 : Ref sig .tc := ⟨.hbm, 224, rfl⟩
abbrev main_cst_43 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_cst_44 : Ref sig .tc := ⟨.hbm, 229, rfl⟩
abbrev main_v160 : Ref sig .tc := ⟨.hbm, 230, rfl⟩
abbrev main_v161 : Ref sig .tc := ⟨.hbm, 231, rfl⟩
abbrev main_cst_45 : Ref sig .tc := ⟨.hbm, 232, rfl⟩
abbrev main_v162 : Ref sig .tc := ⟨.hbm, 233, rfl⟩
abbrev main_v163 : Ref sig .tc := ⟨.hbm, 234, rfl⟩
abbrev main_cst_46 : Ref sig .tc := ⟨.hbm, 235, rfl⟩
abbrev main_call7_v0 : Ref sig .tc := ⟨.hbm, 236, rfl⟩
abbrev main_call7_v1 : Ref sig .tc := ⟨.hbm, 237, rfl⟩
abbrev main_v164 : Ref sig .tc := ⟨.hbm, 238, rfl⟩
abbrev main_v165 : Ref sig .tc := ⟨.hbm, 239, rfl⟩
abbrev main_c_47 : Ref sig .tc := ⟨.hbm, 240, rfl⟩
abbrev main_v166 : Ref sig .tc := ⟨.hbm, 241, rfl⟩
abbrev main_v167 : Ref sig .tc := ⟨.hbm, 242, rfl⟩
abbrev main_c_48 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_cst_49 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_c_50 : Ref sig .tc := ⟨.hbm, 256, rfl⟩
abbrev main_v179 : Ref sig .tc := ⟨.hbm, 257, rfl⟩
abbrev main_v180 : Ref sig .tc := ⟨.hbm, 258, rfl⟩
abbrev main_c_51 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_c_52 : Ref sig .tc := ⟨.hbm, 266, rfl⟩
abbrev main_v187 : Ref sig .tc := ⟨.hbm, 267, rfl⟩
abbrev main_v188 : Ref sig .tc := ⟨.hbm, 268, rfl⟩
abbrev main_c_53 : Ref sig .tc := ⟨.hbm, 269, rfl⟩
abbrev main_v189 : Ref sig .tc := ⟨.hbm, 270, rfl⟩
abbrev main_v190 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_cst_54 : Ref sig .tc := ⟨.hbm, 277, rfl⟩
abbrev main_v196 : Ref sig .tc := ⟨.hbm, 278, rfl⟩
abbrev main_v197 : Ref sig .tc := ⟨.hbm, 279, rfl⟩
abbrev main_v198 : Ref sig .tc := ⟨.hbm, 280, rfl⟩
abbrev main_v199 : Ref sig .tc := ⟨.hbm, 281, rfl⟩
abbrev main_v200 : Ref sig .tc := ⟨.hbm, 282, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  transposes_S64x64_S64x64_1_0 : S64x64.Transposes [1, 0] S64x64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S200000 : S_.BroadcastsInDim S200000 (![] : Fin 0 → Fin S200000.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S200000_S200000x1_0 : S200000.BroadcastsInDim S200000x1 (![0] : Fin 1 → Fin S200000x1.rank)
  bcast_S2000000x1_S2000000x64_0_1 : S2000000x1.BroadcastsInDim S2000000x64 (![0, 1] : Fin 2 → Fin S2000000x64.rank)
  bcast_S_S200000x64 : S_.BroadcastsInDim S200000x64 (![] : Fin 0 → Fin S200000x64.rank)
  bcast_S200000x1_S200000x64_0_1 : S200000x1.BroadcastsInDim S200000x64 (![0, 1] : Fin 2 → Fin S200000x64.rank)
  dot_S200000x64_S64x64_S200000x64_1_0_0_1_n_n_wf : DotDims.WF S200000x64 S64x64 S200000x64 [1] [0] [0] [1] [] []
  gather_S100000_S2000000x1_S2000000_n_0_n_n_0_1_1_wf : GatherDims.WF S100000 S2000000x1 S2000000 [] [0] [] [0] [] 1 ![1]
  scatter_S200000_S2000000x1_S2000000_n_0_0_1_wf : ScatterDims.WF S200000 S2000000x1 S2000000 [] [0] [0] 1
  scatter_S100000_S2000000x1_S2000000_n_0_0_1_wf : ScatterDims.WF S100000 S2000000x1 S2000000 [] [0] [0] 1
  gather_S200000x64_S2000000x1_S2000000x64_1_0_n_n_0_1_164_wf : GatherDims.WF S200000x64 S2000000x1 S2000000x64 [1] [0] [] [0] [] 1 ![1, 64]
  scatter_S100000x64_S2000000x1_S2000000x64_1_0_0_1_wf : ScatterDims.WF S100000x64 S2000000x1 S2000000x64 [1] [0] [0] 1
  gather_S100000x64_S2000000x1_S2000000x64_1_0_n_n_0_1_164_wf : GatherDims.WF S100000x64 S2000000x1 S2000000x64 [1] [0] [] [0] [] 1 ![1, 64]
  scatter_S200000x64_S2000000x1_S2000000x64_1_0_0_1_wf : ScatterDims.WF S200000x64 S2000000x1 S2000000x64 [1] [0] [0] 1

variable [Facts₀]

def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf

class Facts : Prop extends Facts₀ where

variable [Facts]
-- ==== Proof.KernelRun.lean ====
/-
  The idealized kernel's run with its result named.

  The program is twelve kernel launches among stretches of host operations.  Its buffers' contents at each boundary
  are a fold from the launch memory: a host stretch rewrites the buffers its operations write, a launch leaves each of
  its arrays at what its grid's write-backs add up to and every other buffer as it found it.  Every weakly fair
  execution terminates, nothing faulting, in a state whose unscoped buffers hold the last boundary's contents: so the
  result buffer holds the fold's value there, and the argument arrays are as launched.
-/
import proofs.«114209_j62749472195283_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates with the result buffer at the last boundary's contents and
    the argument arrays as launched. -/
theorem run_result : θ_run defs (onTc (τ := τ) (main (F := F))) ⟨m, fun _ => 0, ρ⟩ (fun r => ∀ c : Dev nD,
      r.2.mem ((c.tc : Thread nD τ).loc main_v105) = W28 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W28 m ρ c b)
    (hfin := fun c s' => by
      iintro ⟨⟨Hh, -⟩, HSI⟩
      unfold StableHlo.held
      imodintro
      iapply (pointsTo_read_all (Pipeline.ucRefs τ sig) (fun b => (((c : Thread nD τ)).1, b)) (W28 m ρ c) s')
      isplitl [Hh] <;> iassumption)
    (hQ := fun s h c =>
      ⟨h c _ (mem_uc main_v105 (by decide)),
       (h c _ (mem_uc main_arg0 (by decide))).trans (W28_main_arg0 m ρ c),
       (h c _ (mem_uc main_arg1 (by decide))).trans (W28_main_arg1 m ρ c),
       (h c _ (mem_uc main_arg2 (by decide))).trans (W28_main_arg2 m ρ c),
       (h c _ (mem_uc main_arg3 (by decide))).trans (W28_main_arg3 m ρ c),
       (h c _ (mem_uc main_arg4 (by decide))).trans (W28_main_arg4 m ρ c),
       (h c _ (mem_uc main_arg5 (by decide))).trans (W28_main_arg5 m ρ c),
       (h c _ (mem_uc main_arg6 (by decide))).trans (W28_main_arg6 m ρ c),
       (h c _ (mem_uc main_arg7 (by decide))).trans (W28_main_arg7 m ρ c),
       (h c _ (mem_uc main_arg8 (by decide))).trans (W28_main_arg8 m ρ c)⟩)

end Cert.KernelIdeal.Result

end
-- ==== Proof.Spec.lean ====
/-
  The three whole-array functions of a hypergraph layer, on the extended reals, index by index.

  A layer transforms the node features by a dense map, sums them into the hyperedges they belong to, divides by the
  hyperedge degree, sends the result back to the member nodes weighted by the hyperedge weight, sums at the nodes and
  divides by the weighted node degree.  The sums over incidences are the host's gathers and scatter-adds; what is left
  between them are three row-wise maps of a matrix with 64 columns:

  * `lin x w b`: entry (p, j) is the sum over q of x (p, q) · w (j, q), plus b (0, j) — the product with the transpose
    of w and a bias row;
  * `scale x s`: entry (p, j) is x (p, j) · s (p, 0) — every row multiplied by its entry of a column;
  * `scaleRelu x s`: the same followed by the maximum with zero.

  Each is stated for any number n of rows, so that the same function describes one block of rows and the whole array,
  and each comes with the statement that a block of rows of the result depends only on that block of rows of x (and of
  s): what lets a result computed block by block be read as the function of the whole arrays.
-/
import Idealize.ShloMosaic.PureOps.Ideal
import Idealize.ShloMosaic.Lib.ValueIdx

noncomputable section

namespace Cert.HyperLayer

open Idealize.ShloMosaic Idealize.ShloMosaic.ValueIdx

/-- The dense map: x · wᵀ + b, b a row added to every row. -/
def lin {n : Nat} (x : (⟨2, ![n, 64]⟩ : Shape).Idx → EReal) (w : (⟨2, ![64, 64]⟩ : Shape).Idx → EReal)
    (b : (⟨2, ![1, 64]⟩ : Shape).Idx → EReal) : (⟨2, ![n, 64]⟩ : Shape).Idx → EReal :=
  fun i => (∑ q : Fin 64, x (ix2 (i 0) q) * w (ix2 (i 1) q)) + b (ix2 (0 : Fin 1) (i 1))

/-- Every row multiplied by its entry of the column s. -/
def scale {n : Nat} (x : (⟨2, ![n, 64]⟩ : Shape).Idx → EReal) (s : (⟨2, ![n, 1]⟩ : Shape).Idx → EReal) :
    (⟨2, ![n, 64]⟩ : Shape).Idx → EReal :=
  fun i => x i * s (ix2 (i 0) (0 : Fin 1))

/-- Every row multiplied by its entry of the column s, then the maximum with zero. -/
def scaleRelu {n : Nat} (x : (⟨2, ![n, 64]⟩ : Shape).Idx → EReal) (s : (⟨2, ![n, 1]⟩ : Shape).Idx → EReal) :
    (⟨2, ![n, 64]⟩ : Shape).Idx → EReal :=
  fun i => max (x i * s (ix2 (i 0) (0 : Fin 1))) (Ideal.ofBits .f32 0x00000000#32)

/-- The dense map at an entry written by coordinates. -/
theorem lin_ix2 {n : Nat} (x : (⟨2, ![n, 64]⟩ : Shape).Idx → EReal) (w : (⟨2, ![64, 64]⟩ : Shape).Idx → EReal)
    (b : (⟨2, ![1, 64]⟩ : Shape).Idx → EReal) (p : Fin n) (j : Fin 64) :
    lin x w b (ix2 p j) = (∑ q : Fin 64, x (ix2 p q) * w (ix2 j q)) + b (ix2 (0 : Fin 1) j) := rfl

/-- The scaled matrix at an entry written by coordinates. -/
theorem scale_ix2 {n : Nat} (x : (⟨2, ![n, 64]⟩ : Shape).Idx → EReal) (s : (⟨2, ![n, 1]⟩ : Shape).Idx → EReal)
    (p : Fin n) (j : Fin 64) : scale x s (ix2 p j) = x (ix2 p j) * s (ix2 p (0 : Fin 1)) := rfl

/-- The scaled matrix cut at zero, at an entry written by coordinates. -/
theorem scaleRelu_ix2 {n : Nat} (x : (⟨2, ![n, 64]⟩ : Shape).Idx → EReal) (s : (⟨2, ![n, 1]⟩ : Shape).Idx → EReal)
    (p : Fin n) (j : Fin 64) :
    scaleRelu x s (ix2 p j) = max (x (ix2 p j) * s (ix2 p (0 : Fin 1))) (Ideal.ofBits .f32 0x00000000#32) := rfl

/-- Entry j of the dense map of a block of rows is entry i of the dense map of the whole array, when row j 0 of the
    block is row i 0 of the array and the two entries are in the same column. -/
theorem lin_block {n n' : Nat} (X : (⟨2, ![n, 64]⟩ : Shape).Idx → EReal) (x : (⟨2, ![n', 64]⟩ : Shape).Idx → EReal)
    (W w : (⟨2, ![64, 64]⟩ : Shape).Idx → EReal) (B b : (⟨2, ![1, 64]⟩ : Shape).Idx → EReal)
    (j : (⟨2, ![n', 64]⟩ : Shape).Idx) (i : (⟨2, ![n, 64]⟩ : Shape).Idx)
    (hx : ∀ q : Fin 64, x (ix2 (j 0) q) = X (ix2 (i 0) q)) (hw : ∀ q : Fin 64, w (ix2 (j 1) q) = W (ix2 (i 1) q))
    (hb : b (ix2 (0 : Fin 1) (j 1)) = B (ix2 (0 : Fin 1) (i 1))) : lin x w b j = lin X W B i := by
  unfold lin
  rw [hb]
  exact congrArg (· + _) (Finset.sum_congr rfl fun q _ => by rw [hx q, hw q])

/-- Entry j of a block of rows scaled is entry i of the whole array scaled, when the two entries and the two column
    entries are the same. -/
theorem scale_block {n n' : Nat} (X : (⟨2, ![n, 64]⟩ : Shape).Idx → EReal) (x : (⟨2, ![n', 64]⟩ : Shape).Idx → EReal)
    (S : (⟨2, ![n, 1]⟩ : Shape).Idx → EReal) (s : (⟨2, ![n', 1]⟩ : Shape).Idx → EReal)
    (j : (⟨2, ![n', 64]⟩ : Shape).Idx) (i : (⟨2, ![n, 64]⟩ : Shape).Idx)
    (hx : x j = X i) (hs : s (ix2 (j 0) (0 : Fin 1)) = S (ix2 (i 0) (0 : Fin 1))) : scale x s j = scale X S i := by
  unfold scale
  rw [hx, hs]

/-- The same for the scaled block followed by the maximum with zero. -/
theorem scaleRelu_block {n n' : Nat} (X : (⟨2, ![n, 64]⟩ : Shape).Idx → EReal) (x : (⟨2, ![n', 64]⟩ : Shape).Idx → EReal)
    (S : (⟨2, ![n, 1]⟩ : Shape).Idx → EReal) (s : (⟨2, ![n', 1]⟩ : Shape).Idx → EReal)
    (j : (⟨2, ![n', 64]⟩ : Shape).Idx) (i : (⟨2, ![n, 64]⟩ : Shape).Idx)
    (hx : x j = X i) (hs : s (ix2 (j 0) (0 : Fin 1)) = S (ix2 (i 0) (0 : Fin 1))) : scaleRelu x s j = scaleRelu X S i := by
  unfold scaleRelu
  rw [hx, hs]

end Cert.HyperLayer

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibMatrixLayout.lean ====
/-
  Small matrices' layout operations read at an index written by coordinates.  General lemmas: any element type, any
  extents.

  * a vector [a] reshaped to a column [a, 1];
  * a vector [b] broadcast in dimension 1 to a row [1, b], and [a] in dimension 0 to a column [a, 1];
  * a row [1, b] broadcast in dimensions (0, 1) to [a, b], and a column [a, 1] to [a, b];
  * a scalar broadcast to any shape;
  * two matrices [a, b] and [a, c] joined along their columns into [a, b + c], read in the left and the right part.
-/
import Idealize.ShloMosaic.Lib.Pipeline.Value
import Idealize.ShloMosaic.Lib.ValueIdx

namespace Cert.LibMatrixLayout

open Idealize.ShloMosaic Idealize.ShloMosaic.ValueIdx

variable {α : Type}

/-- A vector reshaped to a column reads, at (i, 0), the vector's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A vector broadcast in dimension 1 to a row reads, at (0, j), the vector's entry j. -/
theorem bcast_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A vector broadcast in dimension 0 to a column reads, at (i, 0), the vector's entry i. -/
theorem bcast_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A row broadcast in dimensions (0, 1) down the rows of [a, b] reads, at (i, j), the row's entry j. -/
theorem bcast_1b_ab_apply {a b : ℕ} (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply _ h x (ix2 i j) (ix2 (0 : Fin 1) j) fun ax => ?_
  match ax with
  | ⟨0, _⟩ => rfl
  | ⟨1, _⟩ =>
    show j.val = if b = 1 then 0 else j.val
    split
    · have := j.isLt; omega
    · rfl

/-- A column broadcast in dimensions (0, 1) along the rows of [a, b] reads, at (i, j), the column's entry i. -/
theorem bcast_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A scalar broadcast to any shape reads the scalar everywhere. -/
theorem bcast_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- Two matrices joined along their columns read, in the first b columns, the left one. -/
theorem concat_cols_left {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin b)
    (k : Fin n) (hk : k.val = q.val) :
    concatenate ⟨2, ![a, n]⟩ (1 : Fin 2) [⟨⟨2, ![a, b]⟩, x₁⟩, ⟨⟨2, ![a, c]⟩, x₂⟩] h (ix2 i k) = x₁ (ix2 i q) := by
  refine concatenate_pair_apply_left (1 : Fin 2) x₁ x₂ h (ix2 i k) rfl (ix2 i q) fun ax => ?_
  match ax with
  | ⟨0, _⟩ => rfl
  | ⟨1, _⟩ => exact hk.symm

/-- Two matrices joined along their columns read, past the first b columns, the right one. -/
theorem concat_cols_right {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin c)
    (k : Fin n) (hk : k.val = b + q.val) :
    concatenate ⟨2, ![a, n]⟩ (1 : Fin 2) [⟨⟨2, ![a, b]⟩, x₁⟩, ⟨⟨2, ![a, c]⟩, x₂⟩] h (ix2 i k) = x₂ (ix2 i q) := by
  refine concatenate_pair_apply_right (1 : Fin 2) x₁ x₂ h (ix2 i k) rfl rfl (ix2 i q) (fun ax hax => ?_) ?_
  · match ax with
    | ⟨0, _⟩ => rfl
    | ⟨1, _⟩ => exact absurd rfl hax
  · show q.val + b = k.val
    omega

end Cert.LibMatrixLayout
-- ==== Proof.LibRowReshape.lean ====
/-
  A vector [b] reshaped to a one-row matrix [1, b], read at an index written by coordinates: the row's entry j is the
  vector's entry j.  General lemma: any element type, any extent.
-/
import Idealize.ShloMosaic.Lib.Pipeline.Value
import Idealize.ShloMosaic.Lib.ValueIdx

namespace Cert.LibRowReshape

open Idealize.ShloMosaic Idealize.ShloMosaic.ValueIdx

/-- A vector reshaped to a one-row matrix reads, at (0, j), the vector's entry j. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu]
    omega)

end Cert.LibRowReshape
-- ==== Proof.RefBridge.lean ====
/-
  The host's spelling of the three row-wise maps of a hypergraph layer is the maps themselves (Spec.lean), at the ideal
  instance, for any number n of rows.

  * The host writes the dense map as a matrix product with the transposed weight, contracted over the left operand's
    columns and the transposed operand's rows, plus the bias vector broadcast first to a row and then down the rows;
    entry (p, j) of that is the sum over q of x (p, q) · w (j, q), plus b (j): `lin` of the bias reshaped to a row.
  * It writes the scaling as the product of the column — a vector broadcast to a column and then along the rows — with
    the matrix, the column on the LEFT; multiplication of extended reals commutes, so this is `scale` of the vector
    reshaped to a column.
  * Followed by the maximum with a splat of zero it is `scaleRelu`.
-/
import Idealize.ShloMosaic.PureOps.Ideal
import Idealize.ShloMosaic.Lib.ValueIdx
import Idealize.ShloMosaic.Lib.Pipeline.Value
import proofs.«114209_j62749472195283_2_alg».proof.Proof.Spec
import proofs.«114209_j62749472195283_2_alg».proof.Proof.LibPlainDot
import proofs.«114209_j62749472195283_2_alg».proof.Proof.LibMatrixLayout
import proofs.«114209_j62749472195283_2_alg».proof.Proof.LibRowReshape

noncomputable section

namespace Cert.HyperLayer

open Idealize.ShloMosaic Idealize.ShloMosaic.ValueIdx

/-- The transposed weight at (q, j) is the weight at (j, q). -/
theorem transpose_ix2 (w : (⟨2, ![64, 64]⟩ : Shape).Idx → EReal)
    (h : (⟨2, ![64, 64]⟩ : Shape).Transposes [1, 0] ⟨2, ![64, 64]⟩) (q j : Fin 64) :
    transpose ⟨2, ![64, 64]⟩ [1, 0] w h (ix2 q j) = w (ix2 j q) :=
  transpose_apply [1, 0] w h (ix2 q j) (ix2 j q) fun b => by
    match b with
    | ⟨0, _⟩ => rfl
    | ⟨1, _⟩ => rfl

/-- The host's dense map is `lin`. -/
theorem host_lin {n : Nat} (D : DotDims ⟨2, ![n, 64]⟩ ⟨2, ![64, 64]⟩ ⟨2, ![n, 64]⟩) (hD : D = DotDims.plain n 64 64)
    (x : FVec Ideal ⟨2, ![n, 64]⟩ .f32) (w : FVec Ideal ⟨2, ![64, 64]⟩ .f32) (b : FVec Ideal ⟨1, ![64]⟩ .f32)
    (ht : (⟨2, ![64, 64]⟩ : Shape).Transposes [1, 0] ⟨2, ![64, 64]⟩)
    (h1 : (⟨1, ![64]⟩ : Shape).BroadcastsInDim ⟨2, ![1, 64]⟩ ![1])
    (h2 : (⟨2, ![1, 64]⟩ : Shape).BroadcastsInDim ⟨2, ![n, 64]⟩ ![0, 1])
    (h3 : (⟨1, ![64]⟩ : Shape).ShapeCasts ⟨2, ![1, 64]⟩) :
    addf (Host.dotGeneral D none x (transpose ⟨2, ![64, 64]⟩ [1, 0] w ht))
        (broadcastInDim ⟨2, ![n, 64]⟩ ![0, 1] h2 (broadcastInDim ⟨2, ![1, 64]⟩ ![1] h1 b))
      = lin x w (shapeCast ⟨2, ![1, 64]⟩ b h3) := by
  funext i
  obtain ⟨p, j, rfl⟩ : ∃ (p : Fin n) (j : Fin 64), i = ix2 p j := ⟨i 0, i 1, eq_ix2 i⟩
  rw [addf_apply, Cert.PlainDot.dotGeneral_ix2 D hD none x _ p j, Cert.LibMatrixLayout.bcast_1b_ab_apply,
    Cert.LibMatrixLayout.bcast_b_1b_apply]
  rw [lin_ix2, Cert.LibRowReshape.shapeCast_b_1b_apply]
  exact congrArg (· + _) (Finset.sum_congr rfl fun q _ => by rw [transpose_ix2])

/-- The host's scaling, the column on the left, is `scale`. -/
theorem host_scale {n : Nat} (s : FVec Ideal ⟨1, ![n]⟩ .f32) (x : FVec Ideal ⟨2, ![n, 64]⟩ .f32)
    (h1 : (⟨1, ![n]⟩ : Shape).BroadcastsInDim ⟨2, ![n, 1]⟩ ![0])
    (h2 : (⟨2, ![n, 1]⟩ : Shape).BroadcastsInDim ⟨2, ![n, 64]⟩ ![0, 1])
    (h3 : (⟨1, ![n]⟩ : Shape).ShapeCasts ⟨2, ![n, 1]⟩) :
    mulf (broadcastInDim ⟨2, ![n, 64]⟩ ![0, 1] h2 (broadcastInDim ⟨2, ![n, 1]⟩ ![0] h1 s)) x
      = scale x (shapeCast ⟨2, ![n, 1]⟩ s h3) := by
  funext i
  obtain ⟨p, j, rfl⟩ : ∃ (p : Fin n) (j : Fin 64), i = ix2 p j := ⟨i 0, i 1, eq_ix2 i⟩
  rw [mulf_apply, Cert.LibMatrixLayout.bcast_a1_ab_apply, Cert.LibMatrixLayout.bcast_a_a1_apply]
  rw [scale_ix2, Cert.LibMatrixLayout.shapeCast_a_a1_apply]
  exact mul_comm _ _

/-- The host's scaling followed by the maximum with a splat of zero is `scaleRelu`. -/
theorem host_scaleRelu {n : Nat} (s : FVec Ideal ⟨1, ![n]⟩ .f32) (x : FVec Ideal ⟨2, ![n, 64]⟩ .f32)
    (h1 : (⟨1, ![n]⟩ : Shape).BroadcastsInDim ⟨2, ![n, 1]⟩ ![0])
    (h2 : (⟨2, ![n, 1]⟩ : Shape).BroadcastsInDim ⟨2, ![n, 64]⟩ ![0, 1])
    (h3 : (⟨1, ![n]⟩ : Shape).ShapeCasts ⟨2, ![n, 1]⟩)
    (h0 : (⟨0, ![]⟩ : Shape).BroadcastsInDim ⟨2, ![n, 64]⟩ ![]) :
    maximumf (mulf (broadcastInDim ⟨2, ![n, 64]⟩ ![0, 1] h2 (broadcastInDim ⟨2, ![n, 1]⟩ ![0] h1 s)) x)
        (broadcastInDim ⟨2, ![n, 64]⟩ ![] h0 (constant (F := Ideal) ⟨0, ![]⟩ .f32 0x00000000#32))
      = scaleRelu x (shapeCast ⟨2, ![n, 1]⟩ s h3) := by
  funext i
  obtain ⟨p, j, rfl⟩ : ∃ (p : Fin n) (j : Fin 64), i = ix2 p j := ⟨i 0, i 1, eq_ix2 i⟩
  rw [maximumf_apply, host_scale s x h1 h2 h3, Cert.LibMatrixLayout.bcast_scalar_apply, scale_ix2, scaleRelu_ix2]
  rfl

end Cert.HyperLayer

end
-- ==== Proof.Carry.lean ====
/-
  Buffers that are written once and read later keep their contents across the launches and host stretches in between.

  The program's buffer contents at its 29 boundaries are a fold (the generated frame's `W0` … `W28`): a host stretch
  rewrites only the buffers its operations write; a launch rewrites only its output array, leaves its input arrays as it
  found them (an input window is never written back) and does not touch any other buffer.  The incidence indices, the
  three scaling columns, the layers' weights and biases, and each layer's output are written before the launch that
  reads them and by nothing after: each lemma below carries one of them from the boundary where it is known to a later
  boundary, one segment at a time.
-/
import proofs.«114209_j62749472195283_2_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- A host stretch keeps a buffer none of its operations writes: each operation's written buffer is another reference. -/
macro "host_keeps" ops:ident b:ident : tactic => `(tactic| (
  refine StableHlo.after_of_forall_not_mem (b := Proc.devRef .tc $b) _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ### `main_v1`: the node index of every incidence, from boundary 5 to boundary 26 -/

theorem keep_main_v1_6 (c : Dev nD) : W6 m ρ c (Proc.devRef .tc main_v1) = W5 m ρ c (Proc.devRef .tc main_v1) :=
  (show W6 m ρ c (Proc.devRef .tc main_v1) = W5 m ρ c (Proc.devRef .tc main_v1) from (W6_of_ne m ρ c main_v1 (by decide)))
theorem keep_main_v1_7 (c : Dev nD) : W7 m ρ c (Proc.devRef .tc main_v1) = W5 m ρ c (Proc.devRef .tc main_v1) :=
  (show W7 m ρ c (Proc.devRef .tc main_v1) = W6 m ρ c (Proc.devRef .tc main_v1) from (by host_keeps hostOps1 main_v1)).trans (keep_main_v1_6 m ρ c)
theorem keep_main_v1_8 (c : Dev nD) : W8 m ρ c (Proc.devRef .tc main_v1) = W5 m ρ c (Proc.devRef .tc main_v1) :=
  (show W8 m ρ c (Proc.devRef .tc main_v1) = W7 m ρ c (Proc.devRef .tc main_v1) from (W8_of_ne m ρ c main_v1 (by decide))).trans (keep_main_v1_7 m ρ c)
theorem keep_main_v1_9 (c : Dev nD) : W9 m ρ c (Proc.devRef .tc main_v1) = W5 m ρ c (Proc.devRef .tc main_v1) :=
  (show W9 m ρ c (Proc.devRef .tc main_v1) = W8 m ρ c (Proc.devRef .tc main_v1) from (by host_keeps hostOps2 main_v1)).trans (keep_main_v1_8 m ρ c)
theorem keep_main_v1_10 (c : Dev nD) : W10 m ρ c (Proc.devRef .tc main_v1) = W5 m ρ c (Proc.devRef .tc main_v1) :=
  (show W10 m ρ c (Proc.devRef .tc main_v1) = W9 m ρ c (Proc.devRef .tc main_v1) from (W10_of_ne m ρ c main_v1 (by decide))).trans (keep_main_v1_9 m ρ c)
theorem keep_main_v1_11 (c : Dev nD) : W11 m ρ c (Proc.devRef .tc main_v1) = W5 m ρ c (Proc.devRef .tc main_v1) :=
  (show W11 m ρ c (Proc.devRef .tc main_v1) = W10 m ρ c (Proc.devRef .tc main_v1) from (by host_keeps hostOps3 main_v1)).trans (keep_main_v1_10 m ρ c)
theorem keep_main_v1_12 (c : Dev nD) : W12 m ρ c (Proc.devRef .tc main_v1) = W5 m ρ c (Proc.devRef .tc main_v1) :=
  (show W12 m ρ c (Proc.devRef .tc main_v1) = W11 m ρ c (Proc.devRef .tc main_v1) from (W12_of_ne m ρ c main_v1 (by decide))).trans (keep_main_v1_11 m ρ c)
theorem keep_main_v1_13 (c : Dev nD) : W13 m ρ c (Proc.devRef .tc main_v1) = W5 m ρ c (Proc.devRef .tc main_v1) :=
  (show W13 m ρ c (Proc.devRef .tc main_v1) = W12 m ρ c (Proc.devRef .tc main_v1) from (by host_keeps hostOps4 main_v1)).trans (keep_main_v1_12 m ρ c)
theorem keep_main_v1_14 (c : Dev nD) : W14 m ρ c (Proc.devRef .tc main_v1) = W5 m ρ c (Proc.devRef .tc main_v1) :=
  (show W14 m ρ c (Proc.devRef .tc main_v1) = W13 m ρ c (Proc.devRef .tc main_v1) from (W14_of_ne m ρ c main_v1 (by decide))).trans (keep_main_v1_13 m ρ c)
theorem keep_main_v1_15 (c : Dev nD) : W15 m ρ c (Proc.devRef .tc main_v1) = W5 m ρ c (Proc.devRef .tc main_v1) :=
  (show W15 m ρ c (Proc.devRef .tc main_v1) = W14 m ρ c (Proc.devRef .tc main_v1) from (by host_keeps hostOps5 main_v1)).trans (keep_main_v1_14 m ρ c)
theorem keep_main_v1_16 (c : Dev nD) : W16 m ρ c (Proc.devRef .tc main_v1) = W5 m ρ c (Proc.devRef .tc main_v1) :=
  (show W16 m ρ c (Proc.devRef .tc main_v1) = W15 m ρ c (Proc.devRef .tc main_v1) from (W16_of_ne m ρ c main_v1 (by decide))).trans (keep_main_v1_15 m ρ c)
theorem keep_main_v1_17 (c : Dev nD) : W17 m ρ c (Proc.devRef .tc main_v1) = W5 m ρ c (Proc.devRef .tc main_v1) :=
  (show W17 m ρ c (Proc.devRef .tc main_v1) = W16 m ρ c (Proc.devRef .tc main_v1) from (by host_keeps hostOps6 main_v1)).trans (keep_main_v1_16 m ρ c)
theorem keep_main_v1_18 (c : Dev nD) : W18 m ρ c (Proc.devRef .tc main_v1) = W5 m ρ c (Proc.devRef .tc main_v1) :=
  (show W18 m ρ c (Proc.devRef .tc main_v1) = W17 m ρ c (Proc.devRef .tc main_v1) from (W18_of_ne m ρ c main_v1 (by decide))).trans (keep_main_v1_17 m ρ c)
theorem keep_main_v1_19 (c : Dev nD) : W19 m ρ c (Proc.devRef .tc main_v1) = W5 m ρ c (Proc.devRef .tc main_v1) :=
  (show W19 m ρ c (Proc.devRef .tc main_v1) = W18 m ρ c (Proc.devRef .tc main_v1) from (by host_keeps hostOps7 main_v1)).trans (keep_main_v1_18 m ρ c)
theorem keep_main_v1_20 (c : Dev nD) : W20 m ρ c (Proc.devRef .tc main_v1) = W5 m ρ c (Proc.devRef .tc main_v1) :=
  (show W20 m ρ c (Proc.devRef .tc main_v1) = W19 m ρ c (Proc.devRef .tc main_v1) from (W20_of_ne m ρ c main_v1 (by decide))).trans (keep_main_v1_19 m ρ c)
theorem keep_main_v1_21 (c : Dev nD) : W21 m ρ c (Proc.devRef .tc main_v1) = W5 m ρ c (Proc.devRef .tc main_v1) :=
  (show W21 m ρ c (Proc.devRef .tc main_v1) = W20 m ρ c (Proc.devRef .tc main_v1) from (by host_keeps hostOps8 main_v1)).trans (keep_main_v1_20 m ρ c)
theorem keep_main_v1_22 (c : Dev nD) : W22 m ρ c (Proc.devRef .tc main_v1) = W5 m ρ c (Proc.devRef .tc main_v1) :=
  (show W22 m ρ c (Proc.devRef .tc main_v1) = W21 m ρ c (Proc.devRef .tc main_v1) from (W22_of_ne m ρ c main_v1 (by decide))).trans (keep_main_v1_21 m ρ c)
theorem keep_main_v1_23 (c : Dev nD) : W23 m ρ c (Proc.devRef .tc main_v1) = W5 m ρ c (Proc.devRef .tc main_v1) :=
  (show W23 m ρ c (Proc.devRef .tc main_v1) = W22 m ρ c (Proc.devRef .tc main_v1) from (by host_keeps hostOps9 main_v1)).trans (keep_main_v1_22 m ρ c)
theorem keep_main_v1_24 (c : Dev nD) : W24 m ρ c (Proc.devRef .tc main_v1) = W5 m ρ c (Proc.devRef .tc main_v1) :=
  (show W24 m ρ c (Proc.devRef .tc main_v1) = W23 m ρ c (Proc.devRef .tc main_v1) from (W24_of_ne m ρ c main_v1 (by decide))).trans (keep_main_v1_23 m ρ c)
theorem keep_main_v1_25 (c : Dev nD) : W25 m ρ c (Proc.devRef .tc main_v1) = W5 m ρ c (Proc.devRef .tc main_v1) :=
  (show W25 m ρ c (Proc.devRef .tc main_v1) = W24 m ρ c (Proc.devRef .tc main_v1) from (by host_keeps hostOps10 main_v1)).trans (keep_main_v1_24 m ρ c)
theorem keep_main_v1_26 (c : Dev nD) : W26 m ρ c (Proc.devRef .tc main_v1) = W5 m ρ c (Proc.devRef .tc main_v1) :=
  (show W26 m ρ c (Proc.devRef .tc main_v1) = W25 m ρ c (Proc.devRef .tc main_v1) from (W26_of_ne m ρ c main_v1 (by decide))).trans (keep_main_v1_25 m ρ c)

/-! ### `main_v3`: the hyperedge index of every incidence, from boundary 5 to boundary 24 -/

theorem keep_main_v3_6 (c : Dev nD) : W6 m ρ c (Proc.devRef .tc main_v3) = W5 m ρ c (Proc.devRef .tc main_v3) :=
  (show W6 m ρ c (Proc.devRef .tc main_v3) = W5 m ρ c (Proc.devRef .tc main_v3) from (W6_of_ne m ρ c main_v3 (by decide)))
theorem keep_main_v3_7 (c : Dev nD) : W7 m ρ c (Proc.devRef .tc main_v3) = W5 m ρ c (Proc.devRef .tc main_v3) :=
  (show W7 m ρ c (Proc.devRef .tc main_v3) = W6 m ρ c (Proc.devRef .tc main_v3) from (by host_keeps hostOps1 main_v3)).trans (keep_main_v3_6 m ρ c)
theorem keep_main_v3_8 (c : Dev nD) : W8 m ρ c (Proc.devRef .tc main_v3) = W5 m ρ c (Proc.devRef .tc main_v3) :=
  (show W8 m ρ c (Proc.devRef .tc main_v3) = W7 m ρ c (Proc.devRef .tc main_v3) from (W8_of_ne m ρ c main_v3 (by decide))).trans (keep_main_v3_7 m ρ c)
theorem keep_main_v3_9 (c : Dev nD) : W9 m ρ c (Proc.devRef .tc main_v3) = W5 m ρ c (Proc.devRef .tc main_v3) :=
  (show W9 m ρ c (Proc.devRef .tc main_v3) = W8 m ρ c (Proc.devRef .tc main_v3) from (by host_keeps hostOps2 main_v3)).trans (keep_main_v3_8 m ρ c)
theorem keep_main_v3_10 (c : Dev nD) : W10 m ρ c (Proc.devRef .tc main_v3) = W5 m ρ c (Proc.devRef .tc main_v3) :=
  (show W10 m ρ c (Proc.devRef .tc main_v3) = W9 m ρ c (Proc.devRef .tc main_v3) from (W10_of_ne m ρ c main_v3 (by decide))).trans (keep_main_v3_9 m ρ c)
theorem keep_main_v3_11 (c : Dev nD) : W11 m ρ c (Proc.devRef .tc main_v3) = W5 m ρ c (Proc.devRef .tc main_v3) :=
  (show W11 m ρ c (Proc.devRef .tc main_v3) = W10 m ρ c (Proc.devRef .tc main_v3) from (by host_keeps hostOps3 main_v3)).trans (keep_main_v3_10 m ρ c)
theorem keep_main_v3_12 (c : Dev nD) : W12 m ρ c (Proc.devRef .tc main_v3) = W5 m ρ c (Proc.devRef .tc main_v3) :=
  (show W12 m ρ c (Proc.devRef .tc main_v3) = W11 m ρ c (Proc.devRef .tc main_v3) from (W12_of_ne m ρ c main_v3 (by decide))).trans (keep_main_v3_11 m ρ c)
theorem keep_main_v3_13 (c : Dev nD) : W13 m ρ c (Proc.devRef .tc main_v3) = W5 m ρ c (Proc.devRef .tc main_v3) :=
  (show W13 m ρ c (Proc.devRef .tc main_v3) = W12 m ρ c (Proc.devRef .tc main_v3) from (by host_keeps hostOps4 main_v3)).trans (keep_main_v3_12 m ρ c)
theorem keep_main_v3_14 (c : Dev nD) : W14 m ρ c (Proc.devRef .tc main_v3) = W5 m ρ c (Proc.devRef .tc main_v3) :=
  (show W14 m ρ c (Proc.devRef .tc main_v3) = W13 m ρ c (Proc.devRef .tc main_v3) from (W14_of_ne m ρ c main_v3 (by decide))).trans (keep_main_v3_13 m ρ c)
theorem keep_main_v3_15 (c : Dev nD) : W15 m ρ c (Proc.devRef .tc main_v3) = W5 m ρ c (Proc.devRef .tc main_v3) :=
  (show W15 m ρ c (Proc.devRef .tc main_v3) = W14 m ρ c (Proc.devRef .tc main_v3) from (by host_keeps hostOps5 main_v3)).trans (keep_main_v3_14 m ρ c)
theorem keep_main_v3_16 (c : Dev nD) : W16 m ρ c (Proc.devRef .tc main_v3) = W5 m ρ c (Proc.devRef .tc main_v3) :=
  (show W16 m ρ c (Proc.devRef .tc main_v3) = W15 m ρ c (Proc.devRef .tc main_v3) from (W16_of_ne m ρ c main_v3 (by decide))).trans (keep_main_v3_15 m ρ c)
theorem keep_main_v3_17 (c : Dev nD) : W17 m ρ c (Proc.devRef .tc main_v3) = W5 m ρ c (Proc.devRef .tc main_v3) :=
  (show W17 m ρ c (Proc.devRef .tc main_v3) = W16 m ρ c (Proc.devRef .tc main_v3) from (by host_keeps hostOps6 main_v3)).trans (keep_main_v3_16 m ρ c)
theorem keep_main_v3_18 (c : Dev nD) : W18 m ρ c (Proc.devRef .tc main_v3) = W5 m ρ c (Proc.devRef .tc main_v3) :=
  (show W18 m ρ c (Proc.devRef .tc main_v3) = W17 m ρ c (Proc.devRef .tc main_v3) from (W18_of_ne m ρ c main_v3 (by decide))).trans (keep_main_v3_17 m ρ c)
theorem keep_main_v3_19 (c : Dev nD) : W19 m ρ c (Proc.devRef .tc main_v3) = W5 m ρ c (Proc.devRef .tc main_v3) :=
  (show W19 m ρ c (Proc.devRef .tc main_v3) = W18 m ρ c (Proc.devRef .tc main_v3) from (by host_keeps hostOps7 main_v3)).trans (keep_main_v3_18 m ρ c)
theorem keep_main_v3_20 (c : Dev nD) : W20 m ρ c (Proc.devRef .tc main_v3) = W5 m ρ c (Proc.devRef .tc main_v3) :=
  (show W20 m ρ c (Proc.devRef .tc main_v3) = W19 m ρ c (Proc.devRef .tc main_v3) from (W20_of_ne m ρ c main_v3 (by decide))).trans (keep_main_v3_19 m ρ c)
theorem keep_main_v3_21 (c : Dev nD) : W21 m ρ c (Proc.devRef .tc main_v3) = W5 m ρ c (Proc.devRef .tc main_v3) :=
  (show W21 m ρ c (Proc.devRef .tc main_v3) = W20 m ρ c (Proc.devRef .tc main_v3) from (by host_keeps hostOps8 main_v3)).trans (keep_main_v3_20 m ρ c)
theorem keep_main_v3_22 (c : Dev nD) : W22 m ρ c (Proc.devRef .tc main_v3) = W5 m ρ c (Proc.devRef .tc main_v3) :=
  (show W22 m ρ c (Proc.devRef .tc main_v3) = W21 m ρ c (Proc.devRef .tc main_v3) from (W22_of_ne m ρ c main_v3 (by decide))).trans (keep_main_v3_21 m ρ c)
theorem keep_main_v3_23 (c : Dev nD) : W23 m ρ c (Proc.devRef .tc main_v3) = W5 m ρ c (Proc.devRef .tc main_v3) :=
  (show W23 m ρ c (Proc.devRef .tc main_v3) = W22 m ρ c (Proc.devRef .tc main_v3) from (by host_keeps hostOps9 main_v3)).trans (keep_main_v3_22 m ρ c)
theorem keep_main_v3_24 (c : Dev nD) : W24 m ρ c (Proc.devRef .tc main_v3) = W5 m ρ c (Proc.devRef .tc main_v3) :=
  (show W24 m ρ c (Proc.devRef .tc main_v3) = W23 m ρ c (Proc.devRef .tc main_v3) from (W24_of_ne m ρ c main_v3 (by decide))).trans (keep_main_v3_23 m ρ c)

/-! ### `main_v19`: the column of inverse node degrees, from boundary 5 to boundary 27 -/

theorem keep_main_v19_6 (c : Dev nD) : W6 m ρ c (Proc.devRef .tc main_v19) = W5 m ρ c (Proc.devRef .tc main_v19) :=
  (show W6 m ρ c (Proc.devRef .tc main_v19) = W5 m ρ c (Proc.devRef .tc main_v19) from (W6_of_ne m ρ c main_v19 (by decide)))
theorem keep_main_v19_7 (c : Dev nD) : W7 m ρ c (Proc.devRef .tc main_v19) = W5 m ρ c (Proc.devRef .tc main_v19) :=
  (show W7 m ρ c (Proc.devRef .tc main_v19) = W6 m ρ c (Proc.devRef .tc main_v19) from (by host_keeps hostOps1 main_v19)).trans (keep_main_v19_6 m ρ c)
theorem keep_main_v19_8 (c : Dev nD) : W8 m ρ c (Proc.devRef .tc main_v19) = W5 m ρ c (Proc.devRef .tc main_v19) :=
  (show W8 m ρ c (Proc.devRef .tc main_v19) = W7 m ρ c (Proc.devRef .tc main_v19) from (W8_of_ne m ρ c main_v19 (by decide))).trans (keep_main_v19_7 m ρ c)
theorem keep_main_v19_9 (c : Dev nD) : W9 m ρ c (Proc.devRef .tc main_v19) = W5 m ρ c (Proc.devRef .tc main_v19) :=
  (show W9 m ρ c (Proc.devRef .tc main_v19) = W8 m ρ c (Proc.devRef .tc main_v19) from (by host_keeps hostOps2 main_v19)).trans (keep_main_v19_8 m ρ c)
theorem keep_main_v19_10 (c : Dev nD) : W10 m ρ c (Proc.devRef .tc main_v19) = W5 m ρ c (Proc.devRef .tc main_v19) :=
  (show W10 m ρ c (Proc.devRef .tc main_v19) = W9 m ρ c (Proc.devRef .tc main_v19) from (W10_of_ne m ρ c main_v19 (by decide))).trans (keep_main_v19_9 m ρ c)
theorem keep_main_v19_11 (c : Dev nD) : W11 m ρ c (Proc.devRef .tc main_v19) = W5 m ρ c (Proc.devRef .tc main_v19) :=
  (show W11 m ρ c (Proc.devRef .tc main_v19) = W10 m ρ c (Proc.devRef .tc main_v19) from (by host_keeps hostOps3 main_v19)).trans (keep_main_v19_10 m ρ c)
theorem keep_main_v19_12 (c : Dev nD) : W12 m ρ c (Proc.devRef .tc main_v19) = W5 m ρ c (Proc.devRef .tc main_v19) :=
  (show W12 m ρ c (Proc.devRef .tc main_v19) = W11 m ρ c (Proc.devRef .tc main_v19) from ((W12_arr m ρ c 1).trans (((dat3 (V11 m ρ) c).arrAt_in 1 rfl _).trans (A_eq3 (V11 m ρ) c 1)))).trans (keep_main_v19_11 m ρ c)
theorem keep_main_v19_13 (c : Dev nD) : W13 m ρ c (Proc.devRef .tc main_v19) = W5 m ρ c (Proc.devRef .tc main_v19) :=
  (show W13 m ρ c (Proc.devRef .tc main_v19) = W12 m ρ c (Proc.devRef .tc main_v19) from (by host_keeps hostOps4 main_v19)).trans (keep_main_v19_12 m ρ c)
theorem keep_main_v19_14 (c : Dev nD) : W14 m ρ c (Proc.devRef .tc main_v19) = W5 m ρ c (Proc.devRef .tc main_v19) :=
  (show W14 m ρ c (Proc.devRef .tc main_v19) = W13 m ρ c (Proc.devRef .tc main_v19) from (W14_of_ne m ρ c main_v19 (by decide))).trans (keep_main_v19_13 m ρ c)
theorem keep_main_v19_15 (c : Dev nD) : W15 m ρ c (Proc.devRef .tc main_v19) = W5 m ρ c (Proc.devRef .tc main_v19) :=
  (show W15 m ρ c (Proc.devRef .tc main_v19) = W14 m ρ c (Proc.devRef .tc main_v19) from (by host_keeps hostOps5 main_v19)).trans (keep_main_v19_14 m ρ c)
theorem keep_main_v19_16 (c : Dev nD) : W16 m ρ c (Proc.devRef .tc main_v19) = W5 m ρ c (Proc.devRef .tc main_v19) :=
  (show W16 m ρ c (Proc.devRef .tc main_v19) = W15 m ρ c (Proc.devRef .tc main_v19) from (W16_of_ne m ρ c main_v19 (by decide))).trans (keep_main_v19_15 m ρ c)
theorem keep_main_v19_17 (c : Dev nD) : W17 m ρ c (Proc.devRef .tc main_v19) = W5 m ρ c (Proc.devRef .tc main_v19) :=
  (show W17 m ρ c (Proc.devRef .tc main_v19) = W16 m ρ c (Proc.devRef .tc main_v19) from (by host_keeps hostOps6 main_v19)).trans (keep_main_v19_16 m ρ c)
theorem keep_main_v19_18 (c : Dev nD) : W18 m ρ c (Proc.devRef .tc main_v19) = W5 m ρ c (Proc.devRef .tc main_v19) :=
  (show W18 m ρ c (Proc.devRef .tc main_v19) = W17 m ρ c (Proc.devRef .tc main_v19) from (W18_of_ne m ρ c main_v19 (by decide))).trans (keep_main_v19_17 m ρ c)
theorem keep_main_v19_19 (c : Dev nD) : W19 m ρ c (Proc.devRef .tc main_v19) = W5 m ρ c (Proc.devRef .tc main_v19) :=
  (show W19 m ρ c (Proc.devRef .tc main_v19) = W18 m ρ c (Proc.devRef .tc main_v19) from (by host_keeps hostOps7 main_v19)).trans (keep_main_v19_18 m ρ c)
theorem keep_main_v19_20 (c : Dev nD) : W20 m ρ c (Proc.devRef .tc main_v19) = W5 m ρ c (Proc.devRef .tc main_v19) :=
  (show W20 m ρ c (Proc.devRef .tc main_v19) = W19 m ρ c (Proc.devRef .tc main_v19) from ((W20_arr m ρ c 1).trans (((dat7 (V19 m ρ) c).arrAt_in 1 rfl _).trans (A_eq7 (V19 m ρ) c 1)))).trans (keep_main_v19_19 m ρ c)
theorem keep_main_v19_21 (c : Dev nD) : W21 m ρ c (Proc.devRef .tc main_v19) = W5 m ρ c (Proc.devRef .tc main_v19) :=
  (show W21 m ρ c (Proc.devRef .tc main_v19) = W20 m ρ c (Proc.devRef .tc main_v19) from (by host_keeps hostOps8 main_v19)).trans (keep_main_v19_20 m ρ c)
theorem keep_main_v19_22 (c : Dev nD) : W22 m ρ c (Proc.devRef .tc main_v19) = W5 m ρ c (Proc.devRef .tc main_v19) :=
  (show W22 m ρ c (Proc.devRef .tc main_v19) = W21 m ρ c (Proc.devRef .tc main_v19) from (W22_of_ne m ρ c main_v19 (by decide))).trans (keep_main_v19_21 m ρ c)
theorem keep_main_v19_23 (c : Dev nD) : W23 m ρ c (Proc.devRef .tc main_v19) = W5 m ρ c (Proc.devRef .tc main_v19) :=
  (show W23 m ρ c (Proc.devRef .tc main_v19) = W22 m ρ c (Proc.devRef .tc main_v19) from (by host_keeps hostOps9 main_v19)).trans (keep_main_v19_22 m ρ c)
theorem keep_main_v19_24 (c : Dev nD) : W24 m ρ c (Proc.devRef .tc main_v19) = W5 m ρ c (Proc.devRef .tc main_v19) :=
  (show W24 m ρ c (Proc.devRef .tc main_v19) = W23 m ρ c (Proc.devRef .tc main_v19) from (W24_of_ne m ρ c main_v19 (by decide))).trans (keep_main_v19_23 m ρ c)
theorem keep_main_v19_25 (c : Dev nD) : W25 m ρ c (Proc.devRef .tc main_v19) = W5 m ρ c (Proc.devRef .tc main_v19) :=
  (show W25 m ρ c (Proc.devRef .tc main_v19) = W24 m ρ c (Proc.devRef .tc main_v19) from (by host_keeps hostOps10 main_v19)).trans (keep_main_v19_24 m ρ c)
theorem keep_main_v19_26 (c : Dev nD) : W26 m ρ c (Proc.devRef .tc main_v19) = W5 m ρ c (Proc.devRef .tc main_v19) :=
  (show W26 m ρ c (Proc.devRef .tc main_v19) = W25 m ρ c (Proc.devRef .tc main_v19) from (W26_of_ne m ρ c main_v19 (by decide))).trans (keep_main_v19_25 m ρ c)
theorem keep_main_v19_27 (c : Dev nD) : W27 m ρ c (Proc.devRef .tc main_v19) = W5 m ρ c (Proc.devRef .tc main_v19) :=
  (show W27 m ρ c (Proc.devRef .tc main_v19) = W26 m ρ c (Proc.devRef .tc main_v19) from (by host_keeps hostOps11 main_v19)).trans (keep_main_v19_26 m ρ c)

/-! ### `main_v29`: the column of inverse hyperedge degrees, from boundary 5 to boundary 23 -/

theorem keep_main_v29_6 (c : Dev nD) : W6 m ρ c (Proc.devRef .tc main_v29) = W5 m ρ c (Proc.devRef .tc main_v29) :=
  (show W6 m ρ c (Proc.devRef .tc main_v29) = W5 m ρ c (Proc.devRef .tc main_v29) from (W6_of_ne m ρ c main_v29 (by decide)))
theorem keep_main_v29_7 (c : Dev nD) : W7 m ρ c (Proc.devRef .tc main_v29) = W5 m ρ c (Proc.devRef .tc main_v29) :=
  (show W7 m ρ c (Proc.devRef .tc main_v29) = W6 m ρ c (Proc.devRef .tc main_v29) from (by host_keeps hostOps1 main_v29)).trans (keep_main_v29_6 m ρ c)
theorem keep_main_v29_8 (c : Dev nD) : W8 m ρ c (Proc.devRef .tc main_v29) = W5 m ρ c (Proc.devRef .tc main_v29) :=
  (show W8 m ρ c (Proc.devRef .tc main_v29) = W7 m ρ c (Proc.devRef .tc main_v29) from ((W8_arr m ρ c 1).trans (((dat1 (V7 m ρ) c).arrAt_in 1 rfl _).trans (A_eq1 (V7 m ρ) c 1)))).trans (keep_main_v29_7 m ρ c)
theorem keep_main_v29_9 (c : Dev nD) : W9 m ρ c (Proc.devRef .tc main_v29) = W5 m ρ c (Proc.devRef .tc main_v29) :=
  (show W9 m ρ c (Proc.devRef .tc main_v29) = W8 m ρ c (Proc.devRef .tc main_v29) from (by host_keeps hostOps2 main_v29)).trans (keep_main_v29_8 m ρ c)
theorem keep_main_v29_10 (c : Dev nD) : W10 m ρ c (Proc.devRef .tc main_v29) = W5 m ρ c (Proc.devRef .tc main_v29) :=
  (show W10 m ρ c (Proc.devRef .tc main_v29) = W9 m ρ c (Proc.devRef .tc main_v29) from (W10_of_ne m ρ c main_v29 (by decide))).trans (keep_main_v29_9 m ρ c)
theorem keep_main_v29_11 (c : Dev nD) : W11 m ρ c (Proc.devRef .tc main_v29) = W5 m ρ c (Proc.devRef .tc main_v29) :=
  (show W11 m ρ c (Proc.devRef .tc main_v29) = W10 m ρ c (Proc.devRef .tc main_v29) from (by host_keeps hostOps3 main_v29)).trans (keep_main_v29_10 m ρ c)
theorem keep_main_v29_12 (c : Dev nD) : W12 m ρ c (Proc.devRef .tc main_v29) = W5 m ρ c (Proc.devRef .tc main_v29) :=
  (show W12 m ρ c (Proc.devRef .tc main_v29) = W11 m ρ c (Proc.devRef .tc main_v29) from (W12_of_ne m ρ c main_v29 (by decide))).trans (keep_main_v29_11 m ρ c)
theorem keep_main_v29_13 (c : Dev nD) : W13 m ρ c (Proc.devRef .tc main_v29) = W5 m ρ c (Proc.devRef .tc main_v29) :=
  (show W13 m ρ c (Proc.devRef .tc main_v29) = W12 m ρ c (Proc.devRef .tc main_v29) from (by host_keeps hostOps4 main_v29)).trans (keep_main_v29_12 m ρ c)
theorem keep_main_v29_14 (c : Dev nD) : W14 m ρ c (Proc.devRef .tc main_v29) = W5 m ρ c (Proc.devRef .tc main_v29) :=
  (show W14 m ρ c (Proc.devRef .tc main_v29) = W13 m ρ c (Proc.devRef .tc main_v29) from (W14_of_ne m ρ c main_v29 (by decide))).trans (keep_main_v29_13 m ρ c)
theorem keep_main_v29_15 (c : Dev nD) : W15 m ρ c (Proc.devRef .tc main_v29) = W5 m ρ c (Proc.devRef .tc main_v29) :=
  (show W15 m ρ c (Proc.devRef .tc main_v29) = W14 m ρ c (Proc.devRef .tc main_v29) from (by host_keeps hostOps5 main_v29)).trans (keep_main_v29_14 m ρ c)
theorem keep_main_v29_16 (c : Dev nD) : W16 m ρ c (Proc.devRef .tc main_v29) = W5 m ρ c (Proc.devRef .tc main_v29) :=
  (show W16 m ρ c (Proc.devRef .tc main_v29) = W15 m ρ c (Proc.devRef .tc main_v29) from ((W16_arr m ρ c 1).trans (((dat5 (V15 m ρ) c).arrAt_in 1 rfl _).trans (A_eq5 (V15 m ρ) c 1)))).trans (keep_main_v29_15 m ρ c)
theorem keep_main_v29_17 (c : Dev nD) : W17 m ρ c (Proc.devRef .tc main_v29) = W5 m ρ c (Proc.devRef .tc main_v29) :=
  (show W17 m ρ c (Proc.devRef .tc main_v29) = W16 m ρ c (Proc.devRef .tc main_v29) from (by host_keeps hostOps6 main_v29)).trans (keep_main_v29_16 m ρ c)
theorem keep_main_v29_18 (c : Dev nD) : W18 m ρ c (Proc.devRef .tc main_v29) = W5 m ρ c (Proc.devRef .tc main_v29) :=
  (show W18 m ρ c (Proc.devRef .tc main_v29) = W17 m ρ c (Proc.devRef .tc main_v29) from (W18_of_ne m ρ c main_v29 (by decide))).trans (keep_main_v29_17 m ρ c)
theorem keep_main_v29_19 (c : Dev nD) : W19 m ρ c (Proc.devRef .tc main_v29) = W5 m ρ c (Proc.devRef .tc main_v29) :=
  (show W19 m ρ c (Proc.devRef .tc main_v29) = W18 m ρ c (Proc.devRef .tc main_v29) from (by host_keeps hostOps7 main_v29)).trans (keep_main_v29_18 m ρ c)
theorem keep_main_v29_20 (c : Dev nD) : W20 m ρ c (Proc.devRef .tc main_v29) = W5 m ρ c (Proc.devRef .tc main_v29) :=
  (show W20 m ρ c (Proc.devRef .tc main_v29) = W19 m ρ c (Proc.devRef .tc main_v29) from (W20_of_ne m ρ c main_v29 (by decide))).trans (keep_main_v29_19 m ρ c)
theorem keep_main_v29_21 (c : Dev nD) : W21 m ρ c (Proc.devRef .tc main_v29) = W5 m ρ c (Proc.devRef .tc main_v29) :=
  (show W21 m ρ c (Proc.devRef .tc main_v29) = W20 m ρ c (Proc.devRef .tc main_v29) from (by host_keeps hostOps8 main_v29)).trans (keep_main_v29_20 m ρ c)
theorem keep_main_v29_22 (c : Dev nD) : W22 m ρ c (Proc.devRef .tc main_v29) = W5 m ρ c (Proc.devRef .tc main_v29) :=
  (show W22 m ρ c (Proc.devRef .tc main_v29) = W21 m ρ c (Proc.devRef .tc main_v29) from (W22_of_ne m ρ c main_v29 (by decide))).trans (keep_main_v29_21 m ρ c)
theorem keep_main_v29_23 (c : Dev nD) : W23 m ρ c (Proc.devRef .tc main_v29) = W5 m ρ c (Proc.devRef .tc main_v29) :=
  (show W23 m ρ c (Proc.devRef .tc main_v29) = W22 m ρ c (Proc.devRef .tc main_v29) from (by host_keeps hostOps9 main_v29)).trans (keep_main_v29_22 m ρ c)

/-! ### `main_v30`: the column of incidence weights, from boundary 5 to boundary 25 -/

theorem keep_main_v30_6 (c : Dev nD) : W6 m ρ c (Proc.devRef .tc main_v30) = W5 m ρ c (Proc.devRef .tc main_v30) :=
  (show W6 m ρ c (Proc.devRef .tc main_v30) = W5 m ρ c (Proc.devRef .tc main_v30) from (W6_of_ne m ρ c main_v30 (by decide)))
theorem keep_main_v30_7 (c : Dev nD) : W7 m ρ c (Proc.devRef .tc main_v30) = W5 m ρ c (Proc.devRef .tc main_v30) :=
  (show W7 m ρ c (Proc.devRef .tc main_v30) = W6 m ρ c (Proc.devRef .tc main_v30) from (by host_keeps hostOps1 main_v30)).trans (keep_main_v30_6 m ρ c)
theorem keep_main_v30_8 (c : Dev nD) : W8 m ρ c (Proc.devRef .tc main_v30) = W5 m ρ c (Proc.devRef .tc main_v30) :=
  (show W8 m ρ c (Proc.devRef .tc main_v30) = W7 m ρ c (Proc.devRef .tc main_v30) from (W8_of_ne m ρ c main_v30 (by decide))).trans (keep_main_v30_7 m ρ c)
theorem keep_main_v30_9 (c : Dev nD) : W9 m ρ c (Proc.devRef .tc main_v30) = W5 m ρ c (Proc.devRef .tc main_v30) :=
  (show W9 m ρ c (Proc.devRef .tc main_v30) = W8 m ρ c (Proc.devRef .tc main_v30) from (by host_keeps hostOps2 main_v30)).trans (keep_main_v30_8 m ρ c)
theorem keep_main_v30_10 (c : Dev nD) : W10 m ρ c (Proc.devRef .tc main_v30) = W5 m ρ c (Proc.devRef .tc main_v30) :=
  (show W10 m ρ c (Proc.devRef .tc main_v30) = W9 m ρ c (Proc.devRef .tc main_v30) from ((W10_arr m ρ c 1).trans (((dat2 (V9 m ρ) c).arrAt_in 1 rfl _).trans (A_eq2 (V9 m ρ) c 1)))).trans (keep_main_v30_9 m ρ c)
theorem keep_main_v30_11 (c : Dev nD) : W11 m ρ c (Proc.devRef .tc main_v30) = W5 m ρ c (Proc.devRef .tc main_v30) :=
  (show W11 m ρ c (Proc.devRef .tc main_v30) = W10 m ρ c (Proc.devRef .tc main_v30) from (by host_keeps hostOps3 main_v30)).trans (keep_main_v30_10 m ρ c)
theorem keep_main_v30_12 (c : Dev nD) : W12 m ρ c (Proc.devRef .tc main_v30) = W5 m ρ c (Proc.devRef .tc main_v30) :=
  (show W12 m ρ c (Proc.devRef .tc main_v30) = W11 m ρ c (Proc.devRef .tc main_v30) from (W12_of_ne m ρ c main_v30 (by decide))).trans (keep_main_v30_11 m ρ c)
theorem keep_main_v30_13 (c : Dev nD) : W13 m ρ c (Proc.devRef .tc main_v30) = W5 m ρ c (Proc.devRef .tc main_v30) :=
  (show W13 m ρ c (Proc.devRef .tc main_v30) = W12 m ρ c (Proc.devRef .tc main_v30) from (by host_keeps hostOps4 main_v30)).trans (keep_main_v30_12 m ρ c)
theorem keep_main_v30_14 (c : Dev nD) : W14 m ρ c (Proc.devRef .tc main_v30) = W5 m ρ c (Proc.devRef .tc main_v30) :=
  (show W14 m ρ c (Proc.devRef .tc main_v30) = W13 m ρ c (Proc.devRef .tc main_v30) from (W14_of_ne m ρ c main_v30 (by decide))).trans (keep_main_v30_13 m ρ c)
theorem keep_main_v30_15 (c : Dev nD) : W15 m ρ c (Proc.devRef .tc main_v30) = W5 m ρ c (Proc.devRef .tc main_v30) :=
  (show W15 m ρ c (Proc.devRef .tc main_v30) = W14 m ρ c (Proc.devRef .tc main_v30) from (by host_keeps hostOps5 main_v30)).trans (keep_main_v30_14 m ρ c)
theorem keep_main_v30_16 (c : Dev nD) : W16 m ρ c (Proc.devRef .tc main_v30) = W5 m ρ c (Proc.devRef .tc main_v30) :=
  (show W16 m ρ c (Proc.devRef .tc main_v30) = W15 m ρ c (Proc.devRef .tc main_v30) from (W16_of_ne m ρ c main_v30 (by decide))).trans (keep_main_v30_15 m ρ c)
theorem keep_main_v30_17 (c : Dev nD) : W17 m ρ c (Proc.devRef .tc main_v30) = W5 m ρ c (Proc.devRef .tc main_v30) :=
  (show W17 m ρ c (Proc.devRef .tc main_v30) = W16 m ρ c (Proc.devRef .tc main_v30) from (by host_keeps hostOps6 main_v30)).trans (keep_main_v30_16 m ρ c)
theorem keep_main_v30_18 (c : Dev nD) : W18 m ρ c (Proc.devRef .tc main_v30) = W5 m ρ c (Proc.devRef .tc main_v30) :=
  (show W18 m ρ c (Proc.devRef .tc main_v30) = W17 m ρ c (Proc.devRef .tc main_v30) from ((W18_arr m ρ c 1).trans (((dat6 (V17 m ρ) c).arrAt_in 1 rfl _).trans (A_eq6 (V17 m ρ) c 1)))).trans (keep_main_v30_17 m ρ c)
theorem keep_main_v30_19 (c : Dev nD) : W19 m ρ c (Proc.devRef .tc main_v30) = W5 m ρ c (Proc.devRef .tc main_v30) :=
  (show W19 m ρ c (Proc.devRef .tc main_v30) = W18 m ρ c (Proc.devRef .tc main_v30) from (by host_keeps hostOps7 main_v30)).trans (keep_main_v30_18 m ρ c)
theorem keep_main_v30_20 (c : Dev nD) : W20 m ρ c (Proc.devRef .tc main_v30) = W5 m ρ c (Proc.devRef .tc main_v30) :=
  (show W20 m ρ c (Proc.devRef .tc main_v30) = W19 m ρ c (Proc.devRef .tc main_v30) from (W20_of_ne m ρ c main_v30 (by decide))).trans (keep_main_v30_19 m ρ c)
theorem keep_main_v30_21 (c : Dev nD) : W21 m ρ c (Proc.devRef .tc main_v30) = W5 m ρ c (Proc.devRef .tc main_v30) :=
  (show W21 m ρ c (Proc.devRef .tc main_v30) = W20 m ρ c (Proc.devRef .tc main_v30) from (by host_keeps hostOps8 main_v30)).trans (keep_main_v30_20 m ρ c)
theorem keep_main_v30_22 (c : Dev nD) : W22 m ρ c (Proc.devRef .tc main_v30) = W5 m ρ c (Proc.devRef .tc main_v30) :=
  (show W22 m ρ c (Proc.devRef .tc main_v30) = W21 m ρ c (Proc.devRef .tc main_v30) from (W22_of_ne m ρ c main_v30 (by decide))).trans (keep_main_v30_21 m ρ c)
theorem keep_main_v30_23 (c : Dev nD) : W23 m ρ c (Proc.devRef .tc main_v30) = W5 m ρ c (Proc.devRef .tc main_v30) :=
  (show W23 m ρ c (Proc.devRef .tc main_v30) = W22 m ρ c (Proc.devRef .tc main_v30) from (by host_keeps hostOps9 main_v30)).trans (keep_main_v30_22 m ρ c)
theorem keep_main_v30_24 (c : Dev nD) : W24 m ρ c (Proc.devRef .tc main_v30) = W5 m ρ c (Proc.devRef .tc main_v30) :=
  (show W24 m ρ c (Proc.devRef .tc main_v30) = W23 m ρ c (Proc.devRef .tc main_v30) from (W24_of_ne m ρ c main_v30 (by decide))).trans (keep_main_v30_23 m ρ c)
theorem keep_main_v30_25 (c : Dev nD) : W25 m ρ c (Proc.devRef .tc main_v30) = W5 m ρ c (Proc.devRef .tc main_v30) :=
  (show W25 m ρ c (Proc.devRef .tc main_v30) = W24 m ρ c (Proc.devRef .tc main_v30) from (by host_keeps hostOps10 main_v30)).trans (keep_main_v30_24 m ρ c)

/-! ### `main_arg2`: the input features, from boundary 0 to boundary 5 -/

theorem keep_main_arg2_1 (c : Dev nD) : W1 m ρ c (Proc.devRef .tc main_arg2) = W0 m ρ c (Proc.devRef .tc main_arg2) :=
  (show W1 m ρ c (Proc.devRef .tc main_arg2) = W0 m ρ c (Proc.devRef .tc main_arg2) from (by host_keeps hostOps0 main_arg2))
theorem keep_main_arg2_2 (c : Dev nD) : W2 m ρ c (Proc.devRef .tc main_arg2) = W0 m ρ c (Proc.devRef .tc main_arg2) :=
  (show W2 m ρ c (Proc.devRef .tc main_arg2) = W1 m ρ c (Proc.devRef .tc main_arg2) from (by host_keeps hostOps0_1 main_arg2)).trans (keep_main_arg2_1 m ρ c)
theorem keep_main_arg2_3 (c : Dev nD) : W3 m ρ c (Proc.devRef .tc main_arg2) = W0 m ρ c (Proc.devRef .tc main_arg2) :=
  (show W3 m ρ c (Proc.devRef .tc main_arg2) = W2 m ρ c (Proc.devRef .tc main_arg2) from (by host_keeps hostOps0_2 main_arg2)).trans (keep_main_arg2_2 m ρ c)
theorem keep_main_arg2_4 (c : Dev nD) : W4 m ρ c (Proc.devRef .tc main_arg2) = W0 m ρ c (Proc.devRef .tc main_arg2) :=
  (show W4 m ρ c (Proc.devRef .tc main_arg2) = W3 m ρ c (Proc.devRef .tc main_arg2) from (by host_keeps hostOps0_3 main_arg2)).trans (keep_main_arg2_3 m ρ c)
theorem keep_main_arg2_5 (c : Dev nD) : W5 m ρ c (Proc.devRef .tc main_arg2) = W0 m ρ c (Proc.devRef .tc main_arg2) :=
  (show W5 m ρ c (Proc.devRef .tc main_arg2) = W4 m ρ c (Proc.devRef .tc main_arg2) from (by host_keeps hostOps0_4 main_arg2)).trans (keep_main_arg2_4 m ρ c)

/-! ### `main_arg3`: the first layer's weight, from boundary 0 to boundary 5 -/

theorem keep_main_arg3_1 (c : Dev nD) : W1 m ρ c (Proc.devRef .tc main_arg3) = W0 m ρ c (Proc.devRef .tc main_arg3) :=
  (show W1 m ρ c (Proc.devRef .tc main_arg3) = W0 m ρ c (Proc.devRef .tc main_arg3) from (by host_keeps hostOps0 main_arg3))
theorem keep_main_arg3_2 (c : Dev nD) : W2 m ρ c (Proc.devRef .tc main_arg3) = W0 m ρ c (Proc.devRef .tc main_arg3) :=
  (show W2 m ρ c (Proc.devRef .tc main_arg3) = W1 m ρ c (Proc.devRef .tc main_arg3) from (by host_keeps hostOps0_1 main_arg3)).trans (keep_main_arg3_1 m ρ c)
theorem keep_main_arg3_3 (c : Dev nD) : W3 m ρ c (Proc.devRef .tc main_arg3) = W0 m ρ c (Proc.devRef .tc main_arg3) :=
  (show W3 m ρ c (Proc.devRef .tc main_arg3) = W2 m ρ c (Proc.devRef .tc main_arg3) from (by host_keeps hostOps0_2 main_arg3)).trans (keep_main_arg3_2 m ρ c)
theorem keep_main_arg3_4 (c : Dev nD) : W4 m ρ c (Proc.devRef .tc main_arg3) = W0 m ρ c (Proc.devRef .tc main_arg3) :=
  (show W4 m ρ c (Proc.devRef .tc main_arg3) = W3 m ρ c (Proc.devRef .tc main_arg3) from (by host_keeps hostOps0_3 main_arg3)).trans (keep_main_arg3_3 m ρ c)
theorem keep_main_arg3_5 (c : Dev nD) : W5 m ρ c (Proc.devRef .tc main_arg3) = W0 m ρ c (Proc.devRef .tc main_arg3) :=
  (show W5 m ρ c (Proc.devRef .tc main_arg3) = W4 m ρ c (Proc.devRef .tc main_arg3) from (by host_keeps hostOps0_4 main_arg3)).trans (keep_main_arg3_4 m ρ c)

/-! ### `main_arg5`: the second layer's weight, from boundary 0 to boundary 13 -/

theorem keep_main_arg5_1 (c : Dev nD) : W1 m ρ c (Proc.devRef .tc main_arg5) = W0 m ρ c (Proc.devRef .tc main_arg5) :=
  (show W1 m ρ c (Proc.devRef .tc main_arg5) = W0 m ρ c (Proc.devRef .tc main_arg5) from (by host_keeps hostOps0 main_arg5))
theorem keep_main_arg5_2 (c : Dev nD) : W2 m ρ c (Proc.devRef .tc main_arg5) = W0 m ρ c (Proc.devRef .tc main_arg5) :=
  (show W2 m ρ c (Proc.devRef .tc main_arg5) = W1 m ρ c (Proc.devRef .tc main_arg5) from (by host_keeps hostOps0_1 main_arg5)).trans (keep_main_arg5_1 m ρ c)
theorem keep_main_arg5_3 (c : Dev nD) : W3 m ρ c (Proc.devRef .tc main_arg5) = W0 m ρ c (Proc.devRef .tc main_arg5) :=
  (show W3 m ρ c (Proc.devRef .tc main_arg5) = W2 m ρ c (Proc.devRef .tc main_arg5) from (by host_keeps hostOps0_2 main_arg5)).trans (keep_main_arg5_2 m ρ c)
theorem keep_main_arg5_4 (c : Dev nD) : W4 m ρ c (Proc.devRef .tc main_arg5) = W0 m ρ c (Proc.devRef .tc main_arg5) :=
  (show W4 m ρ c (Proc.devRef .tc main_arg5) = W3 m ρ c (Proc.devRef .tc main_arg5) from (by host_keeps hostOps0_3 main_arg5)).trans (keep_main_arg5_3 m ρ c)
theorem keep_main_arg5_5 (c : Dev nD) : W5 m ρ c (Proc.devRef .tc main_arg5) = W0 m ρ c (Proc.devRef .tc main_arg5) :=
  (show W5 m ρ c (Proc.devRef .tc main_arg5) = W4 m ρ c (Proc.devRef .tc main_arg5) from (by host_keeps hostOps0_4 main_arg5)).trans (keep_main_arg5_4 m ρ c)
theorem keep_main_arg5_6 (c : Dev nD) : W6 m ρ c (Proc.devRef .tc main_arg5) = W0 m ρ c (Proc.devRef .tc main_arg5) :=
  (show W6 m ρ c (Proc.devRef .tc main_arg5) = W5 m ρ c (Proc.devRef .tc main_arg5) from (W6_of_ne m ρ c main_arg5 (by decide))).trans (keep_main_arg5_5 m ρ c)
theorem keep_main_arg5_7 (c : Dev nD) : W7 m ρ c (Proc.devRef .tc main_arg5) = W0 m ρ c (Proc.devRef .tc main_arg5) :=
  (show W7 m ρ c (Proc.devRef .tc main_arg5) = W6 m ρ c (Proc.devRef .tc main_arg5) from (by host_keeps hostOps1 main_arg5)).trans (keep_main_arg5_6 m ρ c)
theorem keep_main_arg5_8 (c : Dev nD) : W8 m ρ c (Proc.devRef .tc main_arg5) = W0 m ρ c (Proc.devRef .tc main_arg5) :=
  (show W8 m ρ c (Proc.devRef .tc main_arg5) = W7 m ρ c (Proc.devRef .tc main_arg5) from (W8_of_ne m ρ c main_arg5 (by decide))).trans (keep_main_arg5_7 m ρ c)
theorem keep_main_arg5_9 (c : Dev nD) : W9 m ρ c (Proc.devRef .tc main_arg5) = W0 m ρ c (Proc.devRef .tc main_arg5) :=
  (show W9 m ρ c (Proc.devRef .tc main_arg5) = W8 m ρ c (Proc.devRef .tc main_arg5) from (by host_keeps hostOps2 main_arg5)).trans (keep_main_arg5_8 m ρ c)
theorem keep_main_arg5_10 (c : Dev nD) : W10 m ρ c (Proc.devRef .tc main_arg5) = W0 m ρ c (Proc.devRef .tc main_arg5) :=
  (show W10 m ρ c (Proc.devRef .tc main_arg5) = W9 m ρ c (Proc.devRef .tc main_arg5) from (W10_of_ne m ρ c main_arg5 (by decide))).trans (keep_main_arg5_9 m ρ c)
theorem keep_main_arg5_11 (c : Dev nD) : W11 m ρ c (Proc.devRef .tc main_arg5) = W0 m ρ c (Proc.devRef .tc main_arg5) :=
  (show W11 m ρ c (Proc.devRef .tc main_arg5) = W10 m ρ c (Proc.devRef .tc main_arg5) from (by host_keeps hostOps3 main_arg5)).trans (keep_main_arg5_10 m ρ c)
theorem keep_main_arg5_12 (c : Dev nD) : W12 m ρ c (Proc.devRef .tc main_arg5) = W0 m ρ c (Proc.devRef .tc main_arg5) :=
  (show W12 m ρ c (Proc.devRef .tc main_arg5) = W11 m ρ c (Proc.devRef .tc main_arg5) from (W12_of_ne m ρ c main_arg5 (by decide))).trans (keep_main_arg5_11 m ρ c)
theorem keep_main_arg5_13 (c : Dev nD) : W13 m ρ c (Proc.devRef .tc main_arg5) = W0 m ρ c (Proc.devRef .tc main_arg5) :=
  (show W13 m ρ c (Proc.devRef .tc main_arg5) = W12 m ρ c (Proc.devRef .tc main_arg5) from (by host_keeps hostOps4 main_arg5)).trans (keep_main_arg5_12 m ρ c)

/-! ### `main_arg6`: the second layer's bias, from boundary 0 to boundary 12 -/

theorem keep_main_arg6_1 (c : Dev nD) : W1 m ρ c (Proc.devRef .tc main_arg6) = W0 m ρ c (Proc.devRef .tc main_arg6) :=
  (show W1 m ρ c (Proc.devRef .tc main_arg6) = W0 m ρ c (Proc.devRef .tc main_arg6) from (by host_keeps hostOps0 main_arg6))
theorem keep_main_arg6_2 (c : Dev nD) : W2 m ρ c (Proc.devRef .tc main_arg6) = W0 m ρ c (Proc.devRef .tc main_arg6) :=
  (show W2 m ρ c (Proc.devRef .tc main_arg6) = W1 m ρ c (Proc.devRef .tc main_arg6) from (by host_keeps hostOps0_1 main_arg6)).trans (keep_main_arg6_1 m ρ c)
theorem keep_main_arg6_3 (c : Dev nD) : W3 m ρ c (Proc.devRef .tc main_arg6) = W0 m ρ c (Proc.devRef .tc main_arg6) :=
  (show W3 m ρ c (Proc.devRef .tc main_arg6) = W2 m ρ c (Proc.devRef .tc main_arg6) from (by host_keeps hostOps0_2 main_arg6)).trans (keep_main_arg6_2 m ρ c)
theorem keep_main_arg6_4 (c : Dev nD) : W4 m ρ c (Proc.devRef .tc main_arg6) = W0 m ρ c (Proc.devRef .tc main_arg6) :=
  (show W4 m ρ c (Proc.devRef .tc main_arg6) = W3 m ρ c (Proc.devRef .tc main_arg6) from (by host_keeps hostOps0_3 main_arg6)).trans (keep_main_arg6_3 m ρ c)
theorem keep_main_arg6_5 (c : Dev nD) : W5 m ρ c (Proc.devRef .tc main_arg6) = W0 m ρ c (Proc.devRef .tc main_arg6) :=
  (show W5 m ρ c (Proc.devRef .tc main_arg6) = W4 m ρ c (Proc.devRef .tc main_arg6) from (by host_keeps hostOps0_4 main_arg6)).trans (keep_main_arg6_4 m ρ c)
theorem keep_main_arg6_6 (c : Dev nD) : W6 m ρ c (Proc.devRef .tc main_arg6) = W0 m ρ c (Proc.devRef .tc main_arg6) :=
  (show W6 m ρ c (Proc.devRef .tc main_arg6) = W5 m ρ c (Proc.devRef .tc main_arg6) from (W6_of_ne m ρ c main_arg6 (by decide))).trans (keep_main_arg6_5 m ρ c)
theorem keep_main_arg6_7 (c : Dev nD) : W7 m ρ c (Proc.devRef .tc main_arg6) = W0 m ρ c (Proc.devRef .tc main_arg6) :=
  (show W7 m ρ c (Proc.devRef .tc main_arg6) = W6 m ρ c (Proc.devRef .tc main_arg6) from (by host_keeps hostOps1 main_arg6)).trans (keep_main_arg6_6 m ρ c)
theorem keep_main_arg6_8 (c : Dev nD) : W8 m ρ c (Proc.devRef .tc main_arg6) = W0 m ρ c (Proc.devRef .tc main_arg6) :=
  (show W8 m ρ c (Proc.devRef .tc main_arg6) = W7 m ρ c (Proc.devRef .tc main_arg6) from (W8_of_ne m ρ c main_arg6 (by decide))).trans (keep_main_arg6_7 m ρ c)
theorem keep_main_arg6_9 (c : Dev nD) : W9 m ρ c (Proc.devRef .tc main_arg6) = W0 m ρ c (Proc.devRef .tc main_arg6) :=
  (show W9 m ρ c (Proc.devRef .tc main_arg6) = W8 m ρ c (Proc.devRef .tc main_arg6) from (by host_keeps hostOps2 main_arg6)).trans (keep_main_arg6_8 m ρ c)
theorem keep_main_arg6_10 (c : Dev nD) : W10 m ρ c (Proc.devRef .tc main_arg6) = W0 m ρ c (Proc.devRef .tc main_arg6) :=
  (show W10 m ρ c (Proc.devRef .tc main_arg6) = W9 m ρ c (Proc.devRef .tc main_arg6) from (W10_of_ne m ρ c main_arg6 (by decide))).trans (keep_main_arg6_9 m ρ c)
theorem keep_main_arg6_11 (c : Dev nD) : W11 m ρ c (Proc.devRef .tc main_arg6) = W0 m ρ c (Proc.devRef .tc main_arg6) :=
  (show W11 m ρ c (Proc.devRef .tc main_arg6) = W10 m ρ c (Proc.devRef .tc main_arg6) from (by host_keeps hostOps3 main_arg6)).trans (keep_main_arg6_10 m ρ c)
theorem keep_main_arg6_12 (c : Dev nD) : W12 m ρ c (Proc.devRef .tc main_arg6) = W0 m ρ c (Proc.devRef .tc main_arg6) :=
  (show W12 m ρ c (Proc.devRef .tc main_arg6) = W11 m ρ c (Proc.devRef .tc main_arg6) from (W12_of_ne m ρ c main_arg6 (by decide))).trans (keep_main_arg6_11 m ρ c)

/-! ### `main_arg7`: the third layer's weight, from boundary 0 to boundary 21 -/

theorem keep_main_arg7_1 (c : Dev nD) : W1 m ρ c (Proc.devRef .tc main_arg7) = W0 m ρ c (Proc.devRef .tc main_arg7) :=
  (show W1 m ρ c (Proc.devRef .tc main_arg7) = W0 m ρ c (Proc.devRef .tc main_arg7) from (by host_keeps hostOps0 main_arg7))
theorem keep_main_arg7_2 (c : Dev nD) : W2 m ρ c (Proc.devRef .tc main_arg7) = W0 m ρ c (Proc.devRef .tc main_arg7) :=
  (show W2 m ρ c (Proc.devRef .tc main_arg7) = W1 m ρ c (Proc.devRef .tc main_arg7) from (by host_keeps hostOps0_1 main_arg7)).trans (keep_main_arg7_1 m ρ c)
theorem keep_main_arg7_3 (c : Dev nD) : W3 m ρ c (Proc.devRef .tc main_arg7) = W0 m ρ c (Proc.devRef .tc main_arg7) :=
  (show W3 m ρ c (Proc.devRef .tc main_arg7) = W2 m ρ c (Proc.devRef .tc main_arg7) from (by host_keeps hostOps0_2 main_arg7)).trans (keep_main_arg7_2 m ρ c)
theorem keep_main_arg7_4 (c : Dev nD) : W4 m ρ c (Proc.devRef .tc main_arg7) = W0 m ρ c (Proc.devRef .tc main_arg7) :=
  (show W4 m ρ c (Proc.devRef .tc main_arg7) = W3 m ρ c (Proc.devRef .tc main_arg7) from (by host_keeps hostOps0_3 main_arg7)).trans (keep_main_arg7_3 m ρ c)
theorem keep_main_arg7_5 (c : Dev nD) : W5 m ρ c (Proc.devRef .tc main_arg7) = W0 m ρ c (Proc.devRef .tc main_arg7) :=
  (show W5 m ρ c (Proc.devRef .tc main_arg7) = W4 m ρ c (Proc.devRef .tc main_arg7) from (by host_keeps hostOps0_4 main_arg7)).trans (keep_main_arg7_4 m ρ c)
theorem keep_main_arg7_6 (c : Dev nD) : W6 m ρ c (Proc.devRef .tc main_arg7) = W0 m ρ c (Proc.devRef .tc main_arg7) :=
  (show W6 m ρ c (Proc.devRef .tc main_arg7) = W5 m ρ c (Proc.devRef .tc main_arg7) from (W6_of_ne m ρ c main_arg7 (by decide))).trans (keep_main_arg7_5 m ρ c)
theorem keep_main_arg7_7 (c : Dev nD) : W7 m ρ c (Proc.devRef .tc main_arg7) = W0 m ρ c (Proc.devRef .tc main_arg7) :=
  (show W7 m ρ c (Proc.devRef .tc main_arg7) = W6 m ρ c (Proc.devRef .tc main_arg7) from (by host_keeps hostOps1 main_arg7)).trans (keep_main_arg7_6 m ρ c)
theorem keep_main_arg7_8 (c : Dev nD) : W8 m ρ c (Proc.devRef .tc main_arg7) = W0 m ρ c (Proc.devRef .tc main_arg7) :=
  (show W8 m ρ c (Proc.devRef .tc main_arg7) = W7 m ρ c (Proc.devRef .tc main_arg7) from (W8_of_ne m ρ c main_arg7 (by decide))).trans (keep_main_arg7_7 m ρ c)
theorem keep_main_arg7_9 (c : Dev nD) : W9 m ρ c (Proc.devRef .tc main_arg7) = W0 m ρ c (Proc.devRef .tc main_arg7) :=
  (show W9 m ρ c (Proc.devRef .tc main_arg7) = W8 m ρ c (Proc.devRef .tc main_arg7) from (by host_keeps hostOps2 main_arg7)).trans (keep_main_arg7_8 m ρ c)
theorem keep_main_arg7_10 (c : Dev nD) : W10 m ρ c (Proc.devRef .tc main_arg7) = W0 m ρ c (Proc.devRef .tc main_arg7) :=
  (show W10 m ρ c (Proc.devRef .tc main_arg7) = W9 m ρ c (Proc.devRef .tc main_arg7) from (W10_of_ne m ρ c main_arg7 (by decide))).trans (keep_main_arg7_9 m ρ c)
theorem keep_main_arg7_11 (c : Dev nD) : W11 m ρ c (Proc.devRef .tc main_arg7) = W0 m ρ c (Proc.devRef .tc main_arg7) :=
  (show W11 m ρ c (Proc.devRef .tc main_arg7) = W10 m ρ c (Proc.devRef .tc main_arg7) from (by host_keeps hostOps3 main_arg7)).trans (keep_main_arg7_10 m ρ c)
theorem keep_main_arg7_12 (c : Dev nD) : W12 m ρ c (Proc.devRef .tc main_arg7) = W0 m ρ c (Proc.devRef .tc main_arg7) :=
  (show W12 m ρ c (Proc.devRef .tc main_arg7) = W11 m ρ c (Proc.devRef .tc main_arg7) from (W12_of_ne m ρ c main_arg7 (by decide))).trans (keep_main_arg7_11 m ρ c)
theorem keep_main_arg7_13 (c : Dev nD) : W13 m ρ c (Proc.devRef .tc main_arg7) = W0 m ρ c (Proc.devRef .tc main_arg7) :=
  (show W13 m ρ c (Proc.devRef .tc main_arg7) = W12 m ρ c (Proc.devRef .tc main_arg7) from (by host_keeps hostOps4 main_arg7)).trans (keep_main_arg7_12 m ρ c)
theorem keep_main_arg7_14 (c : Dev nD) : W14 m ρ c (Proc.devRef .tc main_arg7) = W0 m ρ c (Proc.devRef .tc main_arg7) :=
  (show W14 m ρ c (Proc.devRef .tc main_arg7) = W13 m ρ c (Proc.devRef .tc main_arg7) from (W14_of_ne m ρ c main_arg7 (by decide))).trans (keep_main_arg7_13 m ρ c)
theorem keep_main_arg7_15 (c : Dev nD) : W15 m ρ c (Proc.devRef .tc main_arg7) = W0 m ρ c (Proc.devRef .tc main_arg7) :=
  (show W15 m ρ c (Proc.devRef .tc main_arg7) = W14 m ρ c (Proc.devRef .tc main_arg7) from (by host_keeps hostOps5 main_arg7)).trans (keep_main_arg7_14 m ρ c)
theorem keep_main_arg7_16 (c : Dev nD) : W16 m ρ c (Proc.devRef .tc main_arg7) = W0 m ρ c (Proc.devRef .tc main_arg7) :=
  (show W16 m ρ c (Proc.devRef .tc main_arg7) = W15 m ρ c (Proc.devRef .tc main_arg7) from (W16_of_ne m ρ c main_arg7 (by decide))).trans (keep_main_arg7_15 m ρ c)
theorem keep_main_arg7_17 (c : Dev nD) : W17 m ρ c (Proc.devRef .tc main_arg7) = W0 m ρ c (Proc.devRef .tc main_arg7) :=
  (show W17 m ρ c (Proc.devRef .tc main_arg7) = W16 m ρ c (Proc.devRef .tc main_arg7) from (by host_keeps hostOps6 main_arg7)).trans (keep_main_arg7_16 m ρ c)
theorem keep_main_arg7_18 (c : Dev nD) : W18 m ρ c (Proc.devRef .tc main_arg7) = W0 m ρ c (Proc.devRef .tc main_arg7) :=
  (show W18 m ρ c (Proc.devRef .tc main_arg7) = W17 m ρ c (Proc.devRef .tc main_arg7) from (W18_of_ne m ρ c main_arg7 (by decide))).trans (keep_main_arg7_17 m ρ c)
theorem keep_main_arg7_19 (c : Dev nD) : W19 m ρ c (Proc.devRef .tc main_arg7) = W0 m ρ c (Proc.devRef .tc main_arg7) :=
  (show W19 m ρ c (Proc.devRef .tc main_arg7) = W18 m ρ c (Proc.devRef .tc main_arg7) from (by host_keeps hostOps7 main_arg7)).trans (keep_main_arg7_18 m ρ c)
theorem keep_main_arg7_20 (c : Dev nD) : W20 m ρ c (Proc.devRef .tc main_arg7) = W0 m ρ c (Proc.devRef .tc main_arg7) :=
  (show W20 m ρ c (Proc.devRef .tc main_arg7) = W19 m ρ c (Proc.devRef .tc main_arg7) from (W20_of_ne m ρ c main_arg7 (by decide))).trans (keep_main_arg7_19 m ρ c)
theorem keep_main_arg7_21 (c : Dev nD) : W21 m ρ c (Proc.devRef .tc main_arg7) = W0 m ρ c (Proc.devRef .tc main_arg7) :=
  (show W21 m ρ c (Proc.devRef .tc main_arg7) = W20 m ρ c (Proc.devRef .tc main_arg7) from (by host_keeps hostOps8 main_arg7)).trans (keep_main_arg7_20 m ρ c)

/-! ### `main_arg8`: the third layer's bias, from boundary 0 to boundary 20 -/

theorem keep_main_arg8_1 (c : Dev nD) : W1 m ρ c (Proc.devRef .tc main_arg8) = W0 m ρ c (Proc.devRef .tc main_arg8) :=
  (show W1 m ρ c (Proc.devRef .tc main_arg8) = W0 m ρ c (Proc.devRef .tc main_arg8) from (by host_keeps hostOps0 main_arg8))
theorem keep_main_arg8_2 (c : Dev nD) : W2 m ρ c (Proc.devRef .tc main_arg8) = W0 m ρ c (Proc.devRef .tc main_arg8) :=
  (show W2 m ρ c (Proc.devRef .tc main_arg8) = W1 m ρ c (Proc.devRef .tc main_arg8) from (by host_keeps hostOps0_1 main_arg8)).trans (keep_main_arg8_1 m ρ c)
theorem keep_main_arg8_3 (c : Dev nD) : W3 m ρ c (Proc.devRef .tc main_arg8) = W0 m ρ c (Proc.devRef .tc main_arg8) :=
  (show W3 m ρ c (Proc.devRef .tc main_arg8) = W2 m ρ c (Proc.devRef .tc main_arg8) from (by host_keeps hostOps0_2 main_arg8)).trans (keep_main_arg8_2 m ρ c)
theorem keep_main_arg8_4 (c : Dev nD) : W4 m ρ c (Proc.devRef .tc main_arg8) = W0 m ρ c (Proc.devRef .tc main_arg8) :=
  (show W4 m ρ c (Proc.devRef .tc main_arg8) = W3 m ρ c (Proc.devRef .tc main_arg8) from (by host_keeps hostOps0_3 main_arg8)).trans (keep_main_arg8_3 m ρ c)
theorem keep_main_arg8_5 (c : Dev nD) : W5 m ρ c (Proc.devRef .tc main_arg8) = W0 m ρ c (Proc.devRef .tc main_arg8) :=
  (show W5 m ρ c (Proc.devRef .tc main_arg8) = W4 m ρ c (Proc.devRef .tc main_arg8) from (by host_keeps hostOps0_4 main_arg8)).trans (keep_main_arg8_4 m ρ c)
theorem keep_main_arg8_6 (c : Dev nD) : W6 m ρ c (Proc.devRef .tc main_arg8) = W0 m ρ c (Proc.devRef .tc main_arg8) :=
  (show W6 m ρ c (Proc.devRef .tc main_arg8) = W5 m ρ c (Proc.devRef .tc main_arg8) from (W6_of_ne m ρ c main_arg8 (by decide))).trans (keep_main_arg8_5 m ρ c)
theorem keep_main_arg8_7 (c : Dev nD) : W7 m ρ c (Proc.devRef .tc main_arg8) = W0 m ρ c (Proc.devRef .tc main_arg8) :=
  (show W7 m ρ c (Proc.devRef .tc main_arg8) = W6 m ρ c (Proc.devRef .tc main_arg8) from (by host_keeps hostOps1 main_arg8)).trans (keep_main_arg8_6 m ρ c)
theorem keep_main_arg8_8 (c : Dev nD) : W8 m ρ c (Proc.devRef .tc main_arg8) = W0 m ρ c (Proc.devRef .tc main_arg8) :=
  (show W8 m ρ c (Proc.devRef .tc main_arg8) = W7 m ρ c (Proc.devRef .tc main_arg8) from (W8_of_ne m ρ c main_arg8 (by decide))).trans (keep_main_arg8_7 m ρ c)
theorem keep_main_arg8_9 (c : Dev nD) : W9 m ρ c (Proc.devRef .tc main_arg8) = W0 m ρ c (Proc.devRef .tc main_arg8) :=
  (show W9 m ρ c (Proc.devRef .tc main_arg8) = W8 m ρ c (Proc.devRef .tc main_arg8) from (by host_keeps hostOps2 main_arg8)).trans (keep_main_arg8_8 m ρ c)
theorem keep_main_arg8_10 (c : Dev nD) : W10 m ρ c (Proc.devRef .tc main_arg8) = W0 m ρ c (Proc.devRef .tc main_arg8) :=
  (show W10 m ρ c (Proc.devRef .tc main_arg8) = W9 m ρ c (Proc.devRef .tc main_arg8) from (W10_of_ne m ρ c main_arg8 (by decide))).trans (keep_main_arg8_9 m ρ c)
theorem keep_main_arg8_11 (c : Dev nD) : W11 m ρ c (Proc.devRef .tc main_arg8) = W0 m ρ c (Proc.devRef .tc main_arg8) :=
  (show W11 m ρ c (Proc.devRef .tc main_arg8) = W10 m ρ c (Proc.devRef .tc main_arg8) from (by host_keeps hostOps3 main_arg8)).trans (keep_main_arg8_10 m ρ c)
theorem keep_main_arg8_12 (c : Dev nD) : W12 m ρ c (Proc.devRef .tc main_arg8) = W0 m ρ c (Proc.devRef .tc main_arg8) :=
  (show W12 m ρ c (Proc.devRef .tc main_arg8) = W11 m ρ c (Proc.devRef .tc main_arg8) from (W12_of_ne m ρ c main_arg8 (by decide))).trans (keep_main_arg8_11 m ρ c)
theorem keep_main_arg8_13 (c : Dev nD) : W13 m ρ c (Proc.devRef .tc main_arg8) = W0 m ρ c (Proc.devRef .tc main_arg8) :=
  (show W13 m ρ c (Proc.devRef .tc main_arg8) = W12 m ρ c (Proc.devRef .tc main_arg8) from (by host_keeps hostOps4 main_arg8)).trans (keep_main_arg8_12 m ρ c)
theorem keep_main_arg8_14 (c : Dev nD) : W14 m ρ c (Proc.devRef .tc main_arg8) = W0 m ρ c (Proc.devRef .tc main_arg8) :=
  (show W14 m ρ c (Proc.devRef .tc main_arg8) = W13 m ρ c (Proc.devRef .tc main_arg8) from (W14_of_ne m ρ c main_arg8 (by decide))).trans (keep_main_arg8_13 m ρ c)
theorem keep_main_arg8_15 (c : Dev nD) : W15 m ρ c (Proc.devRef .tc main_arg8) = W0 m ρ c (Proc.devRef .tc main_arg8) :=
  (show W15 m ρ c (Proc.devRef .tc main_arg8) = W14 m ρ c (Proc.devRef .tc main_arg8) from (by host_keeps hostOps5 main_arg8)).trans (keep_main_arg8_14 m ρ c)
theorem keep_main_arg8_16 (c : Dev nD) : W16 m ρ c (Proc.devRef .tc main_arg8) = W0 m ρ c (Proc.devRef .tc main_arg8) :=
  (show W16 m ρ c (Proc.devRef .tc main_arg8) = W15 m ρ c (Proc.devRef .tc main_arg8) from (W16_of_ne m ρ c main_arg8 (by decide))).trans (keep_main_arg8_15 m ρ c)
theorem keep_main_arg8_17 (c : Dev nD) : W17 m ρ c (Proc.devRef .tc main_arg8) = W0 m ρ c (Proc.devRef .tc main_arg8) :=
  (show W17 m ρ c (Proc.devRef .tc main_arg8) = W16 m ρ c (Proc.devRef .tc main_arg8) from (by host_keeps hostOps6 main_arg8)).trans (keep_main_arg8_16 m ρ c)
theorem keep_main_arg8_18 (c : Dev nD) : W18 m ρ c (Proc.devRef .tc main_arg8) = W0 m ρ c (Proc.devRef .tc main_arg8) :=
  (show W18 m ρ c (Proc.devRef .tc main_arg8) = W17 m ρ c (Proc.devRef .tc main_arg8) from (W18_of_ne m ρ c main_arg8 (by decide))).trans (keep_main_arg8_17 m ρ c)
theorem keep_main_arg8_19 (c : Dev nD) : W19 m ρ c (Proc.devRef .tc main_arg8) = W0 m ρ c (Proc.devRef .tc main_arg8) :=
  (show W19 m ρ c (Proc.devRef .tc main_arg8) = W18 m ρ c (Proc.devRef .tc main_arg8) from (by host_keeps hostOps7 main_arg8)).trans (keep_main_arg8_18 m ρ c)
theorem keep_main_arg8_20 (c : Dev nD) : W20 m ρ c (Proc.devRef .tc main_arg8) = W0 m ρ c (Proc.devRef .tc main_arg8) :=
  (show W20 m ρ c (Proc.devRef .tc main_arg8) = W19 m ρ c (Proc.devRef .tc main_arg8) from (W20_of_ne m ρ c main_arg8 (by decide))).trans (keep_main_arg8_19 m ρ c)

/-! ### `main_v55`: the first layer's output, from boundary 12 to boundary 13 -/

theorem keep_main_v55_13 (c : Dev nD) : W13 m ρ c (Proc.devRef .tc main_v55) = W12 m ρ c (Proc.devRef .tc main_v55) :=
  (show W13 m ρ c (Proc.devRef .tc main_v55) = W12 m ρ c (Proc.devRef .tc main_v55) from (by host_keeps hostOps4 main_v55))

/-! ### `main_v80`: the second layer's output, from boundary 20 to boundary 21 -/

theorem keep_main_v80_21 (c : Dev nD) : W21 m ρ c (Proc.devRef .tc main_v80) = W20 m ρ c (Proc.devRef .tc main_v80) :=
  (show W21 m ρ c (Proc.devRef .tc main_v80) = W20 m ρ c (Proc.devRef .tc main_v80) from (by host_keeps hostOps8 main_v80))

end Cert.KernelIdeal.Carry

end
-- ==== Proof.Stage0.lean ====
/-
  What the kernel's host prelude leaves in the buffers every layer reads, as the reference's own stages of the arguments.

  Before its first launch the kernel splits the incidence array into the node index and the hyperedge index of every
  incidence, gathers each incidence's hyperedge weight, scatter-adds those weights into the node degrees and ones into
  the hyperedge degrees, inverts both where positive (zero elsewhere), and reshapes the inverse degrees, the incidence
  weights and the first bias to columns and a row.  The reference computes the same quantities with the same
  operations (it recomputes them in every layer), so each buffer is, operation for operation, a stage of the
  reference's run; the three columns are those stages reshaped.
-/
import proofs.«114209_j62749472195283_2_alg».proof.Proof.Gen.KernelIdeal.Frame
import Idealize.ShloMosaic.PureOps.Ideal
import Idealize.ShloMosaic.Lib.StableHlo.Run
import proofs.«114209_j62749472195283_2_alg».proof.Proof.ReadP

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo
open Cert.ReferenceIdeal.ReadP

variable {F : FTy → Type} [FloatOps F]
variable (m : (ℓ : Loc nD τ sig) → Buf (Elt F) ℓ) (ρ : Dev nD → PrngReg) (c : Dev nD)

/-- The node index of every incidence. -/
theorem at5_v1 : W5 m ρ c (Proc.devRef .tc main_v1) = val_main_v1 (F := F) (m ((c : Thread nD τ).loc main_arg0)) := by
  dsimp only [W5, W4, W3, W2, W1, hostOps0_4, hostOps0_3, hostOps0_2, hostOps0_1, hostOps0]
  after_results_simp
  rfl

/-- The hyperedge index of every incidence. -/
theorem at5_v3 : W5 m ρ c (Proc.devRef .tc main_v3) = val_main_v3 (F := F) (m ((c : Thread nD τ).loc main_arg0)) := by
  dsimp only [W5, W4, W3, W2, W1, hostOps0_4, hostOps0_3, hostOps0_2, hostOps0_1, hostOps0]
  after_results_simp
  rfl

/-- The hyperedge weight of every incidence, as a column. -/
theorem at5_v30 : W5 m ρ c (Proc.devRef .tc main_v30) = shapeCast S2000000x1 (val_main_v15 (F := F) (m ((c : Thread nD τ).loc main_arg0)) (m ((c : Thread nD τ).loc main_arg1))) shapeCasts_S2000000_S2000000x1 := by
  dsimp only [W5, W4, W3, W2, W1, hostOps0_4, hostOps0_3, hostOps0_2, hostOps0_1, hostOps0]
  after_results_simp
  rfl

/-- The first layer's bias, as a row. -/
theorem at5_v31 : W5 m ρ c (Proc.devRef .tc main_v31) = shapeCast S1x64 (m ((c : Thread nD τ).loc main_arg4)) shapeCasts_S64_S1x64 := by
  dsimp only [W5, W4, W3, W2, W1, hostOps0_4, hostOps0_3, hostOps0_2, hostOps0_1, hostOps0]
  after_results_simp
  rfl

/-! ### The two inverse degrees, one stretch at a time

The node degrees are summed and compared with zero in the first stretch, the selection between the reciprocal and zero
is the called function of the second stretch; the hyperedge degrees follow in the third and fourth stretches; the
fifth reshapes both to columns. -/

/-- After the first stretch: is the weighted node degree positive? -/
theorem at1_v15 : W1 m ρ c (Proc.devRef .tc main_v15) = val_main_v20 (F := F) (m ((c : Thread nD τ).loc main_arg0)) (m ((c : Thread nD τ).loc main_arg1)) := by
  dsimp only [W1, hostOps0]
  after_results_simp
  rfl

/-- After the first stretch: the reciprocal of the weighted node degree. -/
theorem at1_v17 : W1 m ρ c (Proc.devRef .tc main_v17) = val_main_v22 (F := F) (m ((c : Thread nD τ).loc main_arg0)) (m ((c : Thread nD τ).loc main_arg1)) := by
  dsimp only [W1, hostOps0]
  after_results_simp
  rfl

/-- After the first stretch: the zero the selection falls back to. -/
theorem at1_cst_3 : W1 m ρ c (Proc.devRef .tc main_cst_3) = val_main_cst_3 (F := F) := by
  dsimp only [W1, hostOps0]
  after_results_simp
  rfl

/-- After the first stretch: the hyperedge index of every incidence. -/
theorem at1_v3 : W1 m ρ c (Proc.devRef .tc main_v3) = val_main_v3 (F := F) (m ((c : Thread nD τ).loc main_arg0)) := by
  dsimp only [W1, hostOps0]
  after_results_simp
  rfl

/-- After the second stretch: the inverse weighted node degree, zero where the degree is not positive. -/
theorem at2_v18 : W2 m ρ c (Proc.devRef .tc main_v18) = val_main_v23 (F := F) (m ((c : Thread nD τ).loc main_arg0)) (m ((c : Thread nD τ).loc main_arg1)) := by
  have e15 := at1_v15 m ρ c
  have e17 := at1_v17 m ρ c
  have e3 := at1_cst_3 m ρ c
  dsimp only [W2, hostOps0_1]
  generalize W1 m ρ c = X at e15 e17 e3 ⊢
  after_results_simp
  rw [e15, e17, e3]
  rfl

/-- After the third stretch: is the hyperedge degree positive? -/
theorem at3_v25 : W3 m ρ c (Proc.devRef .tc main_v25) = val_main_v29 (F := F) (m ((c : Thread nD τ).loc main_arg0)) := by
  have e := at1_v3 m ρ c
  dsimp only [W3, W2, hostOps0_2, hostOps0_1]
  generalize W1 m ρ c = X at e ⊢
  after_results_simp
  rw [e]
  rfl

/-- After the third stretch: the reciprocal of the hyperedge degree. -/
theorem at3_v27 : W3 m ρ c (Proc.devRef .tc main_v27) = val_main_v31 (F := F) (m ((c : Thread nD τ).loc main_arg0)) := by
  have e := at1_v3 m ρ c
  dsimp only [W3, W2, hostOps0_2, hostOps0_1]
  generalize W1 m ρ c = X at e ⊢
  after_results_simp
  rw [e]
  rfl

/-- After the third stretch: the zero the selection falls back to. -/
theorem at3_cst_8 : W3 m ρ c (Proc.devRef .tc main_cst_8) = val_main_cst_8 (F := F) := by
  dsimp only [W3, hostOps0_2]
  generalize W2 m ρ c = X
  after_results_simp
  rfl

/-- After the fourth stretch: the inverse hyperedge degree, zero where the degree is not positive. -/
theorem at4_v28 : W4 m ρ c (Proc.devRef .tc main_v28) = val_main_v32 (F := F) (m ((c : Thread nD τ).loc main_arg0)) := by
  have e25 := at3_v25 m ρ c
  have e27 := at3_v27 m ρ c
  have e8 := at3_cst_8 m ρ c
  dsimp only [W4, hostOps0_3]
  generalize W3 m ρ c = X at e25 e27 e8 ⊢
  after_results_simp
  rw [e25, e27, e8]
  rfl

/-- The inverse weighted node degrees, as a column. -/
theorem at5_v19 : W5 m ρ c (Proc.devRef .tc main_v19) = shapeCast S200000x1 (val_main_v23 (F := F) (m ((c : Thread nD τ).loc main_arg0)) (m ((c : Thread nD τ).loc main_arg1))) shapeCasts_S200000_S200000x1 := by
  have e := at2_v18 m ρ c
  dsimp only [W5, W4, W3, hostOps0_4, hostOps0_3, hostOps0_2]
  generalize W2 m ρ c = X at e ⊢
  after_results_simp
  rw [e]
  rfl

/-- The inverse hyperedge degrees, as a column. -/
theorem at5_v29 : W5 m ρ c (Proc.devRef .tc main_v29) = shapeCast S100000x1 (val_main_v32 (F := F) (m ((c : Thread nD τ).loc main_arg0))) shapeCasts_S100000_S100000x1 := by
  have e := at4_v28 m ρ c
  dsimp only [W5, hostOps0_4]
  generalize W4 m ρ c = X at e ⊢
  after_results_simp
  rw [e]
  rfl

end Cert.KernelIdeal.Stages

end
-- ==== Proof.LibTransposedDot.lean ====
/-
  A matrix product whose right operand is contracted on its LAST axis, read at an entry, at the ideal instance.

  For dimension numbers that contract the left operand's columns with the right operand's columns and have no batch
  axis (`DotDims.transposedRhs m k n`: an m×k matrix against an n×k one, "a · bᵀ"), the kernel's product into a zero
  accumulator and the host's `dot_general` are, at entry (p, j), the sum over q < k of l (p, q) · r (j, q) on the
  extended reals.  Stated for any record equal to that one, so that a printed record (a definition of its own) can
  be cited by `rfl`.  General lemma: any extents, any float formats of the operands.
-/
import Idealize.ShloMosaic.Lib.ValueIdx
import Idealize.ShloMosaic.PureOps.Ideal.Laws

noncomputable section

namespace Cert.TransposedDot

open Idealize.ShloMosaic Idealize.ShloMosaic.ValueIdx

variable {m k n : Nat} {φ₁ φ₂ : FTy}

/-- The sum over the one contraction axis, re-indexed by `Fin k`, with the operand indices at an output entry
    (p, j) written by coordinates: the left operand at (p, q), the right one at (j, q). -/
theorem sum_transposedRhs (l : (⟨2, ![m, k]⟩ : Shape).Idx → EReal) (r : (⟨2, ![n, k]⟩ : Shape).Idx → EReal) (p : Fin m) (j : Fin n) :
    (∑ q : (DotDims.transposedRhs m k n).contr.Idx,
        l ((DotDims.transposedRhs m k n).lhsIdx (ix2 p j) q) * r ((DotDims.transposedRhs m k n).rhsIdx (ix2 p j) q))
      = ∑ q : Fin k, l (ix2 p q) * r (ix2 j q) := by
  rw [← Equiv.sum_comp (contrEquiv1 (DotDims.transposedRhs m k n) k rfl rfl).symm]
  refine Finset.sum_congr rfl fun q _ => ?_
  have hq := contrEquiv1_symm_val (DotDims.transposedRhs m k n) k rfl rfl q
  have el : (DotDims.transposedRhs m k n).lhsIdx (ix2 p j) ((contrEquiv1 (DotDims.transposedRhs m k n) k rfl rfl).symm q) = ix2 p q :=
    funext fun a => Fin.ext (by
      match a with
      | ⟨0, _⟩ => rfl
      | ⟨1, _⟩ => exact ((DotDims.transposedRhs m k n).lhsIdx_val_of_single rfl _ _).trans hq)
  have er : (DotDims.transposedRhs m k n).rhsIdx (ix2 p j) ((contrEquiv1 (DotDims.transposedRhs m k n) k rfl rfl).symm q) = ix2 j q :=
    funext fun a => Fin.ext (by
      match a with
      | ⟨0, _⟩ => rfl
      | ⟨1, _⟩ => exact ((DotDims.transposedRhs m k n).rhsIdx_val_of_single rfl _ _).trans hq)
  rw [el, er]

/-- The kernel's product into the zero splat, at entry (p, j). -/
theorem matmul_zero_ix2 (D : DotDims ⟨2, ![m, k]⟩ ⟨2, ![n, k]⟩ ⟨2, ![m, n]⟩) (hD : D = DotDims.transposedRhs m k n)
    (prec : Option ContractPrecision) (l : FVec Ideal ⟨2, ![m, k]⟩ φ₁) (r : FVec Ideal ⟨2, ![n, k]⟩ φ₂) (p : Fin m) (j : Fin n) :
    matmul D prec l r (constant (F := Ideal) ⟨2, ![m, n]⟩ .f32 0x00000000#32) (ix2 p j) = ∑ q : Fin k, l (ix2 p q) * r (ix2 j q) := by
  subst hD
  simp only [matmul]
  rw [Ideal.matmul_constant_zero_apply]
  exact sum_transposedRhs l r p j

/-- The host's `dot_general` with the same dimension numbers, at entry (p, j). -/
theorem dotGeneral_ix2 (D : DotDims ⟨2, ![m, k]⟩ ⟨2, ![n, k]⟩ ⟨2, ![m, n]⟩) (hD : D = DotDims.transposedRhs m k n)
    (prec : Option ContractPrecision) (l : FVec Ideal ⟨2, ![m, k]⟩ φ₁) (r : FVec Ideal ⟨2, ![n, k]⟩ φ₂) (p : Fin m) (j : Fin n) :
    Host.dotGeneral D prec l r (ix2 p j) = ∑ q : Fin k, l (ix2 p q) * r (ix2 j q) := by
  subst hD
  simp only [Host.dotGeneral]
  rw [Ideal.dotGeneral_apply]
  exact sum_transposedRhs l r p j

end Cert.TransposedDot

end
-- ==== Proof.LibRowBroadcast.lean ====
/-
  A row `[1, b]` broadcast down the rows of `[a, b]`, read at an index written by coordinates: the counterpart, for a
  bias row added to every row of a matrix, of a column `[a, 1]` broadcast along the rows. General lemma: any element
  type, any extents.
-/
import Idealize.ShloMosaic.Lib.Pipeline.Value
import Idealize.ShloMosaic.Lib.ValueIdx

namespace Cert.LibRowBroadcast

open Idealize.ShloMosaic Idealize.ShloMosaic.ValueIdx

/-- A row `[1, b]` broadcast down the rows of `[a, b]` reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRowBroadcast
-- ==== Proof.LibColBroadcast.lean ====
/-
  A column `[a, 1]` broadcast along the rows of `[a, b]`, read at an index written by coordinates: entry (i, j) of the
  result is the column's entry i.  General lemma: any element type, any extents.
-/
import Idealize.ShloMosaic.Lib.Pipeline.Value
import Idealize.ShloMosaic.Lib.ValueIdx

namespace Cert.LibColBroadcast

open Idealize.ShloMosaic Idealize.ShloMosaic.ValueIdx

/-- A column `[a, 1]` broadcast along the rows of `[a, b]` reads, at `(i, j)`, the column's entry `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColBroadcast
-- ==== Proof.Bodies.lean ====
/-
  What each of the twelve kernel bodies stores, at the ideal instance, as one of the three row-wise maps of Spec.lean
  applied to the blocks it loads.  A change of float format is the identity on extended reals, so the product of the
  two operands narrowed to sixteen bits is the product of the operands; a reshape to the same shape is the identity.
-/
import proofs.«114209_j62749472195283_2_alg».proof.Proof.Gen.KernelIdeal.Skeleton
import Idealize.ShloMosaic.Lib.ValueIdx
import Idealize.ShloMosaic.Lib.Pipeline.Value
import proofs.«114209_j62749472195283_2_alg».proof.Proof.Spec
import proofs.«114209_j62749472195283_2_alg».proof.Proof.LibTransposedDot
import proofs.«114209_j62749472195283_2_alg».proof.Proof.LibRowBroadcast
import proofs.«114209_j62749472195283_2_alg».proof.Proof.LibColBroadcast

noncomputable section

namespace Cert.KernelIdeal.Body

open Idealize.ShloMosaic Idealize.ShloMosaic.ValueIdx Cert.KernelIdeal Cert.KernelIdeal.Gen Cert.HyperLayer

/-- Region 0's stored value is the dense map of its block of rows: the product into a zero accumulator contracted over
    both operands' columns is the sum over q of x (p, q) · w (j, q), and the bias row is read at column j. -/
theorem k0_pay1_eq (v0 : Vec Ideal S8000x64 .f32) (v2 : Vec Ideal S64x64 .f32) (v5 : Vec Ideal S1x64 .f32) :
    k0_pay1 (F := Ideal) v0 v2 v5 = lin v0 v2 v5 := by
  funext i
  obtain ⟨p, j, rfl⟩ : ∃ (p : Fin 8000) (j : Fin 64), i = ix2 p j := ⟨i 0, i 1, eq_ix2 i⟩
  unfold k0_pay1
  simp only [shapeCast_self]
  rw [addf_apply, Cert.TransposedDot.matmul_zero_ix2 dot_S8000x64_S64x64_S8000x64_1_1_0_0_n_n rfl none _ _ p j,
    Cert.LibRowBroadcast.broadcastTo_1b_ab_apply]
  rfl

/-- Region 1's stored value is its block of rows, each multiplied by its entry of the block of the column. -/
theorem k1_pay1_eq (v0 : Vec Ideal S10000x64 .f32) (v2 : Vec Ideal S10000x1 .f32) :
    k1_pay1 (F := Ideal) v0 v2 = scale v0 v2 := by
  funext i
  obtain ⟨p, j, rfl⟩ : ∃ (p : Fin 10000) (j : Fin 64), i = ix2 p j := ⟨i 0, i 1, eq_ix2 i⟩
  unfold k1_pay1
  simp only [shapeCast_self]
  rw [mulf_apply, Cert.LibColBroadcast.broadcastTo_a1_ab_apply]
  rfl

/-- Region 2's stored value is its block of rows, each multiplied by its entry of the block of the column. -/
theorem k2_pay1_eq (v0 : Vec Ideal S10000x64 .f32) (v2 : Vec Ideal S10000x1 .f32) :
    k2_pay1 (F := Ideal) v0 v2 = scale v0 v2 := by
  funext i
  obtain ⟨p, j, rfl⟩ : ∃ (p : Fin 10000) (j : Fin 64), i = ix2 p j := ⟨i 0, i 1, eq_ix2 i⟩
  unfold k2_pay1
  simp only [shapeCast_self]
  rw [mulf_apply, Cert.LibColBroadcast.broadcastTo_a1_ab_apply]
  rfl

/-- Region 3's stored value is its block of rows, each multiplied by its entry of the block of the column, then the
    maximum with zero. -/
theorem k3_pay1_eq (v0 : Vec Ideal S8000x64 .f32) (v2 : Vec Ideal S8000x1 .f32) :
    k3_pay1 (F := Ideal) v0 v2 = scaleRelu v0 v2 := by
  funext i
  obtain ⟨p, j, rfl⟩ : ∃ (p : Fin 8000) (j : Fin 64), i = ix2 p j := ⟨i 0, i 1, eq_ix2 i⟩
  unfold k3_pay1
  simp only [shapeCast_self]
  rw [maximumf_apply, mulf_apply, Cert.LibColBroadcast.broadcastTo_a1_ab_apply]
  rfl

/-- Region 4's stored value is the dense map of its block of rows: the product into a zero accumulator contracted over
    both operands' columns is the sum over q of x (p, q) · w (j, q), and the bias row is read at column j. -/
theorem k4_pay1_eq (v0 : Vec Ideal S8000x64 .f32) (v3 : Vec Ideal S64x64 .f32) (v6 : Vec Ideal S1x64 .f32) :
    k4_pay1 (F := Ideal) v0 v3 v6 = lin v0 v3 v6 := by
  funext i
  obtain ⟨p, j, rfl⟩ : ∃ (p : Fin 8000) (j : Fin 64), i = ix2 p j := ⟨i 0, i 1, eq_ix2 i⟩
  unfold k4_pay1
  simp only [shapeCast_self]
  rw [addf_apply, Cert.TransposedDot.matmul_zero_ix2 dot_S8000x64_S64x64_S8000x64_1_1_0_0_n_n rfl none _ _ p j,
    Cert.LibRowBroadcast.broadcastTo_1b_ab_apply]
  rfl

/-- Region 5's stored value is its block of rows, each multiplied by its entry of the block of the column. -/
theorem k5_pay1_eq (v0 : Vec Ideal S10000x64 .f32) (v2 : Vec Ideal S10000x1 .f32) :
    k5_pay1 (F := Ideal) v0 v2 = scale v0 v2 := by
  funext i
  obtain ⟨p, j, rfl⟩ : ∃ (p : Fin 10000) (j : Fin 64), i = ix2 p j := ⟨i 0, i 1, eq_ix2 i⟩
  unfold k5_pay1
  simp only [shapeCast_self]
  rw [mulf_apply, Cert.LibColBroadcast.broadcastTo_a1_ab_apply]
  rfl

/-- Region 6's stored value is its block of rows, each multiplied by its entry of the block of the column. -/
theorem k6_pay1_eq (v0 : Vec Ideal S10000x64 .f32) (v2 : Vec Ideal S10000x1 .f32) :
    k6_pay1 (F := Ideal) v0 v2 = scale v0 v2 := by
  funext i
  obtain ⟨p, j, rfl⟩ : ∃ (p : Fin 10000) (j : Fin 64), i = ix2 p j := ⟨i 0, i 1, eq_ix2 i⟩
  unfold k6_pay1
  simp only [shapeCast_self]
  rw [mulf_apply, Cert.LibColBroadcast.broadcastTo_a1_ab_apply]
  rfl

/-- Region 7's stored value is its block of rows, each multiplied by its entry of the block of the column, then the
    maximum with zero. -/
theorem k7_pay1_eq (v0 : Vec Ideal S8000x64 .f32) (v2 : Vec Ideal S8000x1 .f32) :
    k7_pay1 (F := Ideal) v0 v2 = scaleRelu v0 v2 := by
  funext i
  obtain ⟨p, j, rfl⟩ : ∃ (p : Fin 8000) (j : Fin 64), i = ix2 p j := ⟨i 0, i 1, eq_ix2 i⟩
  unfold k7_pay1
  simp only [shapeCast_self]
  rw [maximumf_apply, mulf_apply, Cert.LibColBroadcast.broadcastTo_a1_ab_apply]
  rfl

/-- Region 8's stored value is the dense map of its block of rows: the product into a zero accumulator contracted over
    both operands' columns is the sum over q of x (p, q) · w (j, q), and the bias row is read at column j. -/
theorem k8_pay1_eq (v0 : Vec Ideal S8000x64 .f32) (v3 : Vec Ideal S64x64 .f32) (v6 : Vec Ideal S1x64 .f32) :
    k8_pay1 (F := Ideal) v0 v3 v6 = lin v0 v3 v6 := by
  funext i
  obtain ⟨p, j, rfl⟩ : ∃ (p : Fin 8000) (j : Fin 64), i = ix2 p j := ⟨i 0, i 1, eq_ix2 i⟩
  unfold k8_pay1
  simp only [shapeCast_self]
  rw [addf_apply, Cert.TransposedDot.matmul_zero_ix2 dot_S8000x64_S64x64_S8000x64_1_1_0_0_n_n rfl none _ _ p j,
    Cert.LibRowBroadcast.broadcastTo_1b_ab_apply]
  rfl

/-- Region 9's stored value is its block of rows, each multiplied by its entry of the block of the column. -/
theorem k9_pay1_eq (v0 : Vec Ideal S10000x64 .f32) (v2 : Vec Ideal S10000x1 .f32) :
    k9_pay1 (F := Ideal) v0 v2 = scale v0 v2 := by
  funext i
  obtain ⟨p, j, rfl⟩ : ∃ (p : Fin 10000) (j : Fin 64), i = ix2 p j := ⟨i 0, i 1, eq_ix2 i⟩
  unfold k9_pay1
  simp only [shapeCast_self]
  rw [mulf_apply, Cert.LibColBroadcast.broadcastTo_a1_ab_apply]
  rfl

/-- Region 10's stored value is its block of rows, each multiplied by its entry of the block of the column. -/
theorem k10_pay1_eq (v0 : Vec Ideal S10000x64 .f32) (v2 : Vec Ideal S10000x1 .f32) :
    k10_pay1 (F := Ideal) v0 v2 = scale v0 v2 := by
  funext i
  obtain ⟨p, j, rfl⟩ : ∃ (p : Fin 10000) (j : Fin 64), i = ix2 p j := ⟨i 0, i 1, eq_ix2 i⟩
  unfold k10_pay1
  simp only [shapeCast_self]
  rw [mulf_apply, Cert.LibColBroadcast.broadcastTo_a1_ab_apply]
  rfl

/-- Region 11's stored value is its block of rows, each multiplied by its entry of the block of the column. -/
theorem k11_pay1_eq (v0 : Vec Ideal S8000x64 .f32) (v2 : Vec Ideal S8000x1 .f32) :
    k11_pay1 (F := Ideal) v0 v2 = scale v0 v2 := by
  funext i
  obtain ⟨p, j, rfl⟩ : ∃ (p : Fin 8000) (j : Fin 64), i = ix2 p j := ⟨i 0, i 1, eq_ix2 i⟩
  unfold k11_pay1
  simp only [shapeCast_self]
  rw [mulf_apply, Cert.LibColBroadcast.broadcastTo_a1_ab_apply]
  rfl

end Cert.KernelIdeal.Body

end
-- ==== Proof.Region0.lean ====
/-
  Launch 0 of the kernel, read as one function of the arrays it finds: its output array ends holding the dense
  map `lin` (Spec.lean) of the feature matrix, the weight and the bias row, whatever they are.

  The grid has 25 points; point t works on rows 8000·t … 8000·t + 7999 of the 200000 rows: it loads that block of the features,
  the whole weight and the whole bias row, stores the block's dense map, and writes it back to the same rows of the
  output.  A block of rows of the dense map depends only on that block of the features, so what point t writes back is
  block t of the dense map of the whole arrays; the 25 blocks cover all rows (row r is in block r / 8000).
-/
import proofs.«114209_j62749472195283_2_alg».proof.Proof.Gen.KernelIdeal.Frame
import Idealize.ShloMosaic.Lib.Pipeline.Value
import Idealize.ShloMosaic.Lib.ValueIdx
import proofs.«114209_j62749472195283_2_alg».proof.Proof.Spec
import proofs.«114209_j62749472195283_2_alg».proof.Proof.Bodies

set_option maxRecDepth 16384

noncomputable section

namespace Cert.KernelIdeal.Region0

open Cert.KernelIdeal Cert.KernelIdeal.Gen Cert.HyperLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the features' and the output's block at point t is block t along the rows; the
    weight's and the bias row's is the whole array. -/
theorem idx : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- What point t writes back is block t of the dense map of the arrays as the launch finds them. -/
theorem flushed_eq (c : Dev nD) (t : Fin cfg0.N) :
    (dat0 V c).flushed 3 t
      = ((cfg0.win 3).blk t).view.read (Elt Ideal) (lin (n := 200000) (V c main_arg2) (V c main_arg3) (V c main_v31)) := by
  show (cfg0.win 3).cut (grid0.coords t) ((dat0 V c).after 3 t) = _
  rw [after0_3]
  unfold out0_3
  rw [View.canon_unit_zero hz]
  simp only [View.ld_unit_zero (S := S8000x64) hz, View.ld_unit_zero (S := S64x64) hz, View.ld_unit_zero (S := S1x64) hz]
  rw [Cert.KernelIdeal.Body.k0_pay1_eq]
  obtain ⟨e0, e1, e2, e3, e4, e5, e6, e7⟩ := idx t
  funext j
  show lin (iblk0 V c 0 t) (iblk0 V c 1 t) (iblk0 V c 2 t) j
    = lin (n := 200000) (V c main_arg2) (V c main_arg3) (V c main_v31) (((cfg0.win 3).blk t).view.emb j)
  refine lin_block _ _ _ _ _ _ j _ (fun q => ?_) (fun q => ?_) ?_
  · show V c main_arg2 (((cfg0.win 0).blk t).view.emb (ix2 (j 0) q))
      = V c main_arg2 (ix2 ((((cfg0.win 3).blk t).view.emb j) 0) q)
    refine congrArg _ (funext fun a => Fin.ext ?_)
    match a with
    | ⟨0, _⟩ => show win0_0.index t (0 : Fin 2) * 8000 + 1 * (j 0).val = win0_3.index t (0 : Fin 2) * 8000 + 1 * (j 0).val; omega
    | ⟨1, _⟩ => show win0_0.index t (1 : Fin 2) * 64 + 1 * q.val = q.val; omega
  · show V c main_arg3 (((cfg0.win 1).blk t).view.emb (ix2 (j 1) q))
      = V c main_arg3 (ix2 ((((cfg0.win 3).blk t).view.emb j) 1) q)
    refine congrArg _ (funext fun a => Fin.ext ?_)
    match a with
    | ⟨0, _⟩ => show win0_1.index t (0 : Fin 2) * 64 + 1 * (j 1).val = win0_3.index t (1 : Fin 2) * 64 + 1 * (j 1).val; omega
    | ⟨1, _⟩ => show win0_1.index t (1 : Fin 2) * 64 + 1 * q.val = q.val; omega
  · show V c main_v31 (((cfg0.win 2).blk t).view.emb (ix2 (0 : Fin 1) (j 1)))
      = V c main_v31 (ix2 (0 : Fin 1) ((((cfg0.win 3).blk t).view.emb j) 1))
    refine congrArg _ (funext fun a => Fin.ext ?_)
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega

/-- An index of the output array is in point t's block iff each coordinate is in the block's range on its axis. -/
theorem mem_blk (t : Fin cfg0.N) (i : S200000x64.Idx) :
    i ∈ ((cfg0.win 3).blk t).view.set ↔ ∀ a : Fin 2, win0_3.index t a * S8000x64.size a ≤ (i a).val
      ∧ (i a).val < win0_3.index t a * S8000x64.size a + S8000x64.size a := by
  show i ∈ ((View.whole main_v32).slice (win0_3.rect t)).set ↔ _
  rw [View.set_slice_whole, Rect.mem_set_unit]
  exact Iff.rfl

/-- Every row is in the block of the point numbered by the row divided by 8000. -/
theorem cover (i : S200000x64.Idx) :
    ∃ t : Fin cfg0.N, (cfg0.win 3).flush t = true ∧ i ∈ ((cfg0.win 3).blk t).view.set := by
  have hi0 : (i 0).val < 200000 := (i 0).isLt
  have hi1 : (i 1).val < 64 := (i 1).isLt
  have hN : cfg0.N = 25 := N_0
  have ht : (i 0).val / 8000 < cfg0.N := by rw [hN]; omega
  refine ⟨⟨(i 0).val / 8000, ht⟩, flush0_3 _, ?_⟩
  rw [mem_blk]
  obtain ⟨e0, e1, e2, e3, e4, e5, e6, e7⟩ := idx ⟨(i 0).val / 8000, ht⟩
  intro a
  match a with
  | ⟨0, _⟩ =>
    show win0_3.index ⟨(i 0).val / 8000, ht⟩ (0 : Fin 2) * 8000 ≤ (i 0).val
      ∧ (i 0).val < win0_3.index ⟨(i 0).val / 8000, ht⟩ (0 : Fin 2) * 8000 + 8000
    rw [e6]
    show (i 0).val / 8000 * 8000 ≤ (i 0).val ∧ (i 0).val < (i 0).val / 8000 * 8000 + 8000
    omega
  | ⟨1, _⟩ =>
    show win0_3.index ⟨(i 0).val / 8000, ht⟩ (1 : Fin 2) * 64 ≤ (i 1).val
      ∧ (i 1).val < win0_3.index ⟨(i 0).val / 8000, ht⟩ (1 : Fin 2) * 64 + 64
    rw [e7]
    omega

/-- The output array after the launch is the dense map of the input arrays as the launch finds them. -/
theorem final (c : Dev nD) :
    (dat0 V c).arrAt 3 cfg0.N = lin (n := 200000) (V c main_arg2) (V c main_arg3) (V c main_v31) :=
  (dat0 V c).arrAt_eq_of_cover 3 _ (fun t _ => flushed_eq V c t) cover

end Cert.KernelIdeal.Region0

end
-- ==== Proof.Region1.lean ====
/-
  Launch 1 of the kernel, read as one function of the arrays it finds: its output array ends holding
  `scale` of its two input arrays (Spec.lean), whatever they are.

  The grid has 10 points; point t works on rows 10000·t … 10000·t + 9999 of the 100000 rows: it loads that block of the matrix and
  of the column, stores the block's `scale`, and writes it back to the same rows of the output.  A block of rows of
  `scale` depends only on that block of the inputs, so what point t writes back is block t of `scale` of the whole
  arrays; the 10 blocks cover all rows (row r is in block r / 10000), so the array ends holding that function.
-/
import proofs.«114209_j62749472195283_2_alg».proof.Proof.Gen.KernelIdeal.Frame
import Idealize.ShloMosaic.Lib.Pipeline.Value
import Idealize.ShloMosaic.Lib.ValueIdx
import proofs.«114209_j62749472195283_2_alg».proof.Proof.Spec
import proofs.«114209_j62749472195283_2_alg».proof.Proof.Bodies

set_option maxRecDepth 16384

noncomputable section

namespace Cert.KernelIdeal.Region1

open Cert.KernelIdeal Cert.KernelIdeal.Gen Cert.HyperLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: every window's block at point t is block t along the rows and block 0 along the
    columns. -/
theorem idx : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = 0
    ∧ win1_2.index t (0 : Fin 2) = t.val
    ∧ win1_2.index t (1 : Fin 2) = 0 :=
  (by decide +kernel : ∀ t : Fin grid1.N, _)

/-- What point t writes back is block t of `scale` of the arrays as the launch finds them. -/
theorem flushed_eq (c : Dev nD) (t : Fin cfg1.N) :
    (dat1 V c).flushed 2 t
      = ((cfg1.win 2).blk t).view.read (Elt Ideal) (scale (n := 100000) (V c main_v42) (V c main_v29)) := by
  show (cfg1.win 2).cut (grid1.coords t) ((dat1 V c).after 2 t) = _
  rw [after1_2]
  unfold out1_2
  rw [View.canon_unit_zero hz]
  simp only [View.ld_unit_zero (S := S10000x64) hz, View.ld_unit_zero (S := S10000x1) hz]
  rw [Cert.KernelIdeal.Body.k1_pay1_eq]
  obtain ⟨e0, e1, e2, e3, e4, e5⟩ := idx t
  funext j
  show scale (iblk1 V c 0 t) (iblk1 V c 1 t) j
    = scale (n := 100000) (V c main_v42) (V c main_v29) (((cfg1.win 2).blk t).view.emb j)
  refine scale_block _ _ _ _ j _ ?_ ?_
  · show V c main_v42 (((cfg1.win 0).blk t).view.emb j) = V c main_v42 (((cfg1.win 2).blk t).view.emb j)
    refine congrArg _ (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  · show V c main_v29 (((cfg1.win 1).blk t).view.emb (ix2 (j 0) (0 : Fin 1)))
      = V c main_v29 (ix2 ((((cfg1.win 2).blk t).view.emb j) 0) (0 : Fin 1))
    refine congrArg _ (funext fun a => Fin.ext ?_)
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega

/-- An index of the output array is in point t's block iff each coordinate is in the block's range on its axis. -/
theorem mem_blk (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v43).slice (win1_2.rect t)).set ↔ _
  rw [View.set_slice_whole, Rect.mem_set_unit]
  exact Iff.rfl

/-- Every row is in the block of the point numbered by the row divided by 10000. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  have ht : (i 0).val / 10000 < cfg1.N := by rw [hN]; omega
  refine ⟨⟨(i 0).val / 10000, ht⟩, flush1_2 _, ?_⟩
  rw [mem_blk]
  obtain ⟨e0, e1, e2, e3, e4, e5⟩ := idx ⟨(i 0).val / 10000, ht⟩
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win1_2.index ⟨(i 0).val / 10000, ht⟩ (1 : Fin 2) * 64 ≤ (i 1).val
      ∧ (i 1).val < win1_2.index ⟨(i 0).val / 10000, ht⟩ (1 : Fin 2) * 64 + 64
    rw [e5]
    omega

/-- The output array after the launch is `scale` of the input arrays as the launch finds them. -/
theorem final (c : Dev nD) :
    (dat1 V c).arrAt 2 cfg1.N = scale (n := 100000) (V c main_v42) (V c main_v29) :=
  (dat1 V c).arrAt_eq_of_cover 2 _ (fun t _ => flushed_eq V c t) cover

end Cert.KernelIdeal.Region1

end
-- ==== Proof.Region2.lean ====
/-
  Launch 2 of the kernel, read as one function of the arrays it finds: its output array ends holding
  `scale` of its two input arrays (Spec.lean), whatever they are.

  The grid has 200 points; point t works on rows 10000·t … 10000·t + 9999 of the 2000000 rows: it loads that block of the matrix and
  of the column, stores the block's `scale`, and writes it back to the same rows of the output.  A block of rows of
  `scale` depends only on that block of the inputs, so what point t writes back is block t of `scale` of the whole
  arrays; the 200 blocks cover all rows (row r is in block r / 10000), so the array ends holding that function.
-/
import proofs.«114209_j62749472195283_2_alg».proof.Proof.Gen.KernelIdeal.Frame
import Idealize.ShloMosaic.Lib.Pipeline.Value
import Idealize.ShloMosaic.Lib.ValueIdx
import proofs.«114209_j62749472195283_2_alg».proof.Proof.Spec
import proofs.«114209_j62749472195283_2_alg».proof.Proof.Bodies

set_option maxRecDepth 16384

noncomputable section

namespace Cert.KernelIdeal.Region2

open Cert.KernelIdeal Cert.KernelIdeal.Gen Cert.HyperLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: every window's block at point t is block t along the rows and block 0 along the
    columns. -/
theorem idx : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = 0
    ∧ win2_2.index t (0 : Fin 2) = t.val
    ∧ win2_2.index t (1 : Fin 2) = 0 :=
  (by decide +kernel : ∀ t : Fin grid2.N, _)

/-- What point t writes back is block t of `scale` of the arrays as the launch finds them. -/
theorem flushed_eq (c : Dev nD) (t : Fin cfg2.N) :
    (dat2 V c).flushed 2 t
      = ((cfg2.win 2).blk t).view.read (Elt Ideal) (scale (n := 2000000) (V c main_v50) (V c main_v30)) := by
  show (cfg2.win 2).cut (grid2.coords t) ((dat2 V c).after 2 t) = _
  rw [after2_2]
  unfold out2_2
  rw [View.canon_unit_zero hz]
  simp only [View.ld_unit_zero (S := S10000x64) hz, View.ld_unit_zero (S := S10000x1) hz]
  rw [Cert.KernelIdeal.Body.k2_pay1_eq]
  obtain ⟨e0, e1, e2, e3, e4, e5⟩ := idx t
  funext j
  show scale (iblk2 V c 0 t) (iblk2 V c 1 t) j
    = scale (n := 2000000) (V c main_v50) (V c main_v30) (((cfg2.win 2).blk t).view.emb j)
  refine scale_block _ _ _ _ j _ ?_ ?_
  · show V c main_v50 (((cfg2.win 0).blk t).view.emb j) = V c main_v50 (((cfg2.win 2).blk t).view.emb j)
    refine congrArg _ (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * (j 1).val = win2_2.index t (1 : Fin 2) * 64 + 1 * (j 1).val; omega
  · show V c main_v30 (((cfg2.win 1).blk t).view.emb (ix2 (j 0) (0 : Fin 1)))
      = V c main_v30 (ix2 ((((cfg2.win 2).blk t).view.emb j) 0) (0 : Fin 1))
    refine congrArg _ (funext fun a => Fin.ext ?_)
    match a with
    | ⟨0, _⟩ => show win2_1.index t (0 : Fin 2) * 10000 + 1 * (j 0).val = win2_2.index t (0 : Fin 2) * 10000 + 1 * (j 0).val; omega
    | ⟨1, _⟩ => show win2_1.index t (1 : Fin 2) * 1 + 1 * 0 = 0; omega

/-- An index of the output array is in point t's block iff each coordinate is in the block's range on its axis. -/
theorem mem_blk (t : Fin cfg2.N) (i : S2000000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v51).slice (win2_2.rect t)).set ↔ _
  rw [View.set_slice_whole, Rect.mem_set_unit]
  exact Iff.rfl

/-- Every row is in the block of the point numbered by the row divided by 10000. -/
theorem cover (i : S2000000x64.Idx) :
    ∃ t : Fin cfg2.N, (cfg2.win 2).flush t = true ∧ i ∈ ((cfg2.win 2).blk t).view.set := by
  have hi0 : (i 0).val < 2000000 := (i 0).isLt
  have hi1 : (i 1).val < 64 := (i 1).isLt
  have hN : cfg2.N = 200 := N_2
  have ht : (i 0).val / 10000 < cfg2.N := by rw [hN]; omega
  refine ⟨⟨(i 0).val / 10000, ht⟩, flush2_2 _, ?_⟩
  rw [mem_blk]
  obtain ⟨e0, e1, e2, e3, e4, e5⟩ := idx ⟨(i 0).val / 10000, ht⟩
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, ht⟩ (1 : Fin 2) * 64 ≤ (i 1).val
      ∧ (i 1).val < win2_2.index ⟨(i 0).val / 10000, ht⟩ (1 : Fin 2) * 64 + 64
    rw [e5]
    omega

/-- The output array after the launch is `scale` of the input arrays as the launch finds them. -/
theorem final (c : Dev nD) :
    (dat2 V c).arrAt 2 cfg2.N = scale (n := 2000000) (V c main_v50) (V c main_v30) :=
  (dat2 V c).arrAt_eq_of_cover 2 _ (fun t _ => flushed_eq V c t) cover

end Cert.KernelIdeal.Region2

end
-- ==== Proof.Region3.lean ====
/-
  Launch 3 of the kernel, read as one function of the arrays it finds: its output array ends holding
  `scaleRelu` of its two input arrays (Spec.lean), whatever they are.

  The grid has 25 points; point t works on rows 8000·t … 8000·t + 7999 of the 200000 rows: it loads that block of the matrix and
  of the column, stores the block's `scaleRelu`, and writes it back to the same rows of the output.  A block of rows of
  `scaleRelu` depends only on that block of the inputs, so what point t writes back is block t of `scaleRelu` of the whole
  arrays; the 25 blocks cover all rows (row r is in block r / 8000), so the array ends holding that function.
-/
import proofs.«114209_j62749472195283_2_alg».proof.Proof.Gen.KernelIdeal.Frame
import Idealize.ShloMosaic.Lib.Pipeline.Value
import Idealize.ShloMosaic.Lib.ValueIdx
import proofs.«114209_j62749472195283_2_alg».proof.Proof.Spec
import proofs.«114209_j62749472195283_2_alg».proof.Proof.Bodies

set_option maxRecDepth 16384

noncomputable section

namespace Cert.KernelIdeal.Region3

open Cert.KernelIdeal Cert.KernelIdeal.Gen Cert.HyperLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: every window's block at point t is block t along the rows and block 0 along the
    columns. -/
theorem idx : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = 0
    ∧ win3_2.index t (0 : Fin 2) = t.val
    ∧ win3_2.index t (1 : Fin 2) = 0 :=
  (by decide +kernel : ∀ t : Fin grid3.N, _)

/-- What point t writes back is block t of `scaleRelu` of the arrays as the launch finds them. -/
theorem flushed_eq (c : Dev nD) (t : Fin cfg3.N) :
    (dat3 V c).flushed 2 t
      = ((cfg3.win 2).blk t).view.read (Elt Ideal) (scaleRelu (n := 200000) (V c main_v54) (V c main_v19)) := by
  show (cfg3.win 2).cut (grid3.coords t) ((dat3 V c).after 2 t) = _
  rw [after3_2]
  unfold out3_2
  rw [View.canon_unit_zero hz]
  simp only [View.ld_unit_zero (S := S8000x64) hz, View.ld_unit_zero (S := S8000x1) hz]
  rw [Cert.KernelIdeal.Body.k3_pay1_eq]
  obtain ⟨e0, e1, e2, e3, e4, e5⟩ := idx t
  funext j
  show scaleRelu (iblk3 V c 0 t) (iblk3 V c 1 t) j
    = scaleRelu (n := 200000) (V c main_v54) (V c main_v19) (((cfg3.win 2).blk t).view.emb j)
  refine scaleRelu_block _ _ _ _ j _ ?_ ?_
  · show V c main_v54 (((cfg3.win 0).blk t).view.emb j) = V c main_v54 (((cfg3.win 2).blk t).view.emb j)
    refine congrArg _ (funext fun a => Fin.ext ?_)
    match a with
    | ⟨0, _⟩ => show win3_0.index t (0 : Fin 2) * 8000 + 1 * (j 0).val = win3_2.index t (0 : Fin 2) * 8000 + 1 * (j 0).val; omega
    | ⟨1, _⟩ => show win3_0.index t (1 : Fin 2) * 64 + 1 * (j 1).val = win3_2.index t (1 : Fin 2) * 64 + 1 * (j 1).val; omega
  · show V c main_v19 (((cfg3.win 1).blk t).view.emb (ix2 (j 0) (0 : Fin 1)))
      = V c main_v19 (ix2 ((((cfg3.win 2).blk t).view.emb j) 0) (0 : Fin 1))
    refine congrArg _ (funext fun a => Fin.ext ?_)
    match a with
    | ⟨0, _⟩ => show win3_1.index t (0 : Fin 2) * 8000 + 1 * (j 0).val = win3_2.index t (0 : Fin 2) * 8000 + 1 * (j 0).val; omega
    | ⟨1, _⟩ => show win3_1.index t (1 : Fin 2) * 1 + 1 * 0 = 0; omega

/-- An index of the output array is in point t's block iff each coordinate is in the block's range on its axis. -/
theorem mem_blk (t : Fin cfg3.N) (i : S200000x64.Idx) :
    i ∈ ((cfg3.win 2).blk t).view.set ↔ ∀ a : Fin 2, win3_2.index t a * S8000x64.size a ≤ (i a).val
      ∧ (i a).val < win3_2.index t a * S8000x64.size a + S8000x64.size a := by
  show i ∈ ((View.whole main_v55).slice (win3_2.rect t)).set ↔ _
  rw [View.set_slice_whole, Rect.mem_set_unit]
  exact Iff.rfl

/-- Every row is in the block of the point numbered by the row divided by 8000. -/
theorem cover (i : S200000x64.Idx) :
    ∃ t : Fin cfg3.N, (cfg3.win 2).flush t = true ∧ i ∈ ((cfg3.win 2).blk t).view.set := by
  have hi0 : (i 0).val < 200000 := (i 0).isLt
  have hi1 : (i 1).val < 64 := (i 1).isLt
  have hN : cfg3.N = 25 := N_3
  have ht : (i 0).val / 8000 < cfg3.N := by rw [hN]; omega
  refine ⟨⟨(i 0).val / 8000, ht⟩, flush3_2 _, ?_⟩
  rw [mem_blk]
  obtain ⟨e0, e1, e2, e3, e4, e5⟩ := idx ⟨(i 0).val / 8000, ht⟩
  intro a
  match a with
  | ⟨0, _⟩ =>
    show win3_2.index ⟨(i 0).val / 8000, ht⟩ (0 : Fin 2) * 8000 ≤ (i 0).val
      ∧ (i 0).val < win3_2.index ⟨(i 0).val / 8000, ht⟩ (0 : Fin 2) * 8000 + 8000
    rw [e4]
    show (i 0).val / 8000 * 8000 ≤ (i 0).val ∧ (i 0).val < (i 0).val / 8000 * 8000 + 8000
    omega
  | ⟨1, _⟩ =>
    show win3_2.index ⟨(i 0).val / 8000, ht⟩ (1 : Fin 2) * 64 ≤ (i 1).val
      ∧ (i 1).val < win3_2.index ⟨(i 0).val / 8000, ht⟩ (1 : Fin 2) * 64 + 64
    rw [e5]
    omega

/-- The output array after the launch is `scaleRelu` of the input arrays as the launch finds them. -/
theorem final (c : Dev nD) :
    (dat3 V c).arrAt 2 cfg3.N = scaleRelu (n := 200000) (V c main_v54) (V c main_v19) :=
  (dat3 V c).arrAt_eq_of_cover 2 _ (fun t _ => flushed_eq V c t) cover

end Cert.KernelIdeal.Region3

end
-- ==== Proof.Layer1.lean ====
/-
  The first layer, boundary by boundary: each buffer the kernel writes is the reference's stage of the same name.

  A launch's output is one of the three row-wise maps of what the launch finds in its input arrays (Region0–3); what it
  finds is what the previous boundary's lemma says, carried across the segments in between (Carry.lean); and the
  reference spells that map with broadcasts and a product, which is the same function (RefBridge.lean).  A host stretch
  applies the same gather and scatter-add, with the same index columns, to the same operands as the reference.
-/
import proofs.«114209_j62749472195283_2_alg».proof.Proof.Gen.KernelIdeal.Frame
import Idealize.ShloMosaic.PureOps.Ideal
import Idealize.ShloMosaic.Lib.StableHlo.Run
import proofs.«114209_j62749472195283_2_alg».proof.Proof.ReadP
import proofs.«114209_j62749472195283_2_alg».proof.Proof.Spec
import proofs.«114209_j62749472195283_2_alg».proof.Proof.RefBridge
import proofs.«114209_j62749472195283_2_alg».proof.Proof.Carry
import proofs.«114209_j62749472195283_2_alg».proof.Proof.Stage0
import proofs.«114209_j62749472195283_2_alg».proof.Proof.Region0
import proofs.«114209_j62749472195283_2_alg».proof.Proof.Region1
import proofs.«114209_j62749472195283_2_alg».proof.Proof.Region2
import proofs.«114209_j62749472195283_2_alg».proof.Proof.Region3

set_option maxRecDepth 16384

noncomputable section

namespace Cert.KernelIdeal.Stages

open Cert.KernelIdeal Cert.KernelIdeal.Gen Cert.KernelIdeal.Carry Cert.HyperLayer
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-- The transformed node features. -/
theorem at6_v32 : W6 m ρ c (Proc.devRef .tc main_v32) = val_main_v8 (F := Ideal) (m ((c : Thread nD τ).loc main_arg2)) (m ((c : Thread nD τ).loc main_arg3)) (m ((c : Thread nD τ).loc main_arg4)) := by
  refine (W6_arr m ρ c 3).trans ?_
  rw [Cert.KernelIdeal.Region0.final (V5 m ρ) c]
  show lin (n := 200000) (W5 m ρ c (Proc.devRef .tc main_arg2)) (W5 m ρ c (Proc.devRef .tc main_arg3)) (W5 m ρ c (Proc.devRef .tc main_v31)) = _
  rw [keep_main_arg2_5 m ρ c, keep_main_arg3_5 m ρ c, at5_v31 m ρ c]
  exact (host_lin (n := 200000) Cert.ReferenceIdeal.dot_S200000x64_S64x64_S200000x64_1_0_0_1_n_n rfl _ _ _ _ _ _ _).symm

/-- The transformed features summed into the hyperedges. -/
theorem at7_v42 : W7 m ρ c (Proc.devRef .tc main_v42) = val_main_v43 (F := Ideal) (m ((c : Thread nD τ).loc main_arg0)) (m ((c : Thread nD τ).loc main_arg2)) (m ((c : Thread nD τ).loc main_arg3)) (m ((c : Thread nD τ).loc main_arg4)) := by
  dsimp only [W7, hostOps1]
  after_results_simp
  rw [keep_main_v1_6 m ρ c, keep_main_v3_6 m ρ c, at5_v1 m ρ c, at5_v3 m ρ c, at6_v32 m ρ c]
  rfl

/-- The hyperedge features: the sums divided by the hyperedge degree. -/
theorem at8_v43 : W8 m ρ c (Proc.devRef .tc main_v43) = val_main_v45 (F := Ideal) (m ((c : Thread nD τ).loc main_arg0)) (m ((c : Thread nD τ).loc main_arg2)) (m ((c : Thread nD τ).loc main_arg3)) (m ((c : Thread nD τ).loc main_arg4)) := by
  refine (W8_arr m ρ c 2).trans ?_
  rw [Cert.KernelIdeal.Region1.final (V7 m ρ) c]
  show scale (n := 100000) (W7 m ρ c (Proc.devRef .tc main_v42)) (W7 m ρ c (Proc.devRef .tc main_v29)) = _
  rw [at7_v42 m ρ c, keep_main_v29_7 m ρ c, at5_v29 m ρ c]
  exact (host_scale (n := 100000) _ _ _ _ _).symm

/-- The hyperedge features sent back to every incidence. -/
theorem at9_v50 : W9 m ρ c (Proc.devRef .tc main_v50) = val_main_v61 (F := Ideal) (m ((c : Thread nD τ).loc main_arg0)) (m ((c : Thread nD τ).loc main_arg2)) (m ((c : Thread nD τ).loc main_arg3)) (m ((c : Thread nD τ).loc main_arg4)) := by
  dsimp only [W9, hostOps2]
  after_results_simp
  rw [keep_main_v3_8 m ρ c, at5_v3 m ρ c, at8_v43 m ρ c]
  rfl

/-- Each incidence's hyperedge features times the hyperedge weight. -/
theorem at10_v51 : W10 m ρ c (Proc.devRef .tc main_v51) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W10_arr m ρ c 2).trans ?_
  rw [Cert.KernelIdeal.Region2.final (V9 m ρ) c]
  show scale (n := 2000000) (W9 m ρ c (Proc.devRef .tc main_v50)) (W9 m ρ c (Proc.devRef .tc main_v30)) = _
  rw [at9_v50 m ρ c, keep_main_v30_9 m ρ c, at5_v30 m ρ c]
  exact (host_scale (n := 2000000) _ _ _ _ _).symm

/-- The weighted hyperedge features summed at the nodes. -/
theorem at11_v54 : W11 m ρ c (Proc.devRef .tc main_v54) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [W11, hostOps3]
  after_results_simp
  rw [keep_main_v1_10 m ρ c, at5_v1 m ρ c, at10_v51 m ρ c]
  rfl

/-- The first layer's output: the node sums divided by the node degree, cut at zero. -/
theorem at12_v55 : W12 m ρ c (Proc.devRef .tc main_v55) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W12_arr m ρ c 2).trans ?_
  rw [Cert.KernelIdeal.Region3.final (V11 m ρ) c]
  show scaleRelu (n := 200000) (W11 m ρ c (Proc.devRef .tc main_v54)) (W11 m ρ c (Proc.devRef .tc main_v19)) = _
  rw [at11_v54 m ρ c, keep_main_v19_11 m ρ c, at5_v19 m ρ c]
  exact (host_scaleRelu (n := 200000) _ _ _ _ _ _).symm

end Cert.KernelIdeal.Stages

end
-- ==== Proof.Region4.lean ====
/-
  Launch 4 of the kernel, read as one function of the arrays it finds: its output array ends holding the dense
  map `lin` (Spec.lean) of the feature matrix, the weight and the bias row, whatever they are.

  The grid has 25 points; point t works on rows 8000·t … 8000·t + 7999 of the 200000 rows: it loads that block of the features,
  the whole weight and the whole bias row, stores the block's dense map, and writes it back to the same rows of the
  output.  A block of rows of the dense map depends only on that block of the features, so what point t writes back is
  block t of the dense map of the whole arrays; the 25 blocks cover all rows (row r is in block r / 8000).
-/
import proofs.«114209_j62749472195283_2_alg».proof.Proof.Gen.KernelIdeal.Frame
import Idealize.ShloMosaic.Lib.Pipeline.Value
import Idealize.ShloMosaic.Lib.ValueIdx
import proofs.«114209_j62749472195283_2_alg».proof.Proof.Spec
import proofs.«114209_j62749472195283_2_alg».proof.Proof.Bodies

set_option maxRecDepth 16384

noncomputable section

namespace Cert.KernelIdeal.Region4

open Cert.KernelIdeal Cert.KernelIdeal.Gen Cert.HyperLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the features' and the output's block at point t is block t along the rows; the
    weight's and the bias row's is the whole array. -/
theorem idx : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- What point t writes back is block t of the dense map of the arrays as the launch finds them. -/
theorem flushed_eq (c : Dev nD) (t : Fin cfg4.N) :
    (dat4 V c).flushed 3 t
      = ((cfg4.win 3).blk t).view.read (Elt Ideal) (lin (n := 200000) (V c main_v55) (V c main_arg5) (V c main_v56)) := by
  show (cfg4.win 3).cut (grid4.coords t) ((dat4 V c).after 3 t) = _
  rw [after4_3]
  unfold out4_3
  rw [View.canon_unit_zero hz]
  simp only [View.ld_unit_zero (S := S8000x64) hz, View.ld_unit_zero (S := S64x64) hz, View.ld_unit_zero (S := S1x64) hz]
  rw [Cert.KernelIdeal.Body.k4_pay1_eq]
  obtain ⟨e0, e1, e2, e3, e4, e5, e6, e7⟩ := idx t
  funext j
  show lin (iblk4 V c 0 t) (iblk4 V c 1 t) (iblk4 V c 2 t) j
    = lin (n := 200000) (V c main_v55) (V c main_arg5) (V c main_v56) (((cfg4.win 3).blk t).view.emb j)
  refine lin_block _ _ _ _ _ _ j _ (fun q => ?_) (fun q => ?_) ?_
  · show V c main_v55 (((cfg4.win 0).blk t).view.emb (ix2 (j 0) q))
      = V c main_v55 (ix2 ((((cfg4.win 3).blk t).view.emb j) 0) q)
    refine congrArg _ (funext fun a => Fin.ext ?_)
    match a with
    | ⟨0, _⟩ => show win4_0.index t (0 : Fin 2) * 8000 + 1 * (j 0).val = win4_3.index t (0 : Fin 2) * 8000 + 1 * (j 0).val; omega
    | ⟨1, _⟩ => show win4_0.index t (1 : Fin 2) * 64 + 1 * q.val = q.val; omega
  · show V c main_arg5 (((cfg4.win 1).blk t).view.emb (ix2 (j 1) q))
      = V c main_arg5 (ix2 ((((cfg4.win 3).blk t).view.emb j) 1) q)
    refine congrArg _ (funext fun a => Fin.ext ?_)
    match a with
    | ⟨0, _⟩ => show win4_1.index t (0 : Fin 2) * 64 + 1 * (j 1).val = win4_3.index t (1 : Fin 2) * 64 + 1 * (j 1).val; omega
    | ⟨1, _⟩ => show win4_1.index t (1 : Fin 2) * 64 + 1 * q.val = q.val; omega
  · show V c main_v56 (((cfg4.win 2).blk t).view.emb (ix2 (0 : Fin 1) (j 1)))
      = V c main_v56 (ix2 (0 : Fin 1) ((((cfg4.win 3).blk t).view.emb j) 1))
    refine congrArg _ (funext fun a => Fin.ext ?_)
    match a with
    | ⟨0, _⟩ => show win4_2.index t (0 : Fin 2) * 1 + 1 * 0 = 0; omega
    | ⟨1, _⟩ => show win4_2.index t (1 : Fin 2) * 64 + 1 * (j 1).val = win4_3.index t (1 : Fin 2) * 64 + 1 * (j 1).val; omega

/-- An index of the output array is in point t's block iff each coordinate is in the block's range on its axis. -/
theorem mem_blk (t : Fin cfg4.N) (i : S200000x64.Idx) :
    i ∈ ((cfg4.win 3).blk t).view.set ↔ ∀ a : Fin 2, win4_3.index t a * S8000x64.size a ≤ (i a).val
      ∧ (i a).val < win4_3.index t a * S8000x64.size a + S8000x64.size a := by
  show i ∈ ((View.whole main_v57).slice (win4_3.rect t)).set ↔ _
  rw [View.set_slice_whole, Rect.mem_set_unit]
  exact Iff.rfl

/-- Every row is in the block of the point numbered by the row divided by 8000. -/
theorem cover (i : S200000x64.Idx) :
    ∃ t : Fin cfg4.N, (cfg4.win 3).flush t = true ∧ i ∈ ((cfg4.win 3).blk t).view.set := by
  have hi0 : (i 0).val < 200000 := (i 0).isLt
  have hi1 : (i 1).val < 64 := (i 1).isLt
  have hN : cfg4.N = 25 := N_4
  have ht : (i 0).val / 8000 < cfg4.N := by rw [hN]; omega
  refine ⟨⟨(i 0).val / 8000, ht⟩, flush4_3 _, ?_⟩
  rw [mem_blk]
  obtain ⟨e0, e1, e2, e3, e4, e5, e6, e7⟩ := idx ⟨(i 0).val / 8000, ht⟩
  intro a
  match a with
  | ⟨0, _⟩ =>
    show win4_3.index ⟨(i 0).val / 8000, ht⟩ (0 : Fin 2) * 8000 ≤ (i 0).val
      ∧ (i 0).val < win4_3.index ⟨(i 0).val / 8000, ht⟩ (0 : Fin 2) * 8000 + 8000
    rw [e6]
    show (i 0).val / 8000 * 8000 ≤ (i 0).val ∧ (i 0).val < (i 0).val / 8000 * 8000 + 8000
    omega
  | ⟨1, _⟩ =>
    show win4_3.index ⟨(i 0).val / 8000, ht⟩ (1 : Fin 2) * 64 ≤ (i 1).val
      ∧ (i 1).val < win4_3.index ⟨(i 0).val / 8000, ht⟩ (1 : Fin 2) * 64 + 64
    rw [e7]
    omega

/-- The output array after the launch is the dense map of the input arrays as the launch finds them. -/
theorem final (c : Dev nD) :
    (dat4 V c).arrAt 3 cfg4.N = lin (n := 200000) (V c main_v55) (V c main_arg5) (V c main_v56) :=
  (dat4 V c).arrAt_eq_of_cover 3 _ (fun t _ => flushed_eq V c t) cover

end Cert.KernelIdeal.Region4

end
-- ==== Proof.Region5.lean ====
/-
  Launch 5 of the kernel, read as one function of the arrays it finds: its output array ends holding
  `scale` of its two input arrays (Spec.lean), whatever they are.

  The grid has 10 points; point t works on rows 10000·t … 10000·t + 9999 of the 100000 rows: it loads that block of the matrix and
  of the column, stores the block's `scale`, and writes it back to the same rows of the output.  A block of rows of
  `scale` depends only on that block of the inputs, so what point t writes back is block t of `scale` of the whole
  arrays; the 10 blocks cover all rows (row r is in block r / 10000), so the array ends holding that function.
-/
import proofs.«114209_j62749472195283_2_alg».proof.Proof.Gen.KernelIdeal.Frame
import Idealize.ShloMosaic.Lib.Pipeline.Value
import Idealize.ShloMosaic.Lib.ValueIdx
import proofs.«114209_j62749472195283_2_alg».proof.Proof.Spec
import proofs.«114209_j62749472195283_2_alg».proof.Proof.Bodies

set_option maxRecDepth 16384

noncomputable section

namespace Cert.KernelIdeal.Region5

open Cert.KernelIdeal Cert.KernelIdeal.Gen Cert.HyperLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: every window's block at point t is block t along the rows and block 0 along the
    columns. -/
theorem idx : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = 0
    ∧ win5_2.index t (0 : Fin 2) = t.val
    ∧ win5_2.index t (1 : Fin 2) = 0 :=
  (by decide +kernel : ∀ t : Fin grid5.N, _)

/-- What point t writes back is block t of `scale` of the arrays as the launch finds them. -/
theorem flushed_eq (c : Dev nD) (t : Fin cfg5.N) :
    (dat5 V c).flushed 2 t
      = ((cfg5.win 2).blk t).view.read (Elt Ideal) (scale (n := 100000) (V c main_v67) (V c main_v29)) := by
  show (cfg5.win 2).cut (grid5.coords t) ((dat5 V c).after 2 t) = _
  rw [after5_2]
  unfold out5_2
  rw [View.canon_unit_zero hz]
  simp only [View.ld_unit_zero (S := S10000x64) hz, View.ld_unit_zero (S := S10000x1) hz]
  rw [Cert.KernelIdeal.Body.k5_pay1_eq]
  obtain ⟨e0, e1, e2, e3, e4, e5⟩ := idx t
  funext j
  show scale (iblk5 V c 0 t) (iblk5 V c 1 t) j
    = scale (n := 100000) (V c main_v67) (V c main_v29) (((cfg5.win 2).blk t).view.emb j)
  refine scale_block _ _ _ _ j _ ?_ ?_
  · show V c main_v67 (((cfg5.win 0).blk t).view.emb j) = V c main_v67 (((cfg5.win 2).blk t).view.emb j)
    refine congrArg _ (funext fun a => Fin.ext ?_)
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  · show V c main_v29 (((cfg5.win 1).blk t).view.emb (ix2 (j 0) (0 : Fin 1)))
      = V c main_v29 (ix2 ((((cfg5.win 2).blk t).view.emb j) 0) (0 : Fin 1))
    refine congrArg _ (funext fun a => Fin.ext ?_)
    match a with
    | ⟨0, _⟩ => show win5_1.index t (0 : Fin 2) * 10000 + 1 * (j 0).val = win5_2.index t (0 : Fin 2) * 10000 + 1 * (j 0).val; omega
    | ⟨1, _⟩ => show win5_1.index t (1 : Fin 2) * 1 + 1 * 0 = 0; omega

/-- An index of the output array is in point t's block iff each coordinate is in the block's range on its axis. -/
theorem mem_blk (t : Fin cfg5.N) (i : S100000x64.Idx) :
    i ∈ ((cfg5.win 2).blk t).view.set ↔ ∀ a : Fin 2, win5_2.index t a * S10000x64.size a ≤ (i a).val
      ∧ (i a).val < win5_2.index t a * S10000x64.size a + S10000x64.size a := by
  show i ∈ ((View.whole main_v68).slice (win5_2.rect t)).set ↔ _
  rw [View.set_slice_whole, Rect.mem_set_unit]
  exact Iff.rfl

/-- Every row is in the block of the point numbered by the row divided by 10000. -/
theorem cover (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 10 := N_5
  have ht : (i 0).val / 10000 < cfg5.N := by rw [hN]; omega
  refine ⟨⟨(i 0).val / 10000, ht⟩, flush5_2 _, ?_⟩
  rw [mem_blk]
  obtain ⟨e0, e1, e2, e3, e4, e5⟩ := idx ⟨(i 0).val / 10000, ht⟩
  intro a
  match a with
  | ⟨0, _⟩ =>
    show win5_2.index ⟨(i 0).val / 10000, ht⟩ (0 : Fin 2) * 10000 ≤ (i 0).val
      ∧ (i 0).val < win5_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win5_2.index ⟨(i 0).val / 10000, ht⟩ (1 : Fin 2) * 64 ≤ (i 1).val
      ∧ (i 1).val < win5_2.index ⟨(i 0).val / 10000, ht⟩ (1 : Fin 2) * 64 + 64
    rw [e5]
    omega

/-- The output array after the launch is `scale` of the input arrays as the launch finds them. -/
theorem final (c : Dev nD) :
    (dat5 V c).arrAt 2 cfg5.N = scale (n := 100000) (V c main_v67) (V c main_v29) :=
  (dat5 V c).arrAt_eq_of_cover 2 _ (fun t _ => flushed_eq V c t) cover

end Cert.KernelIdeal.Region5

end
-- ==== Proof.Region6.lean ====
/-
  Launch 6 of the kernel, read as one function of the arrays it finds: its output array ends holding
  `scale` of its two input arrays (Spec.lean), whatever they are.

  The grid has 200 points; point t works on rows 10000·t … 10000·t + 9999 of the 2000000 rows: it loads that block of the matrix and
  of the column, stores the block's `scale`, and writes it back to the same rows of the output.  A block of rows of
  `scale` depends only on that block of the inputs, so what point t writes back is block t of `scale` of the whole
  arrays; the 200 blocks cover all rows (row r is in block r / 10000), so the array ends holding that function.
-/
import proofs.«114209_j62749472195283_2_alg».proof.Proof.Gen.KernelIdeal.Frame
import Idealize.ShloMosaic.Lib.Pipeline.Value
import Idealize.ShloMosaic.Lib.ValueIdx
import proofs.«114209_j62749472195283_2_alg».proof.Proof.Spec
import proofs.«114209_j62749472195283_2_alg».proof.Proof.Bodies

set_option maxRecDepth 16384

noncomputable section

namespace Cert.KernelIdeal.Region6

open Cert.KernelIdeal Cert.KernelIdeal.Gen Cert.HyperLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: every window's block at point t is block t along the rows and block 0 along the
    columns. -/
theorem idx : ∀ t : Fin cfg6.N, win6_0.index t (0 : Fin 2) = win6_2.index t (0 : Fin 2)
    ∧ win6_0.index t (1 : Fin 2) = win6_2.index t (1 : Fin 2)
    ∧ win6_1.index t (0 : Fin 2) = win6_2.index t (0 : Fin 2)
    ∧ win6_1.index t (1 : Fin 2) = 0
    ∧ win6_2.index t (0 : Fin 2) = t.val
    ∧ win6_2.index t (1 : Fin 2) = 0 :=
  (by decide +kernel : ∀ t : Fin grid6.N, _)

/-- What point t writes back is block t of `scale` of the arrays as the launch finds them. -/
theorem flushed_eq (c : Dev nD) (t : Fin cfg6.N) :
    (dat6 V c).flushed 2 t
      = ((cfg6.win 2).blk t).view.read (Elt Ideal) (scale (n := 2000000) (V c main_v75) (V c main_v30)) := by
  show (cfg6.win 2).cut (grid6.coords t) ((dat6 V c).after 2 t) = _
  rw [after6_2]
  unfold out6_2
  rw [View.canon_unit_zero hz]
  simp only [View.ld_unit_zero (S := S10000x64) hz, View.ld_unit_zero (S := S10000x1) hz]
  rw [Cert.KernelIdeal.Body.k6_pay1_eq]
  obtain ⟨e0, e1, e2, e3, e4, e5⟩ := idx t
  funext j
  show scale (iblk6 V c 0 t) (iblk6 V c 1 t) j
    = scale (n := 2000000) (V c main_v75) (V c main_v30) (((cfg6.win 2).blk t).view.emb j)
  refine scale_block _ _ _ _ j _ ?_ ?_
  · show V c main_v75 (((cfg6.win 0).blk t).view.emb j) = V c main_v75 (((cfg6.win 2).blk t).view.emb j)
    refine congrArg _ (funext fun a => Fin.ext ?_)
    match a with
    | ⟨0, _⟩ => show win6_0.index t (0 : Fin 2) * 10000 + 1 * (j 0).val = win6_2.index t (0 : Fin 2) * 10000 + 1 * (j 0).val; omega
    | ⟨1, _⟩ => show win6_0.index t (1 : Fin 2) * 64 + 1 * (j 1).val = win6_2.index t (1 : Fin 2) * 64 + 1 * (j 1).val; omega
  · show V c main_v30 (((cfg6.win 1).blk t).view.emb (ix2 (j 0) (0 : Fin 1)))
      = V c main_v30 (ix2 ((((cfg6.win 2).blk t).view.emb j) 0) (0 : Fin 1))
    refine congrArg _ (funext fun a => Fin.ext ?_)
    match a with
    | ⟨0, _⟩ => show win6_1.index t (0 : Fin 2) * 10000 + 1 * (j 0).val = win6_2.index t (0 : Fin 2) * 10000 + 1 * (j 0).val; omega
    | ⟨1, _⟩ => show win6_1.index t (1 : Fin 2) * 1 + 1 * 0 = 0; omega

/-- An index of the output array is in point t's block iff each coordinate is in the block's range on its axis. -/
theorem mem_blk (t : Fin cfg6.N) (i : S2000000x64.Idx) :
    i ∈ ((cfg6.win 2).blk t).view.set ↔ ∀ a : Fin 2, win6_2.index t a * S10000x64.size a ≤ (i a).val
      ∧ (i a).val < win6_2.index t a * S10000x64.size a + S10000x64.size a := by
  show i ∈ ((View.whole main_v76).slice (win6_2.rect t)).set ↔ _
  rw [View.set_slice_whole, Rect.mem_set_unit]
  exact Iff.rfl

/-- Every row is in the block of the point numbered by the row divided by 10000. -/
theorem cover (i : S2000000x64.Idx) :
    ∃ t : Fin cfg6.N, (cfg6.win 2).flush t = true ∧ i ∈ ((cfg6.win 2).blk t).view.set := by
  have hi0 : (i 0).val < 2000000 := (i 0).isLt
  have hi1 : (i 1).val < 64 := (i 1).isLt
  have hN : cfg6.N = 200 := N_6
  have ht : (i 0).val / 10000 < cfg6.N := by rw [hN]; omega
  refine ⟨⟨(i 0).val / 10000, ht⟩, flush6_2 _, ?_⟩
  rw [mem_blk]
  obtain ⟨e0, e1, e2, e3, e4, e5⟩ := idx ⟨(i 0).val / 10000, ht⟩
  intro a
  match a with
  | ⟨0, _⟩ =>
    show win6_2.index ⟨(i 0).val / 10000, ht⟩ (0 : Fin 2) * 10000 ≤ (i 0).val
      ∧ (i 0).val < win6_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win6_2.index ⟨(i 0).val / 10000, ht⟩ (1 : Fin 2) * 64 ≤ (i 1).val
      ∧ (i 1).val < win6_2.index ⟨(i 0).val / 10000, ht⟩ (1 : Fin 2) * 64 + 64
    rw [e5]
    omega

/-- The output array after the launch is `scale` of the input arrays as the launch finds them. -/
theorem final (c : Dev nD) :
    (dat6 V c).arrAt 2 cfg6.N = scale (n := 2000000) (V c main_v75) (V c main_v30) :=
  (dat6 V c).arrAt_eq_of_cover 2 _ (fun t _ => flushed_eq V c t) cover

end Cert.KernelIdeal.Region6

end
-- ==== Proof.Region7.lean ====
/-
  Launch 7 of the kernel, read as one function of the arrays it finds: its output array ends holding
  `scaleRelu` of its two input arrays (Spec.lean), whatever they are.

  The grid has 25 points; point t works on rows 8000·t … 8000·t + 7999 of the 200000 rows: it loads that block of the matrix and
  of the column, stores the block's `scaleRelu`, and writes it back to the same rows of the output.  A block of rows of
  `scaleRelu` depends only on that block of the inputs, so what point t writes back is block t of `scaleRelu` of the whole
  arrays; the 25 blocks cover all rows (row r is in block r / 8000), so the array ends holding that function.
-/
import proofs.«114209_j62749472195283_2_alg».proof.Proof.Gen.KernelIdeal.Frame
import Idealize.ShloMosaic.Lib.Pipeline.Value
import Idealize.ShloMosaic.Lib.ValueIdx
import proofs.«114209_j62749472195283_2_alg».proof.Proof.Spec
import proofs.«114209_j62749472195283_2_alg».proof.Proof.Bodies

set_option maxRecDepth 16384

noncomputable section

namespace Cert.KernelIdeal.Region7

open Cert.KernelIdeal Cert.KernelIdeal.Gen Cert.HyperLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: every window's block at point t is block t along the rows and block 0 along the
    columns. -/
theorem idx : ∀ t : Fin cfg7.N, win7_0.index t (0 : Fin 2) = win7_2.index t (0 : Fin 2)
    ∧ win7_0.index t (1 : Fin 2) = win7_2.index t (1 : Fin 2)
    ∧ win7_1.index t (0 : Fin 2) = win7_2.index t (0 : Fin 2)
    ∧ win7_1.index t (1 : Fin 2) = 0
    ∧ win7_2.index t (0 : Fin 2) = t.val
    ∧ win7_2.index t (1 : Fin 2) = 0 :=
  (by decide +kernel : ∀ t : Fin grid7.N, _)

/-- What point t writes back is block t of `scaleRelu` of the arrays as the launch finds them. -/
theorem flushed_eq (c : Dev nD) (t : Fin cfg7.N) :
    (dat7 V c).flushed 2 t
      = ((cfg7.win 2).blk t).view.read (Elt Ideal) (scaleRelu (n := 200000) (V c main_v79) (V c main_v19)) := by
  show (cfg7.win 2).cut (grid7.coords t) ((dat7 V c).after 2 t) = _
  rw [after7_2]
  unfold out7_2
  rw [View.canon_unit_zero hz]
  simp only [View.ld_unit_zero (S := S8000x64) hz, View.ld_unit_zero (S := S8000x1) hz]
  rw [Cert.KernelIdeal.Body.k7_pay1_eq]
  obtain ⟨e0, e1, e2, e3, e4, e5⟩ := idx t
  funext j
  show scaleRelu (iblk7 V c 0 t) (iblk7 V c 1 t) j
    = scaleRelu (n := 200000) (V c main_v79) (V c main_v19) (((cfg7.win 2).blk t).view.emb j)
  refine scaleRelu_block _ _ _ _ j _ ?_ ?_
  · show V c main_v79 (((cfg7.win 0).blk t).view.emb j) = V c main_v79 (((cfg7.win 2).blk t).view.emb j)
    refine congrArg _ (funext fun a => Fin.ext ?_)
    match a with
    | ⟨0, _⟩ => show win7_0.index t (0 : Fin 2) * 8000 + 1 * (j 0).val = win7_2.index t (0 : Fin 2) * 8000 + 1 * (j 0).val; omega
    | ⟨1, _⟩ => show win7_0.index t (1 : Fin 2) * 64 + 1 * (j 1).val = win7_2.index t (1 : Fin 2) * 64 + 1 * (j 1).val; omega
  · show V c main_v19 (((cfg7.win 1).blk t).view.emb (ix2 (j 0) (0 : Fin 1)))
      = V c main_v19 (ix2 ((((cfg7.win 2).blk t).view.emb j) 0) (0 : Fin 1))
    refine congrArg _ (funext fun a => Fin.ext ?_)
    match a with
    | ⟨0, _⟩ => show win7_1.index t (0 : Fin 2) * 8000 + 1 * (j 0).val = win7_2.index t (0 : Fin 2) * 8000 + 1 * (j 0).val; omega
    | ⟨1, _⟩ => show win7_1.index t (1 : Fin 2) * 1 + 1 * 0 = 0; omega

/-- An index of the output array is in point t's block iff each coordinate is in the block's range on its axis. -/
theorem mem_blk (t : Fin cfg7.N) (i : S200000x64.Idx) :
    i ∈ ((cfg7.win 2).blk t).view.set ↔ ∀ a : Fin 2, win7_2.index t a * S8000x64.size a ≤ (i a).val
      ∧ (i a).val < win7_2.index t a * S8000x64.size a + S8000x64.size a := by
  show i ∈ ((View.whole main_v80).slice (win7_2.rect t)).set ↔ _
  rw [View.set_slice_whole, Rect.mem_set_unit]
  exact Iff.rfl

/-- Every row is in the block of the point numbered by the row divided by 8000. -/
theorem cover (i : S200000x64.Idx) :
    ∃ t : Fin cfg7.N, (cfg7.win 2).flush t = true ∧ i ∈ ((cfg7.win 2).blk t).view.set := by
  have hi0 : (i 0).val < 200000 := (i 0).isLt
  have hi1 : (i 1).val < 64 := (i 1).isLt
  have hN : cfg7.N = 25 := N_7
  have ht : (i 0).val / 8000 < cfg7.N := by rw [hN]; omega
  refine ⟨⟨(i 0).val / 8000, ht⟩, flush7_2 _, ?_⟩
  rw [mem_blk]
  obtain ⟨e0, e1, e2, e3, e4, e5⟩ := idx ⟨(i 0).val / 8000, ht⟩
  intro a
  match a with
  | ⟨0, _⟩ =>
    show win7_2.index ⟨(i 0).val / 8000, ht⟩ (0 : Fin 2) * 8000 ≤ (i 0).val
      ∧ (i 0).val < win7_2.index ⟨(i 0).val / 8000, ht⟩ (0 : Fin 2) * 8000 + 8000
    rw [e4]
    show (i 0).val / 8000 * 8000 ≤ (i 0).val ∧ (i 0).val < (i 0).val / 8000 * 8000 + 8000
    omega
  | ⟨1, _⟩ =>
    show win7_2.index ⟨(i 0).val / 8000, ht⟩ (1 : Fin 2) * 64 ≤ (i 1).val
      ∧ (i 1).val < win7_2.index ⟨(i 0).val / 8000, ht⟩ (1 : Fin 2) * 64 + 64
    rw [e5]
    omega

/-- The output array after the launch is `scaleRelu` of the input arrays as the launch finds them. -/
theorem final (c : Dev nD) :
    (dat7 V c).arrAt 2 cfg7.N = scaleRelu (n := 200000) (V c main_v79) (V c main_v19) :=
  (dat7 V c).arrAt_eq_of_cover 2 _ (fun t _ => flushed_eq V c t) cover

end Cert.KernelIdeal.Region7

end
-- ==== Proof.Layer2.lean ====
/-
  The second layer, boundary by boundary, as in the first: its input is the first layer's output, and the reference
  recomputes the two inverse degrees and the incidence weights with the operations the kernel ran once.
-/
import proofs.«114209_j62749472195283_2_alg».proof.Proof.Gen.KernelIdeal.Frame
import Idealize.ShloMosaic.PureOps.Ideal
import Idealize.ShloMosaic.Lib.StableHlo.Run
import proofs.«114209_j62749472195283_2_alg».proof.Proof.ReadP
import proofs.«114209_j62749472195283_2_alg».proof.Proof.Spec
import proofs.«114209_j62749472195283_2_alg».proof.Proof.RefBridge
import proofs.«114209_j62749472195283_2_alg».proof.Proof.Carry
import proofs.«114209_j62749472195283_2_alg».proof.Proof.Stage0
import proofs.«114209_j62749472195283_2_alg».proof.Proof.Layer1
import proofs.«114209_j62749472195283_2_alg».proof.Proof.Region4
import proofs.«114209_j62749472195283_2_alg».proof.Proof.Region5
import proofs.«114209_j62749472195283_2_alg».proof.Proof.Region6
import proofs.«114209_j62749472195283_2_alg».proof.Proof.Region7

set_option maxRecDepth 16384

noncomputable section

namespace Cert.KernelIdeal.Stages

open Cert.KernelIdeal Cert.KernelIdeal.Gen Cert.KernelIdeal.Carry Cert.HyperLayer
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-- The second layer's bias, as a row. -/
theorem at13_v56 : W13 m ρ c (Proc.devRef .tc main_v56) = shapeCast S1x64 (m ((c : Thread nD τ).loc main_arg6)) shapeCasts_S64_S1x64 := by
  dsimp only [W13, hostOps4]
  after_results_simp
  rw [keep_main_arg6_12 m ρ c]
  rfl

/-- The transformed node features. -/
theorem at14_v57 : W14 m ρ c (Proc.devRef .tc main_v57) = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W14_arr m ρ c 3).trans ?_
  rw [Cert.KernelIdeal.Region4.final (V13 m ρ) c]
  show lin (n := 200000) (W13 m ρ c (Proc.devRef .tc main_v55)) (W13 m ρ c (Proc.devRef .tc main_arg5)) (W13 m ρ c (Proc.devRef .tc main_v56)) = _
  rw [keep_main_v55_13 m ρ c, at12_v55 m ρ c, keep_main_arg5_13 m ρ c, at13_v56 m ρ c]
  exact (host_lin (n := 200000) Cert.ReferenceIdeal.dot_S200000x64_S64x64_S200000x64_1_0_0_1_n_n rfl _ _ _ _ _ _ _).symm

/-- The transformed features summed into the hyperedges. -/
theorem at15_v67 : W15 m ρ c (Proc.devRef .tc main_v67) = val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  dsimp only [W15, hostOps5]
  after_results_simp
  rw [keep_main_v1_14 m ρ c, keep_main_v3_14 m ρ c, at5_v1 m ρ c, at5_v3 m ρ c, at14_v57 m ρ c]
  rfl

/-- The hyperedge features. -/
theorem at16_v68 : W16 m ρ c (Proc.devRef .tc main_v68) = val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W16_arr m ρ c 2).trans ?_
  rw [Cert.KernelIdeal.Region5.final (V15 m ρ) c]
  show scale (n := 100000) (W15 m ρ c (Proc.devRef .tc main_v67)) (W15 m ρ c (Proc.devRef .tc main_v29)) = _
  rw [at15_v67 m ρ c, keep_main_v29_15 m ρ c, at5_v29 m ρ c]
  exact (host_scale (n := 100000) _ _ _ _ _).symm

/-- The hyperedge features sent back to every incidence. -/
theorem at17_v75 : W17 m ρ c (Proc.devRef .tc main_v75) = val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  dsimp only [W17, hostOps6]
  after_results_simp
  rw [keep_main_v3_16 m ρ c, at5_v3 m ρ c, at16_v68 m ρ c]
  rfl

/-- Each incidence's hyperedge features times the hyperedge weight. -/
theorem at18_v76 : W18 m ρ c (Proc.devRef .tc main_v76) = val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W18_arr m ρ c 2).trans ?_
  rw [Cert.KernelIdeal.Region6.final (V17 m ρ) c]
  show scale (n := 2000000) (W17 m ρ c (Proc.devRef .tc main_v75)) (W17 m ρ c (Proc.devRef .tc main_v30)) = _
  rw [at17_v75 m ρ c, keep_main_v30_17 m ρ c, at5_v30 m ρ c]
  exact (host_scale (n := 2000000) _ _ _ _ _).symm

/-- The weighted hyperedge features summed at the nodes. -/
theorem at19_v79 : W19 m ρ c (Proc.devRef .tc main_v79) = val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  dsimp only [W19, hostOps7]
  after_results_simp
  rw [keep_main_v1_18 m ρ c, at5_v1 m ρ c, at18_v76 m ρ c]
  rfl

/-- The second layer's output. -/
theorem at20_v80 : W20 m ρ c (Proc.devRef .tc main_v80) = val_main_v135 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W20_arr m ρ c 2).trans ?_
  rw [Cert.KernelIdeal.Region7.final (V19 m ρ) c]
  show scaleRelu (n := 200000) (W19 m ρ c (Proc.devRef .tc main_v79)) (W19 m ρ c (Proc.devRef .tc main_v19)) = _
  rw [at19_v79 m ρ c, keep_main_v19_19 m ρ c, at5_v19 m ρ c]
  exact (host_scaleRelu (n := 200000) _ _ _ _ _ _).symm

end Cert.KernelIdeal.Stages

end
-- ==== Proof.Region8.lean ====
/-
  Launch 8 of the kernel, read as one function of the arrays it finds: its output array ends holding the dense
  map `lin` (Spec.lean) of the feature matrix, the weight and the bias row, whatever they are.

  The grid has 25 points; point t works on rows 8000·t … 8000·t + 7999 of the 200000 rows: it loads that block of the features,
  the whole weight and the whole bias row, stores the block's dense map, and writes it back to the same rows of the
  output.  A block of rows of the dense map depends only on that block of the features, so what point t writes back is
  block t of the dense map of the whole arrays; the 25 blocks cover all rows (row r is in block r / 8000).
-/
import proofs.«114209_j62749472195283_2_alg».proof.Proof.Gen.KernelIdeal.Frame
import Idealize.ShloMosaic.Lib.Pipeline.Value
import Idealize.ShloMosaic.Lib.ValueIdx
import proofs.«114209_j62749472195283_2_alg».proof.Proof.Spec
import proofs.«114209_j62749472195283_2_alg».proof.Proof.Bodies

set_option maxRecDepth 16384

noncomputable section

namespace Cert.KernelIdeal.Region8

open Cert.KernelIdeal Cert.KernelIdeal.Gen Cert.HyperLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the features' and the output's block at point t is block t along the rows; the
    weight's and the bias row's is the whole array. -/
theorem idx : ∀ t : Fin cfg8.N, win8_0.index t (0 : Fin 2) = win8_3.index t (0 : Fin 2)
    ∧ win8_0.index t (1 : Fin 2) = 0
    ∧ win8_1.index t (0 : Fin 2) = 0
    ∧ win8_1.index t (1 : Fin 2) = 0
    ∧ win8_2.index t (0 : Fin 2) = 0
    ∧ win8_2.index t (1 : Fin 2) = 0
    ∧ win8_3.index t (0 : Fin 2) = t.val
    ∧ win8_3.index t (1 : Fin 2) = 0 :=
  (by decide +kernel : ∀ t : Fin grid8.N, _)

/-- What point t writes back is block t of the dense map of the arrays as the launch finds them. -/
theorem flushed_eq (c : Dev nD) (t : Fin cfg8.N) :
    (dat8 V c).flushed 3 t
      = ((cfg8.win 3).blk t).view.read (Elt Ideal) (lin (n := 200000) (V c main_v80) (V c main_arg7) (V c main_v81)) := by
  show (cfg8.win 3).cut (grid8.coords t) ((dat8 V c).after 3 t) = _
  rw [after8_3]
  unfold out8_3
  rw [View.canon_unit_zero hz]
  simp only [View.ld_unit_zero (S := S8000x64) hz, View.ld_unit_zero (S := S64x64) hz, View.ld_unit_zero (S := S1x64) hz]
  rw [Cert.KernelIdeal.Body.k8_pay1_eq]
  obtain ⟨e0, e1, e2, e3, e4, e5, e6, e7⟩ := idx t
  funext j
  show lin (iblk8 V c 0 t) (iblk8 V c 1 t) (iblk8 V c 2 t) j
    = lin (n := 200000) (V c main_v80) (V c main_arg7) (V c main_v81) (((cfg8.win 3).blk t).view.emb j)
  refine lin_block _ _ _ _ _ _ j _ (fun q => ?_) (fun q => ?_) ?_
  · show V c main_v80 (((cfg8.win 0).blk t).view.emb (ix2 (j 0) q))
      = V c main_v80 (ix2 ((((cfg8.win 3).blk t).view.emb j) 0) q)
    refine congrArg _ (funext fun a => Fin.ext ?_)
    match a with
    | ⟨0, _⟩ => show win8_0.index t (0 : Fin 2) * 8000 + 1 * (j 0).val = win8_3.index t (0 : Fin 2) * 8000 + 1 * (j 0).val; omega
    | ⟨1, _⟩ => show win8_0.index t (1 : Fin 2) * 64 + 1 * q.val = q.val; omega
  · show V c main_arg7 (((cfg8.win 1).blk t).view.emb (ix2 (j 1) q))
      = V c main_arg7 (ix2 ((((cfg8.win 3).blk t).view.emb j) 1) q)
    refine congrArg _ (funext fun a => Fin.ext ?_)
    match a with
    | ⟨0, _⟩ => show win8_1.index t (0 : Fin 2) * 64 + 1 * (j 1).val = win8_3.index t (1 : Fin 2) * 64 + 1 * (j 1).val; omega
    | ⟨1, _⟩ => show win8_1.index t (1 : Fin 2) * 64 + 1 * q.val = q.val; omega
  · show V c main_v81 (((cfg8.win 2).blk t).view.emb (ix2 (0 : Fin 1) (j 1)))
      = V c main_v81 (ix2 (0 : Fin 1) ((((cfg8.win 3).blk t).view.emb j) 1))
    refine congrArg _ (funext fun a => Fin.ext ?_)
    match a with
    | ⟨0, _⟩ => show win8_2.index t (0 : Fin 2) * 1 + 1 * 0 = 0; omega
    | ⟨1, _⟩ => show win8_2.index t (1 : Fin 2) * 64 + 1 * (j 1).val = win8_3.index t (1 : Fin 2) * 64 + 1 * (j 1).val; omega

/-- An index of the output array is in point t's block iff each coordinate is in the block's range on its axis. -/
theorem mem_blk (t : Fin cfg8.N) (i : S200000x64.Idx) :
    i ∈ ((cfg8.win 3).blk t).view.set ↔ ∀ a : Fin 2, win8_3.index t a * S8000x64.size a ≤ (i a).val
      ∧ (i a).val < win8_3.index t a * S8000x64.size a + S8000x64.size a := by
  show i ∈ ((View.whole main_v82).slice (win8_3.rect t)).set ↔ _
  rw [View.set_slice_whole, Rect.mem_set_unit]
  exact Iff.rfl

/-- Every row is in the block of the point numbered by the row divided by 8000. -/
theorem cover (i : S200000x64.Idx) :
    ∃ t : Fin cfg8.N, (cfg8.win 3).flush t = true ∧ i ∈ ((cfg8.win 3).blk t).view.set := by
  have hi0 : (i 0).val < 200000 := (i 0).isLt
  have hi1 : (i 1).val < 64 := (i 1).isLt
  have hN : cfg8.N = 25 := N_8
  have ht : (i 0).val / 8000 < cfg8.N := by rw [hN]; omega
  refine ⟨⟨(i 0).val / 8000, ht⟩, flush8_3 _, ?_⟩
  rw [mem_blk]
  obtain ⟨e0, e1, e2, e3, e4, e5, e6, e7⟩ := idx ⟨(i 0).val / 8000, ht⟩
  intro a
  match a with
  | ⟨0, _⟩ =>
    show win8_3.index ⟨(i 0).val / 8000, ht⟩ (0 : Fin 2) * 8000 ≤ (i 0).val
      ∧ (i 0).val < win8_3.index ⟨(i 0).val / 8000, ht⟩ (0 : Fin 2) * 8000 + 8000
    rw [e6]
    show (i 0).val / 8000 * 8000 ≤ (i 0).val ∧ (i 0).val < (i 0).val / 8000 * 8000 + 8000
    omega
  | ⟨1, _⟩ =>
    show win8_3.index ⟨(i 0).val / 8000, ht⟩ (1 : Fin 2) * 64 ≤ (i 1).val
      ∧ (i 1).val < win8_3.index ⟨(i 0).val / 8000, ht⟩ (1 : Fin 2) * 64 + 64
    rw [e7]
    omega

/-- The output array after the launch is the dense map of the input arrays as the launch finds them. -/
theorem final (c : Dev nD) :
    (dat8 V c).arrAt 3 cfg8.N = lin (n := 200000) (V c main_v80) (V c main_arg7) (V c main_v81) :=
  (dat8 V c).arrAt_eq_of_cover 3 _ (fun t _ => flushed_eq V c t) cover

end Cert.KernelIdeal.Region8

end
-- ==== Proof.Region9.lean ====
/-
  Launch 9 of the kernel, read as one function of the arrays it finds: its output array ends holding
  `scale` of its two input arrays (Spec.lean), whatever they are.

  The grid has 10 points; point t works on rows 10000·t … 10000·t + 9999 of the 100000 rows: it loads that block of the matrix and
  of the column, stores the block's `scale`, and writes it back to the same rows of the output.  A block of rows of
  `scale` depends only on that block of the inputs, so what point t writes back is block t of `scale` of the whole
  arrays; the 10 blocks cover all rows (row r is in block r / 10000), so the array ends holding that function.
-/
import proofs.«114209_j62749472195283_2_alg».proof.Proof.Gen.KernelIdeal.Frame
import Idealize.ShloMosaic.Lib.Pipeline.Value
import Idealize.ShloMosaic.Lib.ValueIdx
import proofs.«114209_j62749472195283_2_alg».proof.Proof.Spec
import proofs.«114209_j62749472195283_2_alg».proof.Proof.Bodies

set_option maxRecDepth 16384

noncomputable section

namespace Cert.KernelIdeal.Region9

open Cert.KernelIdeal Cert.KernelIdeal.Gen Cert.HyperLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: every window's block at point t is block t along the rows and block 0 along the
    columns. -/
theorem idx : ∀ t : Fin cfg9.N, win9_0.index t (0 : Fin 2) = win9_2.index t (0 : Fin 2)
    ∧ win9_0.index t (1 : Fin 2) = win9_2.index t (1 : Fin 2)
    ∧ win9_1.index t (0 : Fin 2) = win9_2.index t (0 : Fin 2)
    ∧ win9_1.index t (1 : Fin 2) = 0
    ∧ win9_2.index t (0 : Fin 2) = t.val
    ∧ win9_2.index t (1 : Fin 2) = 0 :=
  (by decide +kernel : ∀ t : Fin grid9.N, _)

/-- What point t writes back is block t of `scale` of the arrays as the launch finds them. -/
theorem flushed_eq (c : Dev nD) (t : Fin cfg9.N) :
    (dat9 V c).flushed 2 t
      = ((cfg9.win 2).blk t).view.read (Elt Ideal) (scale (n := 100000) (V c main_v92) (V c main_v29)) := by
  show (cfg9.win 2).cut (grid9.coords t) ((dat9 V c).after 2 t) = _
  rw [after9_2]
  unfold out9_2
  rw [View.canon_unit_zero hz]
  simp only [View.ld_unit_zero (S := S10000x64) hz, View.ld_unit_zero (S := S10000x1) hz]
  rw [Cert.KernelIdeal.Body.k9_pay1_eq]
  obtain ⟨e0, e1, e2, e3, e4, e5⟩ := idx t
  funext j
  show scale (iblk9 V c 0 t) (iblk9 V c 1 t) j
    = scale (n := 100000) (V c main_v92) (V c main_v29) (((cfg9.win 2).blk t).view.emb j)
  refine scale_block _ _ _ _ j _ ?_ ?_
  · show V c main_v92 (((cfg9.win 0).blk t).view.emb j) = V c main_v92 (((cfg9.win 2).blk t).view.emb j)
    refine congrArg _ (funext fun a => Fin.ext ?_)
    match a with
    | ⟨0, _⟩ => show win9_0.index t (0 : Fin 2) * 10000 + 1 * (j 0).val = win9_2.index t (0 : Fin 2) * 10000 + 1 * (j 0).val; omega
    | ⟨1, _⟩ => show win9_0.index t (1 : Fin 2) * 64 + 1 * (j 1).val = win9_2.index t (1 : Fin 2) * 64 + 1 * (j 1).val; omega
  · show V c main_v29 (((cfg9.win 1).blk t).view.emb (ix2 (j 0) (0 : Fin 1)))
      = V c main_v29 (ix2 ((((cfg9.win 2).blk t).view.emb j) 0) (0 : Fin 1))
    refine congrArg _ (funext fun a => Fin.ext ?_)
    match a with
    | ⟨0, _⟩ => show win9_1.index t (0 : Fin 2) * 10000 + 1 * (j 0).val = win9_2.index t (0 : Fin 2) * 10000 + 1 * (j 0).val; omega
    | ⟨1, _⟩ => show win9_1.index t (1 : Fin 2) * 1 + 1 * 0 = 0; omega

/-- An index of the output array is in point t's block iff each coordinate is in the block's range on its axis. -/
theorem mem_blk (t : Fin cfg9.N) (i : S100000x64.Idx) :
    i ∈ ((cfg9.win 2).blk t).view.set ↔ ∀ a : Fin 2, win9_2.index t a * S10000x64.size a ≤ (i a).val
      ∧ (i a).val < win9_2.index t a * S10000x64.size a + S10000x64.size a := by
  show i ∈ ((View.whole main_v93).slice (win9_2.rect t)).set ↔ _
  rw [View.set_slice_whole, Rect.mem_set_unit]
  exact Iff.rfl

/-- Every row is in the block of the point numbered by the row divided by 10000. -/
theorem cover (i : S100000x64.Idx) :
    ∃ t : Fin cfg9.N, (cfg9.win 2).flush t = true ∧ i ∈ ((cfg9.win 2).blk t).view.set := by
  have hi0 : (i 0).val < 100000 := (i 0).isLt
  have hi1 : (i 1).val < 64 := (i 1).isLt
  have hN : cfg9.N = 10 := N_9
  have ht : (i 0).val / 10000 < cfg9.N := by rw [hN]; omega
  refine ⟨⟨(i 0).val / 10000, ht⟩, flush9_2 _, ?_⟩
  rw [mem_blk]
  obtain ⟨e0, e1, e2, e3, e4, e5⟩ := idx ⟨(i 0).val / 10000, ht⟩
  intro a
  match a with
  | ⟨0, _⟩ =>
    show win9_2.index ⟨(i 0).val / 10000, ht⟩ (0 : Fin 2) * 10000 ≤ (i 0).val
      ∧ (i 0).val < win9_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win9_2.index ⟨(i 0).val / 10000, ht⟩ (1 : Fin 2) * 64 ≤ (i 1).val
      ∧ (i 1).val < win9_2.index ⟨(i 0).val / 10000, ht⟩ (1 : Fin 2) * 64 + 64
    rw [e5]
    omega

/-- The output array after the launch is `scale` of the input arrays as the launch finds them. -/
theorem final (c : Dev nD) :
    (dat9 V c).arrAt 2 cfg9.N = scale (n := 100000) (V c main_v92) (V c main_v29) :=
  (dat9 V c).arrAt_eq_of_cover 2 _ (fun t _ => flushed_eq V c t) cover

end Cert.KernelIdeal.Region9

end
-- ==== Proof.Region10.lean ====
/-
  Launch 10 of the kernel, read as one function of the arrays it finds: its output array ends holding
  `scale` of its two input arrays (Spec.lean), whatever they are.

  The grid has 200 points; point t works on rows 10000·t … 10000·t + 9999 of the 2000000 rows: it loads that block of the matrix and
  of the column, stores the block's `scale`, and writes it back to the same rows of the output.  A block of rows of
  `scale` depends only on that block of the inputs, so what point t writes back is block t of `scale` of the whole
  arrays; the 200 blocks cover all rows (row r is in block r / 10000), so the array ends holding that function.
-/
import proofs.«114209_j62749472195283_2_alg».proof.Proof.Gen.KernelIdeal.Frame
import Idealize.ShloMosaic.Lib.Pipeline.Value
import Idealize.ShloMosaic.Lib.ValueIdx
import proofs.«114209_j62749472195283_2_alg».proof.Proof.Spec
import proofs.«114209_j62749472195283_2_alg».proof.Proof.Bodies

set_option maxRecDepth 16384

noncomputable section

namespace Cert.KernelIdeal.Region10

open Cert.KernelIdeal Cert.KernelIdeal.Gen Cert.HyperLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: every window's block at point t is block t along the rows and block 0 along the
    columns. -/
theorem idx : ∀ t : Fin cfg10.N, win10_0.index t (0 : Fin 2) = win10_2.index t (0 : Fin 2)
    ∧ win10_0.index t (1 : Fin 2) = win10_2.index t (1 : Fin 2)
    ∧ win10_1.index t (0 : Fin 2) = win10_2.index t (0 : Fin 2)
    ∧ win10_1.index t (1 : Fin 2) = 0
    ∧ win10_2.index t (0 : Fin 2) = t.val
    ∧ win10_2.index t (1 : Fin 2) = 0 :=
  (by decide +kernel : ∀ t : Fin grid10.N, _)

/-- What point t writes back is block t of `scale` of the arrays as the launch finds them. -/
theorem flushed_eq (c : Dev nD) (t : Fin cfg10.N) :
    (dat10 V c).flushed 2 t
      = ((cfg10.win 2).blk t).view.read (Elt Ideal) (scale (n := 2000000) (V c main_v100) (V c main_v30)) := by
  show (cfg10.win 2).cut (grid10.coords t) ((dat10 V c).after 2 t) = _
  rw [after10_2]
  unfold out10_2
  rw [View.canon_unit_zero hz]
  simp only [View.ld_unit_zero (S := S10000x64) hz, View.ld_unit_zero (S := S10000x1) hz]
  rw [Cert.KernelIdeal.Body.k10_pay1_eq]
  obtain ⟨e0, e1, e2, e3, e4, e5⟩ := idx t
  funext j
  show scale (iblk10 V c 0 t) (iblk10 V c 1 t) j
    = scale (n := 2000000) (V c main_v100) (V c main_v30) (((cfg10.win 2).blk t).view.emb j)
  refine scale_block _ _ _ _ j _ ?_ ?_
  · show V c main_v100 (((cfg10.win 0).blk t).view.emb j) = V c main_v100 (((cfg10.win 2).blk t).view.emb j)
    refine congrArg _ (funext fun a => Fin.ext ?_)
    match a with
    | ⟨0, _⟩ => show win10_0.index t (0 : Fin 2) * 10000 + 1 * (j 0).val = win10_2.index t (0 : Fin 2) * 10000 + 1 * (j 0).val; omega
    | ⟨1, _⟩ => show win10_0.index t (1 : Fin 2) * 64 + 1 * (j 1).val = win10_2.index t (1 : Fin 2) * 64 + 1 * (j 1).val; omega
  · show V c main_v30 (((cfg10.win 1).blk t).view.emb (ix2 (j 0) (0 : Fin 1)))
      = V c main_v30 (ix2 ((((cfg10.win 2).blk t).view.emb j) 0) (0 : Fin 1))
    refine congrArg _ (funext fun a => Fin.ext ?_)
    match a with
    | ⟨0, _⟩ => show win10_1.index t (0 : Fin 2) * 10000 + 1 * (j 0).val = win10_2.index t (0 : Fin 2) * 10000 + 1 * (j 0).val; omega
    | ⟨1, _⟩ => show win10_1.index t (1 : Fin 2) * 1 + 1 * 0 = 0; omega

/-- An index of the output array is in point t's block iff each coordinate is in the block's range on its axis. -/
theorem mem_blk (t : Fin cfg10.N) (i : S2000000x64.Idx) :
    i ∈ ((cfg10.win 2).blk t).view.set ↔ ∀ a : Fin 2, win10_2.index t a * S10000x64.size a ≤ (i a).val
      ∧ (i a).val < win10_2.index t a * S10000x64.size a + S10000x64.size a := by
  show i ∈ ((View.whole main_v101).slice (win10_2.rect t)).set ↔ _
  rw [View.set_slice_whole, Rect.mem_set_unit]
  exact Iff.rfl

/-- Every row is in the block of the point numbered by the row divided by 10000. -/
theorem cover (i : S2000000x64.Idx) :
    ∃ t : Fin cfg10.N, (cfg10.win 2).flush t = true ∧ i ∈ ((cfg10.win 2).blk t).view.set := by
  have hi0 : (i 0).val < 2000000 := (i 0).isLt
  have hi1 : (i 1).val < 64 := (i 1).isLt
  have hN : cfg10.N = 200 := N_10
  have ht : (i 0).val / 10000 < cfg10.N := by rw [hN]; omega
  refine ⟨⟨(i 0).val / 10000, ht⟩, flush10_2 _, ?_⟩
  rw [mem_blk]
  obtain ⟨e0, e1, e2, e3, e4, e5⟩ := idx ⟨(i 0).val / 10000, ht⟩
  intro a
  match a with
  | ⟨0, _⟩ =>
    show win10_2.index ⟨(i 0).val / 10000, ht⟩ (0 : Fin 2) * 10000 ≤ (i 0).val
      ∧ (i 0).val < win10_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win10_2.index ⟨(i 0).val / 10000, ht⟩ (1 : Fin 2) * 64 ≤ (i 1).val
      ∧ (i 1).val < win10_2.index ⟨(i 0).val / 10000, ht⟩ (1 : Fin 2) * 64 + 64
    rw [e5]
    omega

/-- The output array after the launch is `scale` of the input arrays as the launch finds them. -/
theorem final (c : Dev nD) :
    (dat10 V c).arrAt 2 cfg10.N = scale (n := 2000000) (V c main_v100) (V c main_v30) :=
  (dat10 V c).arrAt_eq_of_cover 2 _ (fun t _ => flushed_eq V c t) cover

end Cert.KernelIdeal.Region10

end
-- ==== Proof.Region11.lean ====
/-
  Launch 11 of the kernel, read as one function of the arrays it finds: its output array ends holding
  `scale` of its two input arrays (Spec.lean), whatever they are.

  The grid has 25 points; point t works on rows 8000·t … 8000·t + 7999 of the 200000 rows: it loads that block of the matrix and
  of the column, stores the block's `scale`, and writes it back to the same rows of the output.  A block of rows of
  `scale` depends only on that block of the inputs, so what point t writes back is block t of `scale` of the whole
  arrays; the 25 blocks cover all rows (row r is in block r / 8000), so the array ends holding that function.
-/
import proofs.«114209_j62749472195283_2_alg».proof.Proof.Gen.KernelIdeal.Frame
import Idealize.ShloMosaic.Lib.Pipeline.Value
import Idealize.ShloMosaic.Lib.ValueIdx
import proofs.«114209_j62749472195283_2_alg».proof.Proof.Spec
import proofs.«114209_j62749472195283_2_alg».proof.Proof.Bodies

set_option maxRecDepth 16384

noncomputable section

namespace Cert.KernelIdeal.Region11

open Cert.KernelIdeal Cert.KernelIdeal.Gen Cert.HyperLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: every window's block at point t is block t along the rows and block 0 along the
    columns. -/
theorem idx : ∀ t : Fin cfg11.N, win11_0.index t (0 : Fin 2) = win11_2.index t (0 : Fin 2)
    ∧ win11_0.index t (1 : Fin 2) = win11_2.index t (1 : Fin 2)
    ∧ win11_1.index t (0 : Fin 2) = win11_2.index t (0 : Fin 2)
    ∧ win11_1.index t (1 : Fin 2) = 0
    ∧ win11_2.index t (0 : Fin 2) = t.val
    ∧ win11_2.index t (1 : Fin 2) = 0 :=
  (by decide +kernel : ∀ t : Fin grid11.N, _)

/-- What point t writes back is block t of `scale` of the arrays as the launch finds them. -/
theorem flushed_eq (c : Dev nD) (t : Fin cfg11.N) :
    (dat11 V c).flushed 2 t
      = ((cfg11.win 2).blk t).view.read (Elt Ideal) (scale (n := 200000) (V c main_v104) (V c main_v19)) := by
  show (cfg11.win 2).cut (grid11.coords t) ((dat11 V c).after 2 t) = _
  rw [after11_2]
  unfold out11_2
  rw [View.canon_unit_zero hz]
  simp only [View.ld_unit_zero (S := S8000x64) hz, View.ld_unit_zero (S := S8000x1) hz]
  rw [Cert.KernelIdeal.Body.k11_pay1_eq]
  obtain ⟨e0, e1, e2, e3, e4, e5⟩ := idx t
  funext j
  show scale (iblk11 V c 0 t) (iblk11 V c 1 t) j
    = scale (n := 200000) (V c main_v104) (V c main_v19) (((cfg11.win 2).blk t).view.emb j)
  refine scale_block _ _ _ _ j _ ?_ ?_
  · show V c main_v104 (((cfg11.win 0).blk t).view.emb j) = V c main_v104 (((cfg11.win 2).blk t).view.emb j)
    refine congrArg _ (funext fun a => Fin.ext ?_)
    match a with
    | ⟨0, _⟩ => show win11_0.index t (0 : Fin 2) * 8000 + 1 * (j 0).val = win11_2.index t (0 : Fin 2) * 8000 + 1 * (j 0).val; omega
    | ⟨1, _⟩ => show win11_0.index t (1 : Fin 2) * 64 + 1 * (j 1).val = win11_2.index t (1 : Fin 2) * 64 + 1 * (j 1).val; omega
  · show V c main_v19 (((cfg11.win 1).blk t).view.emb (ix2 (j 0) (0 : Fin 1)))
      = V c main_v19 (ix2 ((((cfg11.win 2).blk t).view.emb j) 0) (0 : Fin 1))
    refine congrArg _ (funext fun a => Fin.ext ?_)
    match a with
    | ⟨0, _⟩ => show win11_1.index t (0 : Fin 2) * 8000 + 1 * (j 0).val = win11_2.index t (0 : Fin 2) * 8000 + 1 * (j 0).val; omega
    | ⟨1, _⟩ => show win11_1.index t (1 : Fin 2) * 1 + 1 * 0 = 0; omega

/-- An index of the output array is in point t's block iff each coordinate is in the block's range on its axis. -/
theorem mem_blk (t : Fin cfg11.N) (i : S200000x64.Idx) :
    i ∈ ((cfg11.win 2).blk t).view.set ↔ ∀ a : Fin 2, win11_2.index t a * S8000x64.size a ≤ (i a).val
      ∧ (i a).val < win11_2.index t a * S8000x64.size a + S8000x64.size a := by
  show i ∈ ((View.whole main_v105).slice (win11_2.rect t)).set ↔ _
  rw [View.set_slice_whole, Rect.mem_set_unit]
  exact Iff.rfl

/-- Every row is in the block of the point numbered by the row divided by 8000. -/
theorem cover (i : S200000x64.Idx) :
    ∃ t : Fin cfg11.N, (cfg11.win 2).flush t = true ∧ i ∈ ((cfg11.win 2).blk t).view.set := by
  have hi0 : (i 0).val < 200000 := (i 0).isLt
  have hi1 : (i 1).val < 64 := (i 1).isLt
  have hN : cfg11.N = 25 := N_11
  have ht : (i 0).val / 8000 < cfg11.N := by rw [hN]; omega
  refine ⟨⟨(i 0).val / 8000, ht⟩, flush11_2 _, ?_⟩
  rw [mem_blk]
  obtain ⟨e0, e1, e2, e3, e4, e5⟩ := idx ⟨(i 0).val / 8000, ht⟩
  intro a
  match a with
  | ⟨0, _⟩ =>
    show win11_2.index ⟨(i 0).val / 8000, ht⟩ (0 : Fin 2) * 8000 ≤ (i 0).val
      ∧ (i 0).val < win11_2.index ⟨(i 0).val / 8000, ht⟩ (0 : Fin 2) * 8000 + 8000
    rw [e4]
    show (i 0).val / 8000 * 8000 ≤ (i 0).val ∧ (i 0).val < (i 0).val / 8000 * 8000 + 8000
    omega
  | ⟨1, _⟩ =>
    show win11_2.index ⟨(i 0).val / 8000, ht⟩ (1 : Fin 2) * 64 ≤ (i 1).val
      ∧ (i 1).val < win11_2.index ⟨(i 0).val / 8000, ht⟩ (1 : Fin 2) * 64 + 64
    rw [e5]
    omega

/-- The output array after the launch is `scale` of the input arrays as the launch finds them. -/
theorem final (c : Dev nD) :
    (dat11 V c).arrAt 2 cfg11.N = scale (n := 200000) (V c main_v104) (V c main_v19) :=
  (dat11 V c).arrAt_eq_of_cover 2 _ (fun t _ => flushed_eq V c t) cover

end Cert.KernelIdeal.Region11

end
-- ==== Proof.Layer3.lean ====
/-
  The third layer, boundary by boundary; its last launch scales without the cut at zero, and its output array is the
  program's result: the reference's last stage of the nine arguments.
-/
import proofs.«114209_j62749472195283_2_alg».proof.Proof.Gen.KernelIdeal.Frame
import Idealize.ShloMosaic.PureOps.Ideal
import Idealize.ShloMosaic.Lib.StableHlo.Run
import proofs.«114209_j62749472195283_2_alg».proof.Proof.ReadP
import proofs.«114209_j62749472195283_2_alg».proof.Proof.Spec
import proofs.«114209_j62749472195283_2_alg».proof.Proof.RefBridge
import proofs.«114209_j62749472195283_2_alg».proof.Proof.Carry
import proofs.«114209_j62749472195283_2_alg».proof.Proof.Stage0
import proofs.«114209_j62749472195283_2_alg».proof.Proof.Layer2
import proofs.«114209_j62749472195283_2_alg».proof.Proof.Region8
import proofs.«114209_j62749472195283_2_alg».proof.Proof.Region9
import proofs.«114209_j62749472195283_2_alg».proof.Proof.Region10
import proofs.«114209_j62749472195283_2_alg».proof.Proof.Region11

set_option maxRecDepth 16384

noncomputable section

namespace Cert.KernelIdeal.Stages

open Cert.KernelIdeal Cert.KernelIdeal.Gen Cert.KernelIdeal.Carry Cert.HyperLayer
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-- The third layer's bias, as a row. -/
theorem at21_v81 : W21 m ρ c (Proc.devRef .tc main_v81) = shapeCast S1x64 (m ((c : Thread nD τ).loc main_arg8)) shapeCasts_S64_S1x64 := by
  dsimp only [W21, hostOps8]
  after_results_simp
  rw [keep_main_arg8_20 m ρ c]
  rfl

/-- The transformed node features. -/
theorem at22_v82 : W22 m ρ c (Proc.devRef .tc main_v82) = val_main_v140 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W22_arr m ρ c 3).trans ?_
  rw [Cert.KernelIdeal.Region8.final (V21 m ρ) c]
  show lin (n := 200000) (W21 m ρ c (Proc.devRef .tc main_v80)) (W21 m ρ c (Proc.devRef .tc main_arg7)) (W21 m ρ c (Proc.devRef .tc main_v81)) = _
  rw [keep_main_v80_21 m ρ c, at20_v80 m ρ c, keep_main_arg7_21 m ρ c, at21_v81 m ρ c]
  exact (host_lin (n := 200000) Cert.ReferenceIdeal.dot_S200000x64_S64x64_S200000x64_1_0_0_1_n_n rfl _ _ _ _ _ _ _).symm

/-- The transformed features summed into the hyperedges. -/
theorem at23_v92 : W23 m ρ c (Proc.devRef .tc main_v92) = val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  dsimp only [W23, hostOps9]
  after_results_simp
  rw [keep_main_v1_22 m ρ c, keep_main_v3_22 m ρ c, at5_v1 m ρ c, at5_v3 m ρ c, at22_v82 m ρ c]
  rfl

/-- The hyperedge features. -/
theorem at24_v93 : W24 m ρ c (Proc.devRef .tc main_v93) = val_main_v177 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W24_arr m ρ c 2).trans ?_
  rw [Cert.KernelIdeal.Region9.final (V23 m ρ) c]
  show scale (n := 100000) (W23 m ρ c (Proc.devRef .tc main_v92)) (W23 m ρ c (Proc.devRef .tc main_v29)) = _
  rw [at23_v92 m ρ c, keep_main_v29_23 m ρ c, at5_v29 m ρ c]
  exact (host_scale (n := 100000) _ _ _ _ _).symm

/-- The hyperedge features sent back to every incidence. -/
theorem at25_v100 : W25 m ρ c (Proc.devRef .tc main_v100) = val_main_v193 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  dsimp only [W25, hostOps10]
  after_results_simp
  rw [keep_main_v3_24 m ρ c, at5_v3 m ρ c, at24_v93 m ρ c]
  rfl

/-- Each incidence's hyperedge features times the hyperedge weight. -/
theorem at26_v101 : W26 m ρ c (Proc.devRef .tc main_v101) = val_main_v195 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W26_arr m ρ c 2).trans ?_
  rw [Cert.KernelIdeal.Region10.final (V25 m ρ) c]
  show scale (n := 2000000) (W25 m ρ c (Proc.devRef .tc main_v100)) (W25 m ρ c (Proc.devRef .tc main_v30)) = _
  rw [at25_v100 m ρ c, keep_main_v30_25 m ρ c, at5_v30 m ρ c]
  exact (host_scale (n := 2000000) _ _ _ _ _).symm

/-- The weighted hyperedge features summed at the nodes. -/
theorem at27_v104 : W27 m ρ c (Proc.devRef .tc main_v104) = val_main_v198 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  dsimp only [W27, hostOps11]
  after_results_simp
  rw [keep_main_v1_26 m ρ c, at5_v1 m ρ c, at26_v101 m ρ c]
  rfl

/-- The result: the node sums divided by the node degree. -/
theorem at28_v105 : W28 m ρ c (Proc.devRef .tc main_v105) = val_main_v200 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W28_arr m ρ c 2).trans ?_
  rw [Cert.KernelIdeal.Region11.final (V27 m ρ) c]
  show scale (n := 200000) (W27 m ρ c (Proc.devRef .tc main_v104)) (W27 m ρ c (Proc.devRef .tc main_v19)) = _
  rw [at27_v104 m ρ c, keep_main_v19_27 m ρ c, at5_v19 m ρ c]
  exact (host_scale (n := 200000) _ _ _ _ _).symm

end Cert.KernelIdeal.Stages

end
-- ==== Proof.lean ====
/-
  The kernel computes three hypergraph layers X ↦ D⁻¹ H W B⁻¹ Hᵀ (X Θᵀ + b) — with a cut at zero after the first two —
  by twelve launches (the dense map, the division by the hyperedge degree, the multiplication by the hyperedge weight,
  the division by the node degree with the cut, per layer) among host gathers and scatter-adds over the two million
  incidences; the reference computes the same layers on the host.  At the ideal instance the two results are equal,
  element by element, for every input:

  * a launch's output array is one row-wise function of the arrays it finds (Region0 … Region11 over Bodies and Spec);
  * the host's spelling of that function — broadcasts and a product, with the scaling column on the other side of the
    product — is the same function, by the commutativity of multiplication on the extended reals and nothing else
    (RefBridge): no law that needs finite values is used, so the precondition is never opened;
  * between the launches both programs apply the same gathers and scatter-adds, with the same index columns, to the
    same operands, so the kernel's buffer at every boundary is the reference's stage of the same arguments (Stage0,
    Layer1 … Layer3 over Carry), and the last one is the result.

  The frames are the generated ones; the reference's frame is its run with the value dropped; the idealization rewrote
  no operation, so there is nothing to preserve.
-/
import proofs.«114209_j62749472195283_2_alg».proof.Defs
import proofs.«114209_j62749472195283_2_alg».proof.Proof.Gen.Kernel
import proofs.«114209_j62749472195283_2_alg».proof.Proof.Gen.Kernel.Skeleton
import proofs.«114209_j62749472195283_2_alg».proof.Proof.Gen.Kernel.Launch
import proofs.«114209_j62749472195283_2_alg».proof.Proof.Gen.Kernel.Points
import proofs.«114209_j62749472195283_2_alg».proof.Proof.Gen.Kernel.Frame
import proofs.«114209_j62749472195283_2_alg».proof.Proof.Gen.KernelIdeal
import proofs.«114209_j62749472195283_2_alg».proof.Proof.Gen.KernelIdeal.Skeleton
import proofs.«114209_j62749472195283_2_alg».proof.Proof.Gen.KernelIdeal.Launch
import proofs.«114209_j62749472195283_2_alg».proof.Proof.Gen.KernelIdeal.Points
import proofs.«114209_j62749472195283_2_alg».proof.Proof.Gen.KernelIdeal.Frame
import proofs.«114209_j62749472195283_2_alg».proof.Proof.Gen.ReferenceIdeal
import proofs.«114209_j62749472195283_2_alg».proof.Proof.Gen.Pre_finite_inputs
import proofs.«114209_j62749472195283_2_alg».proof.Proof.RunP
import proofs.«114209_j62749472195283_2_alg».proof.Proof.ReadP
import proofs.«114209_j62749472195283_2_alg».proof.Proof.KernelRun
import proofs.«114209_j62749472195283_2_alg».proof.Proof.Layer3
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel :=
  fun m ρ _ => Cert.Kernel.Gen.frame m ρ

/-- So does the idealized kernel. -/
theorem frame_kernelIdeal : Cert.frame_KernelIdeal :=
  fun m ρ _ => Cert.KernelIdeal.Gen.frame m ρ

/-- The reference runs and leaves its arguments unchanged: its run, the result's value dropped. -/
theorem frame_reference : Cert.frame_ReferenceIdeal :=
  fun m ρ _ => (θ_run Cert.ReferenceIdeal.defs _ _).mono (fun _ h c => (h c).2)
    (Cert.ReferenceIdeal.ValueP.run (F := Ideal) m ρ)

/-- From memories agreeing on the nine arguments both idealized programs end with the result array at the reference's
    last stage of those arguments. -/
theorem algebraic : Cert.algebraic_KernelIdeal_ReferenceIdeal := by
  intro m ρ m' ρ' _ hagree
  refine ⟨fun c => Cert.ReferenceIdeal.ReadP.val_main_v200 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Stages.at28_v105 m ρ c), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v200_eq m' c]
    obtain ⟨e0, e1, e2, e3, e4, e5, e6, e7, e8⟩ := hagree c
    rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
